-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S6 : Shape := ⟨1, ![6]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192 : Shape := ⟨2, ![1, 8192]⟩
abbrev S256x64 : Shape := ⟨2, ![256, 64]⟩
abbrev S256x1 : Shape := ⟨2, ![256, 1]⟩
abbrev S1x256 : Shape := ⟨2, ![1, 256]⟩
abbrev S256x8192 : Shape := ⟨2, ![256, 8192]⟩
abbrev S256 : Shape := ⟨1, ![256]⟩

abbrev nBuf : Space → Nat
  | .hbm => 46
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x64, .f32⟩
  | .hbm, ⟨34, _⟩ => ⟨S8192x64, .f32⟩
  | .hbm, ⟨35, _⟩ => ⟨S8192x1, .i32⟩
  | .hbm, ⟨36, _⟩ => ⟨S1x8192, .i32⟩
  | .hbm, ⟨37, _⟩ => ⟨S1x8192, .f32⟩
  | .hbm, ⟨38, _⟩ => ⟨S1x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8_0 : Ref sig .tc := ⟨.hbm, 37, rfl⟩
abbrev main_v8_1 : Ref sig .tc := ⟨.hbm, 38, rfl⟩
abbrev main_cst_0 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  reducesTo_S8192x64_S8192_d1 : S8192x64.ReducesTo [1] S8192
  bcast_S8192x1_S8192x64_0_1 : S8192x1.BroadcastsInDim S8192x64 (![0, 1] : Fin 2 → Fin S8192x64.rank)
  shapeCasts_S8192_S8192x1 : S8192.ShapeCasts S8192x1
  shapeCasts_S8192_S1x8192 : S8192.ShapeCasts S1x8192
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  iota_S256x1_d0_w32 : S256x1.Iotas .tc 32 [0]
  iota_S1x8192_d1_w32 : S1x8192.Iotas .tc 32 [1]
  reduces_S256x8192_S256 : S256x8192.Reduces [1] S256
  shapeCasts_S256_S256x1 : S256.ShapeCasts S256x1
  shapeCasts_S256x1_S1x256 : S256x1.ShapeCasts S1x256
  inb_S1x256_S1x256_0_0 : ∀ a, (![0, 0] : Fin 2 → Nat) a + S1x256.size a ≤ S1x256.size a
  h_S1x256 : 0 < S1x256.numel
  natLt_1_32 : 1 < 32
  reducesTo_S1x8192_S_d0_1 : S1x8192.ReducesTo [0, 1] S_
  gather_S6_S8192x1_S8192_n_0_n_n_0_1_1_wf : GatherDims.WF S6 S8192x1 S8192 [] [0] [] [0] [] 1 ![1]
  dot_S256x64_S8192x64_S256x8192_1_1_0_0_n_n_wf : DotDims.WF S256x64 S8192x64 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf

abbrev win0_0 : Pipeline.Window sig grid0 :=
  Pipeline.Window.ofSpec (Memref.whole main_v5) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192 : Shape := ⟨1, ![8192]⟩
abbrev S6 : Shape := ⟨1, ![6]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S64x8192 : Shape := ⟨2, ![64, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x64, .f32⟩
  | .hbm, ⟨34, _⟩ => ⟨S8192x64, .f32⟩
  | .hbm, ⟨35, _⟩ => ⟨S64x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S8192x8192, .i1⟩
  | .hbm, ⟨52, _⟩ => ⟨S8192x8192, .i1⟩
  | .hbm, ⟨53, _⟩ => ⟨S8192x1, .i32⟩
  | .hbm, ⟨54, _⟩ => ⟨S1x8192, .i32⟩
  | .hbm, ⟨55, _⟩ => ⟨S8192x8192, .i32⟩
  | .hbm, ⟨56, _⟩ => ⟨S8192x8192, .i32⟩
  | .hbm, ⟨57, _⟩ => ⟨S8192x8192, .i1⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .i1⟩
  | .hbm, ⟨71, _⟩ => ⟨S8192, .i1⟩
  | .hbm, ⟨72, _⟩ => ⟨S_, .i1⟩
  | .hbm, ⟨73, _⟩ => ⟨S8192, .i1⟩
  | .hbm, ⟨74, _⟩ => ⟨S8192, .i1⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_cst_4 : Ref sig .tc := ⟨.hbm, 64, rfl⟩
abbrev main_call3_v0 : Ref sig .tc := ⟨.hbm, 65, rfl⟩
abbrev main_call3_v1 : Ref sig .tc := ⟨.hbm, 66, rfl⟩
abbrev main_v29 : Ref sig .tc := ⟨.hbm, 67, rfl⟩
abbrev main_cst_5 : Ref sig .tc := ⟨.hbm, 68, rfl⟩
abbrev main_v30 : Ref sig .tc := ⟨.hbm, 69, rfl⟩
abbrev main_c_6 : Ref sig .tc := ⟨.hbm, 70, rfl⟩
abbrev main_v31 : Ref sig .tc := ⟨.hbm, 71, rfl⟩
abbrev main_c_7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_8 : Ref sig .tc := ⟨.hbm, 76, rfl⟩
abbrev main_v35 : Ref sig .tc := ⟨.hbm, 77, rfl⟩
abbrev main_v36 : Ref sig .tc := ⟨.hbm, 78, rfl⟩
abbrev main_call4_cst : Ref sig .tc := ⟨.hbm, 79, rfl⟩
abbrev main_call4_v0 : Ref sig .tc := ⟨.hbm, 80, rfl⟩
abbrev main_v37 : Ref sig .tc := ⟨.hbm, 81, rfl⟩
abbrev main_cst_9 : Ref sig .tc := ⟨.hbm, 82, rfl⟩
abbrev main_call5_v0 : Ref sig .tc := ⟨.hbm, 83, rfl⟩
abbrev main_call5_v1 : Ref sig .tc := ⟨.hbm, 84, rfl⟩
abbrev main_v38 : Ref sig .tc := ⟨.hbm, 85, rfl⟩
abbrev main_v39 : Ref sig .tc := ⟨.hbm, 86, rfl⟩
abbrev main_cst_10 : Ref sig .tc := ⟨.hbm, 87, rfl⟩
abbrev main_v40 : Ref sig .tc := ⟨.hbm, 88, rfl⟩
abbrev main_cst_11 : Ref sig .tc := ⟨.hbm, 89, rfl⟩
abbrev main_v41 : Ref sig .tc := ⟨.hbm, 90, rfl⟩
abbrev main_cst_12 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  reducesTo_S8192x64_S8192_d1 : S8192x64.ReducesTo [1] S8192
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  gather_S6_S8192x1_S8192_n_0_n_n_0_1_1_wf : GatherDims.WF S6 S8192x1 S8192 [] [0] [] [0] [] 1 ![1]
  dot_S8192x64_S64x8192_S8192x8192_1_0_0_1_n_n_wf : DotDims.WF S8192x64 S64x8192 S8192x8192 [1] [0] [0] [1] [] []

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KDefs.lean ====
/-
  The kernel's pipeline as data: what the region finds in the arrays, each window's block at a grid point, what the
  body leaves in its two output blocks, and the proof data of the one pipeline.

  The grid has 32 points. At point `t` the body reads four input blocks — rows `256 t … 256 t + 255` of the
  normalized embeddings, ALL rows of the same array, the same rows of the family column, and the whole family row — and
  writes two output blocks of 256 lanes: the rows' losses and the rows' weights. The two embedding windows sit on ONE
  array; each holds half of its ownership.
-/
import proofs.«142051_j14310831030886_2_alg».proof.Proof.Gen.KernelIdeal.Launch
import proofs.«142051_j14310831030886_2_alg».proof.Proof.Gen.KernelIdeal.Skeleton
import proofs.«142051_j14310831030886_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host operations before the region, stretch by stretch. -/
abbrev preOps : List (List (HloOp τ sig (Elt F))) := [hostOps0, hostOps0_1, hostOps0_2, hostOps0_3]

/-- Core `c`'s buffers when the region is entered: the host operations before it, folded over the launch memory. -/
abbrev V0 (c : Dev nD) : Valuation τ sig (Elt F) := StableHlo.after (preOps (F := F)).flatten (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev r0 : Rect S256x64 := Rect.unit (s := S256x64) ![0, 0] S256x64.size inb_S256x64_S256x64_0_0
abbrev r1 : Rect S8192x64 := Rect.unit (s := S8192x64) ![0, 0] S8192x64.size inb_S8192x64_S8192x64_0_0
abbrev r2 : Rect S256x1 := Rect.unit (s := S256x1) ![0, 0] S256x1.size inb_S256x1_S256x1_0_0
abbrev r3 : Rect S1x8192 := Rect.unit (s := S1x8192) ![0, 0] S1x8192.size inb_S1x8192_S1x8192_0_0
abbrev r4 : Rect S1x256 := Rect.unit (s := S1x256) ![0, 0] S1x256.size inb_S1x256_S1x256_0_0

/-- The losses' block after the body at grid coordinate `i`, from the four input blocks: its one store. -/
def out0_4 (i : grid0.Coords) (x0 : Vec F S256x64 .f32) (x1 : Vec F S8192x64 .f32) (x2 : Vec F S256x1 .i32) (x3 : Vec F S1x8192 .i32) :
    Vec F S1x256 .f32 :=
  View.canon [⟨r4, k0_pay2 (k0_pay7 (View.ld x2 r2) (View.ld x3 r3)) (k0_pay8 i (View.ld x0 r0) (View.ld x1 r1) (View.ld x2 r2) (View.ld x3 r3))
    (k0_pay9 (View.ld x0 r0) (View.ld x1 r1) (View.ld x2 r2) (View.ld x3 r3)) (k0_pay10 i (View.ld x2 r2) (View.ld x3 r3))
    (Scalar.ofBits .f32 0x00000000#32)⟩]

/-- The weights' block after the body, from the two family blocks: its one store. -/
def out0_5 (i : grid0.Coords) (x2 : Vec F S256x1 .i32) (x3 : Vec F S1x8192 .i32) : Vec F S1x256 .f32 :=
  View.canon [⟨r4, k0_pay3 (k0_pay7 (View.ld x2 r2) (View.ld x3 r3)) (k0_pay10 i (View.ld x2 r2) (View.ld x3 r3))
    (Scalar.ofBits .f32 0x00000000#32)⟩]

/-! ## The pipeline's proof data -/

/-- The proof data on core `c`: the arrays as the region finds them; after the body at point `t` each input's buffer
    at its block and each output's at the body's store; nothing owed; the two windows on the embeddings' array each at
    half of it, every other window at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]
theorem after0_5 (c : Dev nD) (t : Fin cfg0.N) :
    (dats m 0 c).after 5 t = out0_5 (grid0.coords t) (iblk m c 2 t) (iblk m c 3 t) := by dsimp only [dats]

end Cert.KernelIdeal.Hand

end
-- ==== Proof.KBody.lean ====
/-
  The kernel's body at one grid point, and the pipeline's body obligation.

  At a grid point the body is handed six staging buffers: four inputs (256 rows of the normalized embeddings, all 8192
  rows of the same array, the 256 rows' family words as a column, all 8192 family words as a row) and two outputs of 256
  lanes. It loads the four inputs whole, computes, and overwrites each output whole; it keeps nothing from point to
  point. So what each output buffer holds afterwards is a closed function of the four input blocks — the payload of
  its one store — and each input buffer is left as it was found. An input that the pipeline fetches at the first point
  only (its block never moves) still holds its block at every later point.
-/
import proofs.«142051_j14310831030886_2_alg».proof.Proof.Gen.KernelIdeal.Launch
import proofs.«142051_j14310831030886_2_alg».proof.Proof.Gen.KernelIdeal.Skeleton
import proofs.«142051_j14310831030886_2_alg».proof.Proof.Gen.KernelIdeal.Points
import proofs.«142051_j14310831030886_2_alg».proof.Proof.KDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- A whole-buffer store of 256 lanes covers the output block. -/
theorem cover_r4 (p0 : Vec F S1x256 .f32) (y : S1x256.Idx) :
    ∃ pc ∈ ([⟨r4, p0⟩] : List (View.Piece (Elt F) S1x256 .f32)), y ∈ pc.1.set :=
  View.cover_of_tiled [⟨r4, p0⟩] S1x256.size (by rfl) y

set_option maxHeartbeats 1000000 in
/-- The body on whole staging buffers: the four inputs at read contents `x0 … x3`, the two outputs at anything. It
    reads the four inputs whole, computes, and overwrites each output whole; the inputs are left as they were, the
    losses' block holds `out0_4` of the inputs and the weights' block `out0_5` of the two family blocks. -/
theorem sound_kernel (c : Dev nD) (E : Set ℕ) (i : grid0.Coords)
    (arg1 : Memref sig .tc .vmem S256x64 .f32) (harg1 : arg1.IsWhole) (arg2 : Memref sig .tc .vmem S8192x64 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x256 .f32) (harg5 : arg5.IsWhole) (arg6 : Memref sig .tc .vmem S1x256 .f32) (harg6 : arg6.IsWhole)
    (x0 : Vec F S256x64 .f32) (x1 : Vec F S8192x64 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3) ∗ owns (c : Thread nD τ) arg6 fullShare (out0_5 i x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_r4 _)
  iexists _; isplitr
  swap; · iexact H5
  ipureintro
  try dsimp only
  exact View.read_writes_eq_canon _ _ _ (cover_r4 _)

variable (m : (ℓ : Loc nD τ sig) → Buf (Elt F) ℓ)

/-! ## What the body finds in each input buffer -/

/-- Input window 0's current staging buffer holds its block at every point, fetched there or not: where it is not
    fetched its block index has not moved since the point before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: where it is not
    fetched its block index has not moved since the point before, and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: where it is not
    fetched its block index has not moved since the point before, and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: where it is not
    fetched its block index has not moved since the point before, and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KMain.lean ====
/-
  The host program around the kernel's region: 35 host operations before it (the family lookup, the row norms, the
  normalization, two reshapes), the region, 7 after it (the two sums, the clamp, the quotient).
  The operations after the region read only the two arrays the region wrote and write only buffers that are no array of
  the region; the operations before it leave the two argument arrays as launched.
-/
import proofs.«142051_j14310831030886_2_alg».proof.Proof.KDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

end Cert.KernelIdeal.Hand

end
-- ==== Proof.KSplit.lean ====
/-
  How the region's arrays are dealt to its windows at entry. Five distinct buffers stand behind the six windows: the
  normalized embeddings (read by two windows), the family column, the family row, and the two results. Each buffer is
  held whole at the full share; the embeddings' full share is cut into its two halves, one per window reading it.
-/
import proofs.«142051_j14310831030886_2_alg».proof.Proof.KDefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows. -/
theorem arrImage : (Finset.univ.image (Pipeline.arrRef spec0)) = ([main_v5, main_v6, main_v7, main_v8_0, main_v8_1] : List (Ref sig .tc)).toFinset := by
  decide

/-- The five buffers one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8_0) ↦{fullShare} W main_v8_0)
          ∗ (((c.tc : Thread nD τ).loc main_v8_1) ↦{fullShare} W main_v8_1)) :=
  bigSep_eq_bigSepL_of_eq [main_v5, main_v6, main_v7, main_v8_0, main_v8_1] arrImage (by decide) _

/-- The proof data's arrays at any contents, window by window: each window's array is a whole buffer, held at the
    window's share. -/
theorem arrays_windows (c : Dev nD) (G : (w : Fin cfg0.W) → Buf (Elt F) ((cfg0.win w).arr.view.loc (c.tc : Thread nD τ))) :
    (dats m 0 c).arrays G = bigSep Finset.univ fun w => ((((c.tc : Thread nD τ).loc (Pipeline.arrRef spec0 w)) ↦{(dats m 0 c).share w} G w : sProp 𝕄)) := by
  unfold Dat.arrays
  exact bigSep_congr fun w _ => by rw [(arr_whole0 w).set_eq_univ]

/-- The same with the six windows written out: the embeddings' buffer twice, at the two halves of its ownership. -/
theorem arrays_pieces (c : Dev nD) (G : (w : Fin cfg0.W) → Buf (Elt F) ((cfg0.win w).arr.view.loc (c.tc : Thread nD τ))) :
    (dats m 0 c).arrays G
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8_0) ↦{fullShare} G 4) ∗ (((c.tc : Thread nD τ).loc main_v8_1) ↦{fullShare} G 5)) := by
  rw [arrays_windows, bigSep_W0]
  rfl

/-- A buffer held whole at the full share is held twice at the two halves of it, at the same contents. -/
theorem split_core (c : Dev nD) (X5 : Buf (Elt F) ((c.tc : Thread nD τ).loc main_v5)) (X6 : Buf (Elt F) ((c.tc : Thread nD τ).loc main_v6))
    (X7 : Buf (Elt F) ((c.tc : Thread nD τ).loc main_v7)) (X80 : Buf (Elt F) ((c.tc : Thread nD τ).loc main_v8_0))
    (X81 : Buf (Elt F) ((c.tc : Thread nD τ).loc main_v8_1)) :
    (iprop((((c.tc : Thread nD τ).loc main_v5) ↦{fullShare} X5) ∗ (((c.tc : Thread nD τ).loc main_v6) ↦{fullShare} X6)
          ∗ (((c.tc : Thread nD τ).loc main_v7) ↦{fullShare} X7) ∗ (((c.tc : Thread nD τ).loc main_v8_0) ↦{fullShare} X80)
          ∗ (((c.tc : Thread nD τ).loc main_v8_1) ↦{fullShare} X81)) : sProp 𝕄)
      ⊢ iprop((((c.tc : Thread nD τ).loc main_v5) ↦{fullShare.left} X5) ∗ (((c.tc : Thread nD τ).loc main_v5) ↦{fullShare.right} X5)
          ∗ (((c.tc : Thread nD τ).loc main_v6) ↦{fullShare} X6) ∗ (((c.tc : Thread nD τ).loc main_v7) ↦{fullShare} X7)
          ∗ (((c.tc : Thread nD τ).loc main_v8_0) ↦{fullShare} X80) ∗ (((c.tc : Thread nD τ).loc main_v8_1) ↦{fullShare} X81)) := by
  iintro ⟨H5, H6, H7, H80, H81⟩
  ihave H5' := ((pointsTo_share (PosShare.mem_left_op_right fullShare)).1) $$ H5
  icases H5' with ⟨H5l, H5r⟩
  isplitl [H5l]
  · iexact H5l
  isplitl [H5r]
  · iexact H5r
  isplitl [H6]
  · iexact H6
  isplitl [H7]
  · iexact H7
  isplitl [H80]
  · iexact H80
  iexact H81

/-- At entry every window's array holds what the region finds in it. -/
theorem arrAt_zero (c : Dev nD) (w : Fin cfg0.W) : (dats m 0 c).arrAt w 0 = V m c (Pipeline.arrRef spec0 w) := A_eq m c w

/-- The buffers behind the arrays, each whole at the full share at the region-entry contents, are the proof data's arrays
    at entry: the embeddings' buffer split into the two halves its two windows hold. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq, arrays_pieces]
  simp only [arrAt_zero]
  exact split_core c _ _ _ _ _

end Cert.KernelIdeal.Hand

end
-- ==== Proof.KTail.lean ====
/-
  The host operations after the region and the buffers they run within. They read the two arrays the region wrote (the
  rows' losses and weights) and write seven buffers none of which is an array of the region; the embeddings and the two
  family arrays are not touched again, so their ownership — the embeddings' in two halves — simply stays aside.
-/
import proofs.«142051_j14310831030886_2_alg».proof.Proof.KMain
import proofs.«142051_j14310831030886_2_alg».proof.Proof.KSplit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the later operations may touch: the two result arrays and every unscoped buffer that is no array of the region. -/
def tailSet : Finset (DevRef τ sig) :=
  (({main_v8_0, main_v8_1} : Finset (Ref sig .tc)) ∪ Pipeline.restRefs sig spec0).map ⟨Proc.devRef (sig := sig) .tc, Proc.devRef_injective _⟩

theorem mem_tailSet_out0 : Proc.devRef (τ := τ) .tc main_v8_0 ∈ tailSet :=
  Finset.mem_map.mpr ⟨main_v8_0, Finset.mem_union_left _ (Finset.mem_insert_self _ _), rfl⟩
theorem mem_tailSet_out1 : Proc.devRef (τ := τ) .tc main_v8_1 ∈ tailSet :=
  Finset.mem_map.mpr ⟨main_v8_1, Finset.mem_union_left _ (Finset.mem_insert_of_mem (Finset.mem_singleton_self _)), rfl⟩
theorem mem_tailSet_rest (r : Ref sig .tc) (hs : r.isScoped = false) (h : ∀ w, Pipeline.arrRef spec0 w ≠ r) :
    Proc.devRef (τ := τ) .tc r ∈ tailSet :=
  Finset.mem_map.mpr ⟨r, Finset.mem_union_right _ (Pipeline.mem_restRefs_of r hs h), rfl⟩

/-- Every later operation stays within those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    simp only [StableHlo.nullary_bufs, StableHlo.binary_bufs, Finset.insert_subset_iff, Finset.singleton_subset_iff]
    first
      | exact mem_tailSet_rest _ (by decide) (by decide)
      | exact ⟨mem_tailSet_out0, mem_tailSet_rest _ (by decide) (by decide), mem_tailSet_rest _ (by decide) (by decide)⟩
      | exact ⟨mem_tailSet_out1, mem_tailSet_rest _ (by decide) (by decide), mem_tailSet_rest _ (by decide) (by decide)⟩
      | exact ⟨mem_tailSet_rest _ (by decide) (by decide), mem_tailSet_rest _ (by decide) (by decide), mem_tailSet_rest _ (by decide) (by decide)⟩

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of them writes a buffer `b` that is not one of their seven results. -/
theorem tail_keeps (r : Ref sig .tc) (h : r ≠ main_cst_0 ∧ r ≠ main_v9 ∧ r ≠ main_cst_1 ∧ r ≠ main_v10 ∧ r ≠ main_cst_2 ∧ r ≠ main_v11 ∧ r ≠ main_v12) :
    ∀ op ∈ ([hostOps1] : List (List (HloOp τ sig (Elt F)))).flatten, Proc.devRef (τ := τ) .tc r ∉ op.writes := by
  intro op hop
  simp only [hostOps1, List.flatten_cons, List.flatten_nil, List.append_nil, List.mem_cons, List.mem_nil_iff, or_false] at hop
  obtain ⟨h1, h2, h3, h4, h5, h6, h7⟩ := h
  rcases hop with rfl | rfl | rfl | rfl | rfl | rfl | rfl
  all_goals
    simp only [StableHlo.nullary_writes, StableHlo.binary_writes, Finset.mem_singleton]
    first
      | exact StableHlo.devRef_ne_of_ne h1 | exact StableHlo.devRef_ne_of_ne h2 | exact StableHlo.devRef_ne_of_ne h3
      | exact StableHlo.devRef_ne_of_ne h4 | exact StableHlo.devRef_ne_of_ne h5 | exact StableHlo.devRef_ne_of_ne h6
      | exact StableHlo.devRef_ne_of_ne h7

/-! ## Holding the later operations' buffers -/

/-- The two result arrays are no bypassing buffer. -/
theorem out_disjoint : Disjoint ({main_v8_0, main_v8_1} : Finset (Ref sig .tc)) (Pipeline.restRefs sig spec0) :=
  Finset.disjoint_left.mpr fun b hb hr => by
    have hn := (Finset.mem_sdiff.mp hr).2
    rcases Finset.mem_insert.mp hb with rfl | hb
    · exact hn (Finset.mem_image.mpr ⟨4, Finset.mem_univ _, rfl⟩)
    · rw [Finset.mem_singleton] at hb; subst hb
      exact hn (Finset.mem_image.mpr ⟨5, Finset.mem_univ _, rfl⟩)

/-- The later operations' buffers held at a valuation: the two result arrays, and the bypassing buffers. -/
theorem held_tailSet (c : Dev nD) (W : Valuation τ sig (Elt F)) :
    (StableHlo.held (c.tc : Thread nD τ) tailSet W : sProp 𝕄)
      = iprop(((((c.tc : Thread nD τ).loc main_v8_0) ↦{fullShare} W (Proc.devRef .tc main_v8_0))
            ∗ (((c.tc : Thread nD τ).loc main_v8_1) ↦{fullShare} W (Proc.devRef .tc main_v8_1)))
          ∗ bigSep (Pipeline.restRefs sig spec0) fun b => ((c.tc : Thread nD τ).loc b) ↦{fullShare} W (Proc.devRef .tc b)) := by
  classical
  unfold StableHlo.held tailSet
  rw [bigSep_map, bigSep_union out_disjoint,
    bigSep_insert (by decide : main_v8_0 ∉ ({main_v8_1} : Finset (Ref sig .tc))), BI.bigSep_singleton]
  rfl

/-- The region's exit contents read at the array of a window that shares its array with no other window. -/
theorem withArrays_at (c : Dev nD) (Vv : Valuation τ sig (Elt F))
    (A : (w : Fin cfg0.W) → Buf (Elt F) ((spec0 w).arr.view.loc (c.tc : Thread nD τ))) (w : Fin cfg0.W)
    (huniq : ∀ w', Pipeline.arrRef spec0 w' = Pipeline.arrRef spec0 w → w' = w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := huniq w' (Proc.devRef_injective _ e)
  rfl

/-! ## The later operations run -/

set_option backward.isDefEq.respectTransparency.types false in
/-- From the region boundary and their buffers held at `W`, the later operations run and hand the buffers back at what they
    compute from `W`. -/
theorem tail_core (c : Dev nD) (W : Valuation τ sig (Elt F)) (Q' : PUnit → sProp 𝕄) :
    iprop((iprop((StableHlo.held (c.tc : Thread nD τ) tailSet (StableHlo.after ([hostOps1] : List (List (HloOp τ sig (Elt F)))).flatten W) : sProp 𝕄)) -∗ Q' ⟨⟩)
        ∗ boundary (c.tc : Thread nD τ) ∗ (StableHlo.held (c.tc : Thread nD τ) tailSet W : sProp 𝕄))
      ⊢ wp frame (wpE (defs (F := F)) (Variants.lift Variants.none) (c.tc : Thread nD τ) none) Set.univ
          (Pipeline.chain [StableHlo.seq hostOps1]) Q' := by
  rw [show ([StableHlo.seq hostOps1] : List (Prog (TpuEff nD τ sig (Elt F) (Pipeline.Sig Λ₀ (Fin 1) fun p => (pcfgs (F := F) p).Adm) .tc) PUnit))
      = (([hostOps1] : List (List (HloOp τ sig (Elt F)))).map StableHlo.seq ++ []) from rfl]
  iintro ⟨Hk, Hb⟩
  iapply (Pipeline.wp_seqs_then (pcfgs (F := F)) defs₀ Variants.none c tailSet [] [hostOps1] tail_sub tail_fresh W) $$ Hb
  iintro Hb
  rw [Pipeline.chain_nil, wp_pure]
  imodintro
  iapply Hk
  icases Hb with ⟨-, H⟩
  iexact H

/-- What the region leaves in the core's buffers: its arrays after the last write-back, every other buffer as it found it. -/
abbrev Wx (c : Dev nD) : Valuation τ sig (Elt F) :=
  Pipeline.withArrays spec0 c (V0 m c) fun w => (dats m 0 c).arrAt w cfg0.N

theorem Wx_out0 (c : Dev nD) : Wx m c (Proc.devRef .tc main_v8_0) = (dats m 0 c).arrAt 4 cfg0.N :=
  withArrays_at c _ _ 4 (by decide)
theorem Wx_out1 (c : Dev nD) : Wx m c (Proc.devRef .tc main_v8_1) = (dats m 0 c).arrAt 5 cfg0.N :=
  withArrays_at c _ _ 5 (by decide)

/-- The bypassing buffers at the region's exit are as the region found them. -/
theorem rest_Wx (c : Dev nD) :
    (bigSep (Pipeline.restRefs sig spec0) fun b => ((c.tc : Thread nD τ).loc b) ↦{fullShare} Wx m c (Proc.devRef .tc b) : sProp 𝕄)
      = Pipeline.unscopedRest spec0 c (V m c) := by
  unfold Pipeline.unscopedRest
  exact bigSep_congr fun b hb => congrArg (fun X => ((((c.tc : Thread nD τ).loc b) ↦{fullShare} X : sProp 𝕄)))
    (Pipeline.withArrays_of_ne spec0 c (V0 m c) (fun w => (dats m 0 c).arrAt w cfg0.N) b
      fun w e => (Finset.mem_sdiff.mp hb).2 (Finset.mem_image.mpr ⟨w, Finset.mem_univ _, e⟩))

/-- The later operations' buffers at the region's exit: the two result arrays after the last write-back, the bypassing
    buffers as the region found them. -/
theorem held_exit (c : Dev nD) :
    (StableHlo.held (c.tc : Thread nD τ) tailSet (Wx m c) : sProp 𝕄)
      = iprop(((((c.tc : Thread nD τ).loc main_v8_0) ↦{fullShare} (dats m 0 c).arrAt 4 cfg0.N)
            ∗ (((c.tc : Thread nD τ).loc main_v8_1) ↦{fullShare} (dats m 0 c).arrAt 5 cfg0.N))
          ∗ Pipeline.unscopedRest spec0 c (V m c)) := by
  rw [held_tailSet, Wx_out0, Wx_out1, rest_Wx]

/-- The bypassing buffers after the later operations. -/
theorem rest_after (c : Dev nD) :
    (bigSep (Pipeline.restRefs sig spec0) fun b => ((c.tc : Thread nD τ).loc b) ↦{fullShare}
        StableHlo.after ([hostOps1] : List (List (HloOp τ sig (Elt F)))).flatten (Wx m c) (Proc.devRef .tc b) : sProp 𝕄)
      = Pipeline.unscopedRest spec0 c (Pipeline.afterTail₀ cfgs (dats m) 0 (V0 m) [hostOps1] c) := by
  unfold Pipeline.unscopedRest Pipeline.afterTail₀
  rfl

/-- The later operations' buffers after them: the two result arrays unchanged, the bypassing buffers at what the
    operations compute. -/
theorem held_after (c : Dev nD) :
    (StableHlo.held (c.tc : Thread nD τ) tailSet (StableHlo.after ([hostOps1] : List (List (HloOp τ sig (Elt F)))).flatten (Wx m c)) : sProp 𝕄)
      = iprop(((((c.tc : Thread nD τ).loc main_v8_0) ↦{fullShare} (dats m 0 c).arrAt 4 cfg0.N)
            ∗ (((c.tc : Thread nD τ).loc main_v8_1) ↦{fullShare} (dats m 0 c).arrAt 5 cfg0.N))
          ∗ Pipeline.unscopedRest spec0 c (Pipeline.afterTail₀ cfgs (dats m) 0 (V0 m) [hostOps1] c)) := by
  rw [held_tailSet,
    StableHlo.after_of_forall_not_mem (b := Proc.devRef .tc main_v8_0) _ _ (tail_keeps main_v8_0 (by decide)),
    StableHlo.after_of_forall_not_mem (b := Proc.devRef .tc main_v8_1) _ _ (tail_keeps main_v8_1 (by decide)),
    Wx_out0, Wx_out1, rest_after]

/-- THE TAIL: from the region's exit — the boundary, the six windows' pieces of the arrays after the last write-back, the
    bypassing buffers as the region found them — the later operations run, and hand back the same pieces and the bypassing
    buffers at what they compute. Only the two result arrays' pieces are used; the other four stay aside. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c.tc : Thread nD τ) ∗ (dats m 0 c).arrays ((dats m 0 c).arrAt · cfg0.N)
        ∗ Pipeline.unscopedRest spec0 c (V m c))
      ⊢ wp frame (wpE (defs (F := F)) (Variants.lift Variants.none) (c.tc : Thread nD τ) none) Set.univ
          (Pipeline.chain [StableHlo.seq hostOps1]) Q' := by
  have hcore := tail_core c (Wx m c) Q'
  rw [held_exit, held_after] at hcore
  rw [arrays_pieces]
  iintro ⟨Hk, Hb, ⟨A0, A1, A2, A3, A4, A5⟩, HZ⟩
  iapply hcore
  isplitl [Hk A0 A1 A2 A3]
  · iintro ⟨⟨B4, B5⟩, HZ'⟩
    iapply Hk
    isplitr [HZ']
    · isplitl [A0]
      · iexact A0
      isplitl [A1]
      · iexact A1
      isplitl [A2]
      · iexact A2
      isplitl [A3]
      · iexact A3
      isplitl [B4]
      · iexact B4
      iexact B5
    · iexact HZ'
  isplitl [Hb]
  · iexact Hb
  isplitr [HZ]
  · isplitl [A4]
    · iexact A4
    iexact A5
  · iexact HZ

end Cert.KernelIdeal.Hand

end
-- ==== Proof.KRun.lean ====
/-
  The launch: from any memory with every semaphore at zero, every weakly fair execution of the host program around the
  region terminates without fault; at the end each array of the region holds what the 32 write-backs left in it, and every
  other unscoped buffer what the host operations after the region computed.
-/
import proofs.«142051_j14310831030886_2_alg».proof.Proof.KBody
import proofs.«142051_j14310831030886_2_alg».proof.Proof.KTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the region's body obligation at every point, the region entered with the embeddings' buffer dealt in
    two halves to its two windows, the later operations run from the region's exit. -/
theorem run_main : θ_run defs (onTc (τ := τ) (main (F := F))) (s₀ m ρ)
    (Pipeline.FramePost cfgs (dats m) 0 (Pipeline.afterTail₀ cfgs (dats m) 0 (V0 m) [hostOps1])) := by
  classical
  exact Pipeline.θ_run_region_pf_tail (fun q => (cfgs q).toPCfg (Val := Elt F)) (fun q => (cfgs q).toPCfg_adm) (dats m) ()
    cellOf_inj 0 winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs (dats m) 0 (V0 m) [hostOps1] c))
    (hX := fun c => by
      iintro ⟨HU, -, -, -, Hp, -⟩; imodintro
      isplitl [Hp]
      · iexists _; iexact Hp
      iapply (Entails.of_eq (Pipeline.unscopedRestP_none (Ix := Unit) (Name := ℕ) (U := UR sig nD τ) (Lvl := ℕ) spec0 c (V m c)))
      iexact HU)
    (hin := fun c => by
      dsimp only [dats]
      unfold Pipeline.ΦA
      iintro ⟨Hp, -, Hr⟩
      isplitl [Hr] <;> iassumption)
    (hout := fun c => by
      rw [Pipeline.ownSems0_none]
      dsimp only [dats]
      unfold Pipeline.ΦA
      iintro ⟨Hr, Hp⟩
      isplitl [Hp]
      · iexact Hp
      isplitr
      · iempintro
      iexact Hr)
    (htail := fun c Q' => htail m c Q')
    (QY := fun c s => ∀ b ∈ Pipeline.restRefs sig spec0, s.mem ((c.tc : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b) (Pipeline.afterTail₀ cfgs (dats m) 0 (V0 m) [hostOps1] c) s')
      isplitl [HU] <;> iassumption)
    (hQ := fun s h c => ⟨(h c).1, (h c).2.2⟩)

end Cert.KernelIdeal.Hand

end
-- ==== Proof.KFrame.lean ====
/-
  The frame of the host program around the region: it terminates without fault, and its two argument buffers — the
  embeddings and the labels — end as launched. Neither is an array of the region, no host operation before the region
  writes them, and none after it does.
-/
import proofs.«142051_j14310831030886_2_alg».proof.Proof.KRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- No operation before the region writes the embeddings' argument. -/
theorem entry_arg0 (c : Dev nD) : V m c main_arg0 = m ((c : Thread nD τ).loc main_arg0) := by
  dsimp only [V, V0]
  simp only [preOps, hostOps0, hostOps0_1, hostOps0_2, hostOps0_3, List.flatten_cons, List.flatten_nil, List.append_nil,
    List.cons_append, List.nil_append]
  after_results_simp

open Idealize.ShloMosaic.StableHlo in
/-- No operation before the region writes the labels' argument. -/
theorem entry_arg1 (c : Dev nD) : V m c main_arg1 = m ((c : Thread nD τ).loc main_arg1) := by
  dsimp only [V, V0]
  simp only [preOps, hostOps0, hostOps0_1, hostOps0_2, hostOps0_3, List.flatten_cons, List.flatten_nil, List.append_nil,
    List.cons_append, List.nil_append]
  after_results_simp

/-- Nor does any operation after it, and the region does not stage it: it ends as launched. -/
theorem kept_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (tail_keeps main_arg0 (by decide)),
    Pipeline.withArrays_of_ne _ c (V0 m c) _ main_arg0 (by exact (by decide : ∀ w, Pipeline.arrRef spec0 w ≠ main_arg0))]
  exact entry_arg0 m c

theorem kept_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_of_ne _ c (V0 m c) _ main_arg1 (by exact (by decide : ∀ w, Pipeline.arrRef spec0 w ≠ main_arg1))]
  exact entry_arg1 m c

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (kept_arg0 m c),
     ((h c).2 main_arg1 (Pipeline.mem_restRefs_of main_arg1 (by decide) (by decide))).trans (kept_arg1 m c)⟩) (run_main m ρ)

end Cert.KernelIdeal.Hand

end
-- ==== Proof.KDefsBits.lean ====
/-
  The kernel's pipeline as data: what the region finds in the arrays, each window's block at a grid point, what the
  body leaves in its two output blocks, and the proof data of the one pipeline.

  The grid has 32 points. At point `t` the body reads four input blocks — rows `256 t … 256 t + 255` of the
  normalized embeddings, ALL rows of the same array, the same rows of the family column, and the whole family row — and
  writes two output blocks of 256 lanes: the rows' losses and the rows' weights. The two embedding windows sit on ONE
  array; each holds half of its ownership.
-/
import proofs.«142051_j14310831030886_2_alg».proof.Proof.Gen.Kernel.Launch
import proofs.«142051_j14310831030886_2_alg».proof.Proof.Gen.Kernel.Skeleton
import proofs.«142051_j14310831030886_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host operations before the region, stretch by stretch. -/
abbrev preOps : List (List (HloOp τ sig (Elt F))) := [hostOps0, hostOps0_1, hostOps0_2, hostOps0_3]

/-- Core `c`'s buffers when the region is entered: the host operations before it, folded over the launch memory. -/
abbrev V0 (c : Dev nD) : Valuation τ sig (Elt F) := StableHlo.after (preOps (F := F)).flatten (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev r0 : Rect S256x64 := Rect.unit (s := S256x64) ![0, 0] S256x64.size inb_S256x64_S256x64_0_0
abbrev r1 : Rect S8192x64 := Rect.unit (s := S8192x64) ![0, 0] S8192x64.size inb_S8192x64_S8192x64_0_0
abbrev r2 : Rect S256x1 := Rect.unit (s := S256x1) ![0, 0] S256x1.size inb_S256x1_S256x1_0_0
abbrev r3 : Rect S1x8192 := Rect.unit (s := S1x8192) ![0, 0] S1x8192.size inb_S1x8192_S1x8192_0_0
abbrev r4 : Rect S1x256 := Rect.unit (s := S1x256) ![0, 0] S1x256.size inb_S1x256_S1x256_0_0

/-- The losses' block after the body at grid coordinate `i`, from the four input blocks: its one store. -/
def out0_4 (i : grid0.Coords) (x0 : Vec F S256x64 .f32) (x1 : Vec F S8192x64 .f32) (x2 : Vec F S256x1 .i32) (x3 : Vec F S1x8192 .i32) :
    Vec F S1x256 .f32 :=
  View.canon [⟨r4, k0_pay2 (k0_pay7 (View.ld x2 r2) (View.ld x3 r3)) (k0_pay8 i (View.ld x0 r0) (View.ld x1 r1) (View.ld x2 r2) (View.ld x3 r3))
    (k0_pay9 (View.ld x0 r0) (View.ld x1 r1) (View.ld x2 r2) (View.ld x3 r3)) (k0_pay10 i (View.ld x2 r2) (View.ld x3 r3))
    (Scalar.ofBits .f32 0x00000000#32)⟩]

/-- The weights' block after the body, from the two family blocks: its one store. -/
def out0_5 (i : grid0.Coords) (x2 : Vec F S256x1 .i32) (x3 : Vec F S1x8192 .i32) : Vec F S1x256 .f32 :=
  View.canon [⟨r4, k0_pay3 (k0_pay7 (View.ld x2 r2) (View.ld x3 r3)) (k0_pay10 i (View.ld x2 r2) (View.ld x3 r3))
    (Scalar.ofBits .f32 0x00000000#32)⟩]

/-! ## The pipeline's proof data -/

/-- The proof data on core `c`: the arrays as the region finds them; after the body at point `t` each input's buffer
    at its block and each output's at the body's store; nothing owed; the two windows on the embeddings' array each at
    half of it, every other window at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]
theorem after0_5 (c : Dev nD) (t : Fin cfg0.N) :
    (dats m 0 c).after 5 t = out0_5 (grid0.coords t) (iblk m c 2 t) (iblk m c 3 t) := by dsimp only [dats]

end Cert.Kernel.Hand

end
-- ==== Proof.KBodyBits.lean ====
/-
  The kernel's body at one grid point, and the pipeline's body obligation.

  At a grid point the body is handed six staging buffers: four inputs (256 rows of the normalized embeddings, all 8192
  rows of the same array, the 256 rows' family words as a column, all 8192 family words as a row) and two outputs of 256
  lanes. It loads the four inputs whole, computes, and overwrites each output whole; it keeps nothing from point to
  point. So what each output buffer holds afterwards is a closed function of the four input blocks — the payload of
  its one store — and each input buffer is left as it was found. An input that the pipeline fetches at the first point
  only (its block never moves) still holds its block at every later point.
-/
import proofs.«142051_j14310831030886_2_alg».proof.Proof.Gen.Kernel.Launch
import proofs.«142051_j14310831030886_2_alg».proof.Proof.Gen.Kernel.Skeleton
import proofs.«142051_j14310831030886_2_alg».proof.Proof.Gen.Kernel.Points
import proofs.«142051_j14310831030886_2_alg».proof.Proof.KDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- A whole-buffer store of 256 lanes covers the output block. -/
theorem cover_r4 (p0 : Vec F S1x256 .f32) (y : S1x256.Idx) :
    ∃ pc ∈ ([⟨r4, p0⟩] : List (View.Piece (Elt F) S1x256 .f32)), y ∈ pc.1.set :=
  View.cover_of_tiled [⟨r4, p0⟩] S1x256.size (by rfl) y

set_option maxHeartbeats 1000000 in
/-- The body on whole staging buffers: the four inputs at read contents `x0 … x3`, the two outputs at anything. It
    reads the four inputs whole, computes, and overwrites each output whole; the inputs are left as they were, the
    losses' block holds `out0_4` of the inputs and the weights' block `out0_5` of the two family blocks. -/
theorem sound_kernel (c : Dev nD) (E : Set ℕ) (i : grid0.Coords)
    (arg1 : Memref sig .tc .vmem S256x64 .f32) (harg1 : arg1.IsWhole) (arg2 : Memref sig .tc .vmem S8192x64 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x256 .f32) (harg5 : arg5.IsWhole) (arg6 : Memref sig .tc .vmem S1x256 .f32) (harg6 : arg6.IsWhole)
    (x0 : Vec F S256x64 .f32) (x1 : Vec F S8192x64 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3) ∗ owns (c : Thread nD τ) arg6 fullShare (out0_5 i x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover_r4 _)
  iexists _; isplitr
  swap; · iexact H5
  ipureintro
  try dsimp only
  exact View.read_writes_eq_canon _ _ _ (cover_r4 _)

variable (m : (ℓ : Loc nD τ sig) → Buf (Elt F) ℓ)

/-! ## What the body finds in each input buffer -/

/-- Input window 0's current staging buffer holds its block at every point, fetched there or not: where it is not
    fetched its block index has not moved since the point before, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: where it is not
    fetched its block index has not moved since the point before, and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: where it is not
    fetched its block index has not moved since the point before, and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: where it is not
    fetched its block index has not moved since the point before, and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, what the core owes, and the six current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KMainBits.lean ====
/-
  The host program around the kernel's region: 35 host operations before it (the family lookup, the row norms, the
  normalization, two reshapes), the region, 7 after it (the two sums, the clamp, the quotient).
  The operations after the region read only the two arrays the region wrote and write only buffers that are no array of
  the region; the operations before it leave the two argument arrays as launched.
-/
import proofs.«142051_j14310831030886_2_alg».proof.Proof.KDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

end Cert.Kernel.Hand

end
-- ==== Proof.KSplitBits.lean ====
/-
  How the region's arrays are dealt to its windows at entry. Five distinct buffers stand behind the six windows: the
  normalized embeddings (read by two windows), the family column, the family row, and the two results. Each buffer is
  held whole at the full share; the embeddings' full share is cut into its two halves, one per window reading it.
-/
import proofs.«142051_j14310831030886_2_alg».proof.Proof.KDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows. -/
theorem arrImage : (Finset.univ.image (Pipeline.arrRef spec0)) = ([main_v5, main_v6, main_v7, main_v8_0, main_v8_1] : List (Ref sig .tc)).toFinset := by
  decide

/-- The five buffers one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v5) ↦{fullShare} W main_v5) ∗ (((c.tc : Thread nD τ).loc main_v6) ↦{fullShare} W main_v6)
          ∗ (((c.tc : Thread nD τ).loc main_v7) ↦{fullShare} W main_v7) ∗ (((c.tc : Thread nD τ).loc main_v8_0) ↦{fullShare} W main_v8_0)
          ∗ (((c.tc : Thread nD τ).loc main_v8_1) ↦{fullShare} W main_v8_1)) :=
  bigSep_eq_bigSepL_of_eq [main_v5, main_v6, main_v7, main_v8_0, main_v8_1] arrImage (by decide) _

/-- The proof data's arrays at any contents, window by window: each window's array is a whole buffer, held at the
    window's share. -/
theorem arrays_windows (c : Dev nD) (G : (w : Fin cfg0.W) → Buf (Elt F) ((cfg0.win w).arr.view.loc (c.tc : Thread nD τ))) :
    (dats m 0 c).arrays G = bigSep Finset.univ fun w => ((((c.tc : Thread nD τ).loc (Pipeline.arrRef spec0 w)) ↦{(dats m 0 c).share w} G w : sProp 𝕄)) := by
  unfold Dat.arrays
  exact bigSep_congr fun w _ => by rw [(arr_whole0 w).set_eq_univ]

/-- The same with the six windows written out: the embeddings' buffer twice, at the two halves of its ownership. -/
theorem arrays_pieces (c : Dev nD) (G : (w : Fin cfg0.W) → Buf (Elt F) ((cfg0.win w).arr.view.loc (c.tc : Thread nD τ))) :
    (dats m 0 c).arrays G
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8_0) ↦{fullShare} G 4) ∗ (((c.tc : Thread nD τ).loc main_v8_1) ↦{fullShare} G 5)) := by
  rw [arrays_windows, bigSep_W0]
  rfl

/-- A buffer held whole at the full share is held twice at the two halves of it, at the same contents. -/
theorem split_core (c : Dev nD) (X5 : Buf (Elt F) ((c.tc : Thread nD τ).loc main_v5)) (X6 : Buf (Elt F) ((c.tc : Thread nD τ).loc main_v6))
    (X7 : Buf (Elt F) ((c.tc : Thread nD τ).loc main_v7)) (X80 : Buf (Elt F) ((c.tc : Thread nD τ).loc main_v8_0))
    (X81 : Buf (Elt F) ((c.tc : Thread nD τ).loc main_v8_1)) :
    (iprop((((c.tc : Thread nD τ).loc main_v5) ↦{fullShare} X5) ∗ (((c.tc : Thread nD τ).loc main_v6) ↦{fullShare} X6)
          ∗ (((c.tc : Thread nD τ).loc main_v7) ↦{fullShare} X7) ∗ (((c.tc : Thread nD τ).loc main_v8_0) ↦{fullShare} X80)
          ∗ (((c.tc : Thread nD τ).loc main_v8_1) ↦{fullShare} X81)) : sProp 𝕄)
      ⊢ iprop((((c.tc : Thread nD τ).loc main_v5) ↦{fullShare.left} X5) ∗ (((c.tc : Thread nD τ).loc main_v5) ↦{fullShare.right} X5)
          ∗ (((c.tc : Thread nD τ).loc main_v6) ↦{fullShare} X6) ∗ (((c.tc : Thread nD τ).loc main_v7) ↦{fullShare} X7)
          ∗ (((c.tc : Thread nD τ).loc main_v8_0) ↦{fullShare} X80) ∗ (((c.tc : Thread nD τ).loc main_v8_1) ↦{fullShare} X81)) := by
  iintro ⟨H5, H6, H7, H80, H81⟩
  ihave H5' := ((pointsTo_share (PosShare.mem_left_op_right fullShare)).1) $$ H5
  icases H5' with ⟨H5l, H5r⟩
  isplitl [H5l]
  · iexact H5l
  isplitl [H5r]
  · iexact H5r
  isplitl [H6]
  · iexact H6
  isplitl [H7]
  · iexact H7
  isplitl [H80]
  · iexact H80
  iexact H81

/-- At entry every window's array holds what the region finds in it. -/
theorem arrAt_zero (c : Dev nD) (w : Fin cfg0.W) : (dats m 0 c).arrAt w 0 = V m c (Pipeline.arrRef spec0 w) := A_eq m c w

/-- The buffers behind the arrays, each whole at the full share at the region-entry contents, are the proof data's arrays
    at entry: the embeddings' buffer split into the two halves its two windows hold. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq, arrays_pieces]
  simp only [arrAt_zero]
  exact split_core c _ _ _ _ _

end Cert.Kernel.Hand

end
-- ==== Proof.KTailBits.lean ====
/-
  The host operations after the region and the buffers they run within. They read the two arrays the region wrote (the
  rows' losses and weights) and write seven buffers none of which is an array of the region; the embeddings and the two
  family arrays are not touched again, so their ownership — the embeddings' in two halves — simply stays aside.
-/
import proofs.«142051_j14310831030886_2_alg».proof.Proof.KMainBits
import proofs.«142051_j14310831030886_2_alg».proof.Proof.KSplitBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the later operations may touch: the two result arrays and every unscoped buffer that is no array of the region. -/
def tailSet : Finset (DevRef τ sig) :=
  (({main_v8_0, main_v8_1} : Finset (Ref sig .tc)) ∪ Pipeline.restRefs sig spec0).map ⟨Proc.devRef (sig := sig) .tc, Proc.devRef_injective _⟩

theorem mem_tailSet_out0 : Proc.devRef (τ := τ) .tc main_v8_0 ∈ tailSet :=
  Finset.mem_map.mpr ⟨main_v8_0, Finset.mem_union_left _ (Finset.mem_insert_self _ _), rfl⟩
theorem mem_tailSet_out1 : Proc.devRef (τ := τ) .tc main_v8_1 ∈ tailSet :=
  Finset.mem_map.mpr ⟨main_v8_1, Finset.mem_union_left _ (Finset.mem_insert_of_mem (Finset.mem_singleton_self _)), rfl⟩
theorem mem_tailSet_rest (r : Ref sig .tc) (hs : r.isScoped = false) (h : ∀ w, Pipeline.arrRef spec0 w ≠ r) :
    Proc.devRef (τ := τ) .tc r ∈ tailSet :=
  Finset.mem_map.mpr ⟨r, Finset.mem_union_right _ (Pipeline.mem_restRefs_of r hs h), rfl⟩

/-- Every later operation stays within those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    simp only [StableHlo.nullary_bufs, StableHlo.binary_bufs, Finset.insert_subset_iff, Finset.singleton_subset_iff]
    first
      | exact mem_tailSet_rest _ (by decide) (by decide)
      | exact ⟨mem_tailSet_out0, mem_tailSet_rest _ (by decide) (by decide), mem_tailSet_rest _ (by decide) (by decide)⟩
      | exact ⟨mem_tailSet_out1, mem_tailSet_rest _ (by decide) (by decide), mem_tailSet_rest _ (by decide) (by decide)⟩
      | exact ⟨mem_tailSet_rest _ (by decide) (by decide), mem_tailSet_rest _ (by decide) (by decide), mem_tailSet_rest _ (by decide) (by decide)⟩

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- None of them writes a buffer `b` that is not one of their seven results. -/
theorem tail_keeps (r : Ref sig .tc) (h : r ≠ main_cst_0 ∧ r ≠ main_v9 ∧ r ≠ main_cst_1 ∧ r ≠ main_v10 ∧ r ≠ main_cst_2 ∧ r ≠ main_v11 ∧ r ≠ main_v12) :
    ∀ op ∈ ([hostOps1] : List (List (HloOp τ sig (Elt F)))).flatten, Proc.devRef (τ := τ) .tc r ∉ op.writes := by
  intro op hop
  simp only [hostOps1, List.flatten_cons, List.flatten_nil, List.append_nil, List.mem_cons, List.mem_nil_iff, or_false] at hop
  obtain ⟨h1, h2, h3, h4, h5, h6, h7⟩ := h
  rcases hop with rfl | rfl | rfl | rfl | rfl | rfl | rfl
  all_goals
    simp only [StableHlo.nullary_writes, StableHlo.binary_writes, Finset.mem_singleton]
    first
      | exact StableHlo.devRef_ne_of_ne h1 | exact StableHlo.devRef_ne_of_ne h2 | exact StableHlo.devRef_ne_of_ne h3
      | exact StableHlo.devRef_ne_of_ne h4 | exact StableHlo.devRef_ne_of_ne h5 | exact StableHlo.devRef_ne_of_ne h6
      | exact StableHlo.devRef_ne_of_ne h7

/-! ## Holding the later operations' buffers -/

/-- The two result arrays are no bypassing buffer. -/
theorem out_disjoint : Disjoint ({main_v8_0, main_v8_1} : Finset (Ref sig .tc)) (Pipeline.restRefs sig spec0) :=
  Finset.disjoint_left.mpr fun b hb hr => by
    have hn := (Finset.mem_sdiff.mp hr).2
    rcases Finset.mem_insert.mp hb with rfl | hb
    · exact hn (Finset.mem_image.mpr ⟨4, Finset.mem_univ _, rfl⟩)
    · rw [Finset.mem_singleton] at hb; subst hb
      exact hn (Finset.mem_image.mpr ⟨5, Finset.mem_univ _, rfl⟩)

/-- The later operations' buffers held at a valuation: the two result arrays, and the bypassing buffers. -/
theorem held_tailSet (c : Dev nD) (W : Valuation τ sig (Elt F)) :
    (StableHlo.held (c.tc : Thread nD τ) tailSet W : sProp 𝕄)
      = iprop(((((c.tc : Thread nD τ).loc main_v8_0) ↦{fullShare} W (Proc.devRef .tc main_v8_0))
            ∗ (((c.tc : Thread nD τ).loc main_v8_1) ↦{fullShare} W (Proc.devRef .tc main_v8_1)))
          ∗ bigSep (Pipeline.restRefs sig spec0) fun b => ((c.tc : Thread nD τ).loc b) ↦{fullShare} W (Proc.devRef .tc b)) := by
  classical
  unfold StableHlo.held tailSet
  rw [bigSep_map, bigSep_union out_disjoint,
    bigSep_insert (by decide : main_v8_0 ∉ ({main_v8_1} : Finset (Ref sig .tc))), BI.bigSep_singleton]
  rfl

/-- The region's exit contents read at the array of a window that shares its array with no other window. -/
theorem withArrays_at (c : Dev nD) (Vv : Valuation τ sig (Elt F))
    (A : (w : Fin cfg0.W) → Buf (Elt F) ((spec0 w).arr.view.loc (c.tc : Thread nD τ))) (w : Fin cfg0.W)
    (huniq : ∀ w', Pipeline.arrRef spec0 w' = Pipeline.arrRef spec0 w → w' = w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin cfg0.W) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := huniq w' (Proc.devRef_injective _ e)
  rfl

/-! ## The later operations run -/

set_option backward.isDefEq.respectTransparency.types false in
/-- From the region boundary and their buffers held at `W`, the later operations run and hand the buffers back at what they
    compute from `W`. -/
theorem tail_core (c : Dev nD) (W : Valuation τ sig (Elt F)) (Q' : PUnit → sProp 𝕄) :
    iprop((iprop((StableHlo.held (c.tc : Thread nD τ) tailSet (StableHlo.after ([hostOps1] : List (List (HloOp τ sig (Elt F)))).flatten W) : sProp 𝕄)) -∗ Q' ⟨⟩)
        ∗ boundary (c.tc : Thread nD τ) ∗ (StableHlo.held (c.tc : Thread nD τ) tailSet W : sProp 𝕄))
      ⊢ wp frame (wpE (defs (F := F)) (Variants.lift Variants.none) (c.tc : Thread nD τ) none) Set.univ
          (Pipeline.chain [StableHlo.seq hostOps1]) Q' := by
  rw [show ([StableHlo.seq hostOps1] : List (Prog (TpuEff nD τ sig (Elt F) (Pipeline.Sig Λ₀ (Fin 1) fun p => (pcfgs (F := F) p).Adm) .tc) PUnit))
      = (([hostOps1] : List (List (HloOp τ sig (Elt F)))).map StableHlo.seq ++ []) from rfl]
  iintro ⟨Hk, Hb⟩
  iapply (Pipeline.wp_seqs_then (pcfgs (F := F)) defs₀ Variants.none c tailSet [] [hostOps1] tail_sub tail_fresh W) $$ Hb
  iintro Hb
  rw [Pipeline.chain_nil, wp_pure]
  imodintro
  iapply Hk
  icases Hb with ⟨-, H⟩
  iexact H

/-- What the region leaves in the core's buffers: its arrays after the last write-back, every other buffer as it found it. -/
abbrev Wx (c : Dev nD) : Valuation τ sig (Elt F) :=
  Pipeline.withArrays spec0 c (V0 m c) fun w => (dats m 0 c).arrAt w cfg0.N

theorem Wx_out0 (c : Dev nD) : Wx m c (Proc.devRef .tc main_v8_0) = (dats m 0 c).arrAt 4 cfg0.N :=
  withArrays_at c _ _ 4 (by decide)
theorem Wx_out1 (c : Dev nD) : Wx m c (Proc.devRef .tc main_v8_1) = (dats m 0 c).arrAt 5 cfg0.N :=
  withArrays_at c _ _ 5 (by decide)

/-- The bypassing buffers at the region's exit are as the region found them. -/
theorem rest_Wx (c : Dev nD) :
    (bigSep (Pipeline.restRefs sig spec0) fun b => ((c.tc : Thread nD τ).loc b) ↦{fullShare} Wx m c (Proc.devRef .tc b) : sProp 𝕄)
      = Pipeline.unscopedRest spec0 c (V m c) := by
  unfold Pipeline.unscopedRest
  exact bigSep_congr fun b hb => congrArg (fun X => ((((c.tc : Thread nD τ).loc b) ↦{fullShare} X : sProp 𝕄)))
    (Pipeline.withArrays_of_ne spec0 c (V0 m c) (fun w => (dats m 0 c).arrAt w cfg0.N) b
      fun w e => (Finset.mem_sdiff.mp hb).2 (Finset.mem_image.mpr ⟨w, Finset.mem_univ _, e⟩))

/-- The later operations' buffers at the region's exit: the two result arrays after the last write-back, the bypassing
    buffers as the region found them. -/
theorem held_exit (c : Dev nD) :
    (StableHlo.held (c.tc : Thread nD τ) tailSet (Wx m c) : sProp 𝕄)
      = iprop(((((c.tc : Thread nD τ).loc main_v8_0) ↦{fullShare} (dats m 0 c).arrAt 4 cfg0.N)
            ∗ (((c.tc : Thread nD τ).loc main_v8_1) ↦{fullShare} (dats m 0 c).arrAt 5 cfg0.N))
          ∗ Pipeline.unscopedRest spec0 c (V m c)) := by
  rw [held_tailSet, Wx_out0, Wx_out1, rest_Wx]

/-- The bypassing buffers after the later operations. -/
theorem rest_after (c : Dev nD) :
    (bigSep (Pipeline.restRefs sig spec0) fun b => ((c.tc : Thread nD τ).loc b) ↦{fullShare}
        StableHlo.after ([hostOps1] : List (List (HloOp τ sig (Elt F)))).flatten (Wx m c) (Proc.devRef .tc b) : sProp 𝕄)
      = Pipeline.unscopedRest spec0 c (Pipeline.afterTail₀ cfgs (dats m) 0 (V0 m) [hostOps1] c) := by
  unfold Pipeline.unscopedRest Pipeline.afterTail₀
  rfl

/-- The later operations' buffers after them: the two result arrays unchanged, the bypassing buffers at what the
    operations compute. -/
theorem held_after (c : Dev nD) :
    (StableHlo.held (c.tc : Thread nD τ) tailSet (StableHlo.after ([hostOps1] : List (List (HloOp τ sig (Elt F)))).flatten (Wx m c)) : sProp 𝕄)
      = iprop(((((c.tc : Thread nD τ).loc main_v8_0) ↦{fullShare} (dats m 0 c).arrAt 4 cfg0.N)
            ∗ (((c.tc : Thread nD τ).loc main_v8_1) ↦{fullShare} (dats m 0 c).arrAt 5 cfg0.N))
          ∗ Pipeline.unscopedRest spec0 c (Pipeline.afterTail₀ cfgs (dats m) 0 (V0 m) [hostOps1] c)) := by
  rw [held_tailSet,
    StableHlo.after_of_forall_not_mem (b := Proc.devRef .tc main_v8_0) _ _ (tail_keeps main_v8_0 (by decide)),
    StableHlo.after_of_forall_not_mem (b := Proc.devRef .tc main_v8_1) _ _ (tail_keeps main_v8_1 (by decide)),
    Wx_out0, Wx_out1, rest_after]

/-- THE TAIL: from the region's exit — the boundary, the six windows' pieces of the arrays after the last write-back, the
    bypassing buffers as the region found them — the later operations run, and hand back the same pieces and the bypassing
    buffers at what they compute. Only the two result arrays' pieces are used; the other four stay aside. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c.tc : Thread nD τ) ∗ (dats m 0 c).arrays ((dats m 0 c).arrAt · cfg0.N)
        ∗ Pipeline.unscopedRest spec0 c (V m c))
      ⊢ wp frame (wpE (defs (F := F)) (Variants.lift Variants.none) (c.tc : Thread nD τ) none) Set.univ
          (Pipeline.chain [StableHlo.seq hostOps1]) Q' := by
  have hcore := tail_core c (Wx m c) Q'
  rw [held_exit, held_after] at hcore
  rw [arrays_pieces]
  iintro ⟨Hk, Hb, ⟨A0, A1, A2, A3, A4, A5⟩, HZ⟩
  iapply hcore
  isplitl [Hk A0 A1 A2 A3]
  · iintro ⟨⟨B4, B5⟩, HZ'⟩
    iapply Hk
    isplitr [HZ']
    · isplitl [A0]
      · iexact A0
      isplitl [A1]
      · iexact A1
      isplitl [A2]
      · iexact A2
      isplitl [A3]
      · iexact A3
      isplitl [B4]
      · iexact B4
      iexact B5
    · iexact HZ'
  isplitl [Hb]
  · iexact Hb
  isplitr [HZ]
  · isplitl [A4]
    · iexact A4
    iexact A5
  · iexact HZ

end Cert.Kernel.Hand

end
-- ==== Proof.KRunBits.lean ====
/-
  The launch: from any memory with every semaphore at zero, every weakly fair execution of the host program around the
  region terminates without fault; at the end each array of the region holds what the 32 write-backs left in it, and every
  other unscoped buffer what the host operations after the region computed.
-/
import proofs.«142051_j14310831030886_2_alg».proof.Proof.KBodyBits
import proofs.«142051_j14310831030886_2_alg».proof.Proof.KTailBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the region's body obligation at every point, the region entered with the embeddings' buffer dealt in
    two halves to its two windows, the later operations run from the region's exit. -/
theorem run_main : θ_run defs (onTc (τ := τ) (main (F := F))) (s₀ m ρ)
    (Pipeline.FramePost cfgs (dats m) 0 (Pipeline.afterTail₀ cfgs (dats m) 0 (V0 m) [hostOps1])) := by
  classical
  exact Pipeline.θ_run_region_pf_tail (fun q => (cfgs q).toPCfg (Val := Elt F)) (fun q => (cfgs q).toPCfg_adm) (dats m) ()
    cellOf_inj 0 winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (Pipeline.afterTail₀ cfgs (dats m) 0 (V0 m) [hostOps1] c))
    (hX := fun c => by
      iintro ⟨HU, -, -, -, Hp, -⟩; imodintro
      isplitl [Hp]
      · iexists _; iexact Hp
      iapply (Entails.of_eq (Pipeline.unscopedRestP_none (Ix := Unit) (Name := ℕ) (U := UR sig nD τ) (Lvl := ℕ) spec0 c (V m c)))
      iexact HU)
    (hin := fun c => by
      dsimp only [dats]
      unfold Pipeline.ΦA
      iintro ⟨Hp, -, Hr⟩
      isplitl [Hr] <;> iassumption)
    (hout := fun c => by
      rw [Pipeline.ownSems0_none]
      dsimp only [dats]
      unfold Pipeline.ΦA
      iintro ⟨Hr, Hp⟩
      isplitl [Hp]
      · iexact Hp
      isplitr
      · iempintro
      iexact Hr)
    (htail := fun c Q' => htail m c Q')
    (QY := fun c s => ∀ b ∈ Pipeline.restRefs sig spec0, s.mem ((c.tc : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b) (Pipeline.afterTail₀ cfgs (dats m) 0 (V0 m) [hostOps1] c) s')
      isplitl [HU] <;> iassumption)
    (hQ := fun s h c => ⟨(h c).1, (h c).2.2⟩)

end Cert.Kernel.Hand

end
-- ==== Proof.KFrameBits.lean ====
/-
  The frame of the host program around the region: it terminates without fault, and its two argument buffers — the
  embeddings and the labels — end as launched. Neither is an array of the region, no host operation before the region
  writes them, and none after it does.
-/
import proofs.«142051_j14310831030886_2_alg».proof.Proof.KRunBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo in
/-- No operation before the region writes the embeddings' argument. -/
theorem entry_arg0 (c : Dev nD) : V m c main_arg0 = m ((c : Thread nD τ).loc main_arg0) := by
  dsimp only [V, V0]
  simp only [preOps, hostOps0, hostOps0_1, hostOps0_2, hostOps0_3, List.flatten_cons, List.flatten_nil, List.append_nil,
    List.cons_append, List.nil_append]
  after_results_simp

open Idealize.ShloMosaic.StableHlo in
/-- No operation before the region writes the labels' argument. -/
theorem entry_arg1 (c : Dev nD) : V m c main_arg1 = m ((c : Thread nD τ).loc main_arg1) := by
  dsimp only [V, V0]
  simp only [preOps, hostOps0, hostOps0_1, hostOps0_2, hostOps0_3, List.flatten_cons, List.flatten_nil, List.append_nil,
    List.cons_append, List.nil_append]
  after_results_simp

/-- Nor does any operation after it, and the region does not stage it: it ends as launched. -/
theorem kept_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (tail_keeps main_arg0 (by decide)),
    Pipeline.withArrays_of_ne _ c (V0 m c) _ main_arg0 (by exact (by decide : ∀ w, Pipeline.arrRef spec0 w ≠ main_arg0))]
  exact entry_arg0 m c

theorem kept_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (tail_keeps main_arg1 (by decide)),
    Pipeline.withArrays_of_ne _ c (V0 m c) _ main_arg1 (by exact (by decide : ∀ w, Pipeline.arrRef spec0 w ≠ main_arg1))]
  exact entry_arg1 m c

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (kept_arg0 m c),
     ((h c).2 main_arg1 (Pipeline.mem_restRefs_of main_arg1 (by decide) (by decide))).trans (kept_arg1 m c)⟩) (run_main m ρ)

end Cert.Kernel.Hand

end
-- ==== Proof.RefRun.lean ====
/-
  The reference program's run. Its @main is a straight line of ninety-two StableHLO operations once the six
  module-local functions it calls are unfolded at their call sites: the family lookup (a gather through the six-entry
  table, with its index normalization and bounds test), the row norms (squares summed along the 64 coordinates, then the
  square root), the two masked fills of the distance matrix, the hinge's `max · 0`, and the final masked fill of the
  per-row losses. Listed in program order, each callee's operations over the buffers of that call, the program is
  `seq ops`; the run of such a line from any launch memory leaves every buffer at the fold `after ops` of the
  operations' results over the launch contents, and the two argument buffers, which no operation writes, as they were.
-/
import proofs.«142051_j14310831030886_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-two operations in program order, each call replaced by the callee's operations over that call's
    buffers: the table constant; the family lookup's twenty-two (its inner select among them); the row norm's five;
    twenty-nine of @main's own up to the first fill value; the first masked fill's three; the row maximum and the second
    fill value; the second masked fill's three; eleven of @main's own down to the margin's sum; the hinge's three; the zero;
    the last masked fill's three; and the eight that count the rows, sum the losses and divide. -/
abbrev ops : List (HloOp τ sig (Elt F)) :=
  [ StableHlo.nullary main_c (fun i => lit0 (S6.rowMajor i)),
    StableHlo.TRef.nullary main_call0.c (constantI S_ 32 0#32),
    StableHlo.TRef.unary main_call0.c main_call0.v0 (broadcastInDim S8192 ![] bcast_S_S8192),
    StableHlo.TRef.binary (.of main_arg1 : StableHlo.TRef sig ⟨S8192, .i32⟩) main_call0.v0 main_call0.v1 (cmpi .slt),
    StableHlo.TRef.nullary main_call0.c_0 (constantI S_ 32 6#32),
    StableHlo.TRef.unary main_call0.c_0 main_call0.v2 (broadcastInDim S8192 ![] bcast_S_S8192),
    StableHlo.TRef.binary (.of main_arg1 : StableHlo.TRef sig ⟨S8192, .i32⟩) main_call0.v2 main_call0.v3 addi,
    StableHlo.TRef.ternary main_call0.v1 main_call0.v3 (.of main_arg1 : StableHlo.TRef sig ⟨S8192, .i32⟩) main_call0.call0.v0 select,
    StableHlo.TRef.unary main_call0.call0.v0 main_call0.v5 (broadcastInDim S8192x1 ![0] bcast_S8192_S8192x1_0),
    StableHlo.TRef.nullary main_call0.c_1 (constantI S1 32 5#32),
    StableHlo.TRef.nullary main_call0.c_2 (constantI S_ 32 0#32),
    StableHlo.TRef.unary main_call0.c_2 main_call0.v6 (broadcastInDim S8192x1 ![] bcast_S_S8192x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S8192x1 ![0, 1] bcast_S1x1_S8192x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S8192x1_S8192_d1 h_S_),
    StableHlo.TRef.binary (.of main_c : StableHlo.TRef sig ⟨S6, .i32⟩) main_call0.v5 main_call0.v13 (fun x i => Host.gather gather_S6_S8192x1_S8192_n_0_n_n_0_1_1 x i),
    StableHlo.TRef.nullary main_call0.c_4 (constantI S_ 32 2147483648#32),
    StableHlo.TRef.unary main_call0.c_4 main_call0.v14 (broadcastInDim S8192 ![] bcast_S_S8192),
    StableHlo.TRef.ternary main_call0.v12 main_call0.v13 main_call0.v14 main_call0.v15 select,
    StableHlo.TRef.binary (.of main_arg0 : StableHlo.TRef sig ⟨S8192x64, .f32⟩) (.of main_arg0 : StableHlo.TRef sig ⟨S8192x64, .f32⟩) main_call1.v0 mulf,
    StableHlo.TRef.nullary main_call1.cst (constant S_ .f32 0x00000000#32),
    StableHlo.TRef.binary main_call1.v0 main_call1.cst main_call1.v1 (fun x v => Host.reduceAdd x v reducesTo_S8192x64_S8192_d1 h_S_),
    StableHlo.TRef.unary main_call1.v1 main_call1.v2 (broadcastInDim S8192x1 ![0] bcast_S8192_S8192x1_0),
    StableHlo.TRef.unary main_call1.v2 main_call1.v3 Host.sqrt,
    StableHlo.nullary main_cst (constant S_ .f32 0x2B8CBCCC#32),
    StableHlo.unary main_cst main_v2 (broadcastInDim S8192x1 ![] bcast_S_S8192x1 : (⟨S_, .f32⟩ : BufTy).Contents (Elt F) → (⟨S8192x1, .f32⟩ : BufTy).Contents (Elt F)),
    StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F)),
    StableHlo.unary main_v3 main_v4 (broadcastInDim S8192x64 ![0, 1] bcast_S8192x1_S8192x64_0_1 : (⟨S8192x1, .f32⟩ : BufTy).Contents (Elt F) → (⟨S8192x64, .f32⟩ : BufTy).Contents (Elt F)),
    StableHlo.binary main_arg0 main_v4 main_v5 (Host.divf : (⟨S8192x64, .f32⟩ : BufTy).Contents (Elt F) → (⟨S8192x64, .f32⟩ : BufTy).Contents (Elt F) → (⟨S8192x64, .f32⟩ : BufTy).Contents (Elt F)),
    StableHlo.unary main_v5 main_v6 ((transpose S64x8192 [1, 0] · transposes_S8192x64_S64x8192_1_0) : (⟨S8192x64, .f32⟩ : BufTy).Contents (Elt F) → (⟨S64x8192, .f32⟩ : BufTy).Contents (Elt F)),
    StableHlo.binary main_v5 main_v6 main_v7 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_0 (constant S_ .f32 0x3F800000#32),
    StableHlo.unary main_cst_0 main_v8 (broadcastInDim S8192x8192 ![] bcast_S_S8192x8192 : (⟨S_, .f32⟩ : BufTy).Contents (Elt F) → (⟨S8192x8192, .f32⟩ : BufTy).Contents (Elt F)),
    StableHlo.binary main_v8 main_v7 main_v9 (subf : (⟨S8192x8192, .f32⟩ : BufTy).Contents (Elt F) → (⟨S8192x8192, .f32⟩ : BufTy).Contents (Elt F) → (⟨S8192x8192, .f32⟩ : BufTy).Contents (Elt F)),
    StableHlo.unary main_v0 main_v10 (broadcastInDim S8192x1 ![0] bcast_S8192_S8192x1_0 : (⟨S8192, .i32⟩ : BufTy).Contents (Elt F) → (⟨S8192x1, .i32⟩ : BufTy).Contents (Elt F)),
    StableHlo.unary main_v0 main_v11 (broadcastInDim S1x8192 ![1] bcast_S8192_S1x8192_1 : (⟨S8192, .i32⟩ : BufTy).Contents (Elt F) → (⟨S1x8192, .i32⟩ : BufTy).Contents (Elt F)),
    StableHlo.unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v15 (iotaInDim S8192x8192 32 0),
    StableHlo.nullary main_v16 (iotaInDim S8192x8192 32 1),
    StableHlo.nullary main_c_1 (constantI S_ 32 0#32),
    StableHlo.unary main_c_1 main_v17 (broadcastInDim S8192x8192 ![] bcast_S_S8192x8192 : (⟨S_, .i32⟩ : BufTy).Contents (Elt F) → (⟨S8192x8192, .i32⟩ : BufTy).Contents (Elt F)),
    StableHlo.binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    StableHlo.binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v19 main_v20 (noti : (⟨S8192x8192, .i1⟩ : BufTy).Contents (Elt F) → (⟨S8192x8192, .i1⟩ : BufTy).Contents (Elt F)),
    StableHlo.binary main_v14 main_v20 main_v21 (andi : (⟨S8192x8192, .i1⟩ : BufTy).Contents (Elt F) → (⟨S8192x8192, .i1⟩ : BufTy).Contents (Elt F) → (⟨S8192x8192, .i1⟩ : BufTy).Contents (Elt F)),
    StableHlo.unary main_v0 main_v22 (broadcastInDim S8192x1 ![0] bcast_S8192_S8192x1_0 : (⟨S8192, .i32⟩ : BufTy).Contents (Elt F) → (⟨S8192x1, .i32⟩ : BufTy).Contents (Elt F)),
    StableHlo.unary main_v0 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .ne : (⟨S8192x8192, .i32⟩ : BufTy).Contents (Elt F) → (⟨S8192x8192, .i32⟩ : BufTy).Contents (Elt F) → (⟨S8192x8192, .i1⟩ : BufTy).Contents (Elt F)),
    StableHlo.nullary main_cst_2 (constant S_ .f32 0xCE6E6B28#32),
    StableHlo.TRef.unary (.of main_cst_2 : StableHlo.TRef sig ⟨S_, .f32⟩) main_call2.v0 id,
    StableHlo.TRef.unary main_call2.v0 main_call2.v1 (broadcastInDim S8192x8192 ![] bcast_S_S8192x8192),
    StableHlo.TRef.ternary (.of main_v21 : StableHlo.TRef sig ⟨S8192x8192, .i1⟩) (.of main_v9 : StableHlo.TRef sig ⟨S8192x8192, .f32⟩) main_call2.v1 main_call2.v2 select,
    StableHlo.nullary main_cst_3 (constant S_ .f32 0xFF800000#32),
    StableHlo.binary main_v27 main_cst_3 main_v28 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_4 (constant S_ .f32 0x4E6E6B28#32),
    StableHlo.TRef.unary (.of main_cst_4 : StableHlo.TRef sig ⟨S_, .f32⟩) main_call3.v0 id,
    StableHlo.TRef.unary main_call3.v0 main_call3.v1 (broadcastInDim S8192x8192 ![] bcast_S_S8192x8192),
    StableHlo.TRef.ternary (.of main_v26 : StableHlo.TRef sig ⟨S8192x8192, .i1⟩) (.of main_v9 : StableHlo.TRef sig ⟨S8192x8192, .f32⟩) main_call3.v1 main_call3.v2 select,
    StableHlo.nullary main_cst_5 (constant S_ .f32 0x7F800000#32),
    StableHlo.binary main_v29 main_cst_5 main_v30 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_6 (constantI S_ 1 0#1),
    StableHlo.binary main_v21 main_c_6 main_v31 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.nullary main_c_7 (constantI S_ 1 0#1),
    StableHlo.binary main_v26 main_c_7 main_v32 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v31 main_v32 main_v33 (andi : (⟨S8192, .i1⟩ : BufTy).Contents (Elt F) → (⟨S8192, .i1⟩ : BufTy).Contents (Elt F) → (⟨S8192, .i1⟩ : BufTy).Contents (Elt F)),
    StableHlo.binary main_v28 main_v30 main_v34 (subf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x3E99999A#32),
    StableHlo.unary main_cst_8 main_v35 (broadcastInDim S8192 ![] bcast_S_S8192 : (⟨S_, .f32⟩ : BufTy).Contents (Elt F) → (⟨S8192, .f32⟩ : BufTy).Contents (Elt F)),
    StableHlo.binary main_v34 main_v35 main_v36 (addf : (⟨S8192, .f32⟩ : BufTy).Contents (Elt F) → (⟨S8192, .f32⟩ : BufTy).Contents (Elt F) → (⟨S8192, .f32⟩ : BufTy).Contents (Elt F)),
    StableHlo.TRef.nullary main_call4.cst (constant S_ .f32 0x00000000#32),
    StableHlo.TRef.unary main_call4.cst main_call4.v0 (broadcastInDim S8192 ![] bcast_S_S8192),
    StableHlo.TRef.binary (.of main_v36 : StableHlo.TRef sig ⟨S8192, .f32⟩) main_call4.v0 main_call4.v1 maximumf,
    StableHlo.nullary main_cst_9 (constant S_ .f32 0x00000000#32),
    StableHlo.TRef.unary (.of main_cst_9 : StableHlo.TRef sig ⟨S_, .f32⟩) main_call5.v0 id,
    StableHlo.TRef.unary main_call5.v0 main_call5.v1 (broadcastInDim S8192 ![] bcast_S_S8192),
    StableHlo.TRef.ternary (.of main_v33 : StableHlo.TRef sig ⟨S8192, .i1⟩) (.of main_v37 : StableHlo.TRef sig ⟨S8192, .f32⟩) main_call5.v1 main_call5.v2 select,
    StableHlo.unary main_v33 main_v39 (uitofp .f32 : (⟨S8192, .i1⟩ : BufTy).Contents (Elt F) → (⟨S8192, .f32⟩ : BufTy).Contents (Elt F)),
    StableHlo.nullary main_cst_10 (constant S_ .f32 0x00000000#32),
    StableHlo.binary main_v39 main_cst_10 main_v40 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_11 (constant S_ .f32 0x00000000#32),
    StableHlo.binary main_v38 main_cst_11 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_12 (constant S_ .f32 0x3F800000#32),
    StableHlo.binary main_v40 main_cst_12 main_v42 (maximumf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)) ]

/-- @main is that straight line, by computation: unfolding the functions' definitions at their calls and the
    sequencing of the program monad (a bind of a step is the step continued by the bind), both sides are the same
    chain of ninety-two `hlo` steps ending in the return. The comparison is the kernel's. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument's buffer: it ends as it started. -/
theorem arg0_eq (V : Valuation τ sig (Elt F)) :
    after ops V (main_arg0 : DevRef τ sig) = V (main_arg0 : DevRef τ sig) := by
  after_results_simp

/-- No operation writes the second argument's buffer: it ends as it started. -/
theorem arg1_eq (V : Valuation τ sig (Elt F)) :
    after ops V (main_arg1 : DevRef τ sig) = V (main_arg1 : DevRef τ sig) := by
  after_results_simp

end Cert.ReferenceIdeal.RefRun

end
-- ==== Proof.RefFrame.lean ====
/-
  The reference program runs and leaves its arguments as they were. Its run from any launch memory ends with every
  buffer at the fold of the program's ninety-two operations over the launch contents; no operation writes either
  argument buffer, so at those two the fold is the launch contents themselves, which at an argument's location is
  the launch memory there.
-/
import proofs.«142051_j14310831030886_2_alg».proof.Proof.RefRun
import proofs.«142051_j14310831030886_2_alg».proof.Proof.Gen.Pre_finite_inputs
import proofs.«142051_j14310831030886_2_alg».proof.Defs

noncomputable section

namespace Cert.Proof.RefFrame

open Idealize.ShloMosaic Idealize.ShloMosaic.TcCoe Idealize.SL.Sem Idealize.ShloMosaic.StableHlo
open Cert.ReferenceIdeal Cert.ReferenceIdeal.RefRun

/-- The reference terminates without fault from every memory, and its two argument arrays end unchanged (the
    precondition on the arguments is not needed for this). -/
theorem frame_ri : Cert.frame_ReferenceIdeal := fun m ρ _ =>
  (θ_run (Cert.ReferenceIdeal.defs (F := Ideal)) _ _).mono
    (fun _ h c => ⟨(h c main_arg0).trans (arg0_eq (F := Ideal) (launchContents m c)),
      (h c main_arg1).trans (arg1_eq (F := Ideal) (launchContents m c))⟩)
    (run_main (F := Ideal) m ρ)

end Cert.Proof.RefFrame

end
-- ==== Proof.Spec.lean ====
/-
  The mathematics both programs compute, stated once over the extended reals, with no program in sight.

  Rows `i, j` range over the 8192 samples, `k` over the 64 embedding coordinates. `e i k` is the row-normalized
  embedding, `fam i` the family word of sample `i`. The cosine similarity of two rows is `sim e i j = ∑ k, e i k * e j k`.
  Two samples are a POSITIVE pair when they are different samples of one family (`same`), a NEGATIVE pair when their
  families differ (`diff`); a row counts (`valid`) when it has at least one pair of each kind.

  The hardest positive distance of a row is the largest `1 - sim` over its positive pairs, the hardest negative distance
  the smallest `1 - sim` over its negative pairs; entries that are no such pair are filled with a large finite word.
  One program takes the extremum of the distances `1 - sim` (fill `∓big`); the other takes the opposite extremum of the
  similarities (fill `±big`) and subtracts it from one afterwards. The two agree on every row that counts as soon as
  every similarity is far inside `(-big, big)`, which row-normalized embeddings guarantee (each coordinate is at most one in
  absolute value, so a similarity is at most 64). On a row that does not count both give zero.
-/
import Idealize.ShloMosaic.PureOps.Ideal
import Idealize.ShloMosaic.Lib.ValueIdx

noncomputable section

namespace Cert.Spec

open Idealize.ShloMosaic

/-- The float words the two programs share, read as extended reals: the fill `10^9` and its negative, one, the margin. -/
def big : EReal := Ideal.ofBits .f32 0x4E6E6B28#32
def nbig : EReal := Ideal.ofBits .f32 0xCE6E6B28#32
def one : EReal := Ideal.ofBits .f32 0x3F800000#32
def margin : EReal := Ideal.ofBits .f32 0x3E99999A#32

/-- Cosine similarity of rows `i` and `j`: the inner product of the two normalized rows. -/
def sim (e : Fin 8192 → Fin 64 → EReal) (i j : Fin 8192) : EReal := ∑ k : Fin 64, e i k * e j k

/-- A positive pair: two different samples of one family. -/
def same (fam : Fin 8192 → BitVec 32) (i j : Fin 8192) : Prop := fam i = fam j ∧ i ≠ j
/-- A negative pair: samples of different families. -/
def diff (fam : Fin 8192 → BitVec 32) (i j : Fin 8192) : Prop := fam i ≠ fam j

instance (fam : Fin 8192 → BitVec 32) (i j : Fin 8192) : Decidable (same fam i j) := by unfold same; infer_instance
instance (fam : Fin 8192 → BitVec 32) (i j : Fin 8192) : Decidable (diff fam i j) := by unfold diff; infer_instance

/-- A row counts when it has a positive and a negative pair. -/
def valid (fam : Fin 8192 → BitVec 32) (i : Fin 8192) : Prop := (∃ j, same fam i j) ∧ (∃ j, diff fam i j)

instance (fam : Fin 8192 → BitVec 32) (i : Fin 8192) : Decidable (valid fam i) := by unfold valid; infer_instance

/-- Extremum of the SIMILARITIES first, then `1 - ·` (the arrangement with the fills `±big` on the similarities). -/
def dposS (e : Fin 8192 → Fin 64 → EReal) (fam : Fin 8192 → BitVec 32) (i : Fin 8192) : EReal :=
  one - (Finset.univ : Finset (Fin 8192)).inf fun j => if same fam i j then sim e i j else big
def dnegS (e : Fin 8192 → Fin 64 → EReal) (fam : Fin 8192 → BitVec 32) (i : Fin 8192) : EReal :=
  one - (Finset.univ : Finset (Fin 8192)).sup fun j => if diff fam i j then sim e i j else nbig

/-- Extremum of the DISTANCES `1 - sim` directly (the arrangement with the fills `∓big` on the distances). -/
def dposD (e : Fin 8192 → Fin 64 → EReal) (fam : Fin 8192 → BitVec 32) (i : Fin 8192) : EReal :=
  (Finset.univ : Finset (Fin 8192)).sup fun j => if same fam i j then one - sim e i j else nbig
def dnegD (e : Fin 8192 → Fin 64 → EReal) (fam : Fin 8192 → BitVec 32) (i : Fin 8192) : EReal :=
  (Finset.univ : Finset (Fin 8192)).inf fun j => if diff fam i j then one - sim e i j else big

/-- A row's loss in each arrangement: the hinge `max (d_pos - d_neg + margin) 0` on a row that counts, zero otherwise. -/
def lossS (e : Fin 8192 → Fin 64 → EReal) (fam : Fin 8192 → BitVec 32) (i : Fin 8192) : EReal :=
  if valid fam i then max (dposS e fam i - dnegS e fam i + margin) 0 else 0
def lossD (e : Fin 8192 → Fin 64 → EReal) (fam : Fin 8192 → BitVec 32) (i : Fin 8192) : EReal :=
  if valid fam i then max (dposD e fam i - dnegD e fam i + margin) 0 else 0

/-- A row's weight in the count: one when it counts, zero otherwise. -/
def weight (fam : Fin 8192 → BitVec 32) (i : Fin 8192) : EReal := if valid fam i then 1 else 0

/-- What row normalization guarantees: every coordinate is a real number of absolute value at most one. -/
def Unit1 (e : Fin 8192 → Fin 64 → EReal) : Prop := ∀ i k, ∃ r : ℝ, e i k = (r : EReal) ∧ |r| ≤ 1

end Cert.Spec

end
-- ==== Proof.Normalize.lean ====
/-
  Row normalization: each row of an 8192 x 64 array is divided by the larger of its Euclidean norm and a small positive
  constant. When every entry of the array is a real number, every entry of the normalized array is a real number of
  absolute value at most one: |x i k| ≤ sqrt (∑ k', (x i k')²) ≤ max (sqrt …) eps, and the denominator is a positive real.
-/
import Mathlib.Analysis.Real.Sqrt
import Mathlib.Algebra.Order.BigOperators.Group.Finset
import Idealize.ShloMosaic.PureOps.Ideal
import Idealize.ShloMosaic.PureOps.Ideal.Laws
import proofs.«142051_j14310831030886_2_alg».proof.Proof.Spec

noncomputable section

namespace Cert.Spec

open Idealize.ShloMosaic

/-- The row-normalized array: entry (i, k) divided by the larger of the norm of row i and the constant with word
    0x2B8CBCCC; the sum of squares starts from the zero word. -/
def normalize (x : Fin 8192 → Fin 64 → EReal) : Fin 8192 → Fin 64 → EReal := fun i k =>
  Ideal.div (x i k)
    (max (Ideal.sqrt (Ideal.ofBits .f32 0x00000000#32 + ∑ k' : Fin 64, x i k' * x i k'))
      (Ideal.ofBits .f32 0x2B8CBCCC#32))

/-- The small constant is a positive real (9223372 · 2⁻⁶³, about 10⁻¹²). -/
theorem eps_pos : ∃ p : ℝ, 0 < p ∧ Ideal.ofBits .f32 0x2B8CBCCC#32 = (p : EReal) :=
  ⟨9223372 * (2 : ℝ) ^ (-63 : ℤ), by positivity, by simp [Ideal.ofBits, Ideal.ieee, -EReal.coe_mul]⟩

/-- A finite sum of reals, each read as an extended real, is the real sum read as an extended real. -/
theorem coe_finsum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- On an array of reals, row i's denominator is the positive real max (sqrt (∑ k', (r i k')²)) p. -/
theorem normalize_real (x : Fin 8192 → Fin 64 → EReal) (r : Fin 8192 → Fin 64 → ℝ) (hr : ∀ i k, x i k = (r i k : EReal))
    (p : ℝ) (hp : 0 < p) (hpe : Ideal.ofBits .f32 0x2B8CBCCC#32 = (p : EReal)) (i : Fin 8192) (k : Fin 64) :
    normalize x i k = ((r i k * (1 / max (Real.sqrt (∑ k' : Fin 64, r i k' * r i k')) p) : ℝ) : EReal) := by
  obtain ⟨S, hSdef⟩ : ∃ S : ℝ, S = ∑ k' : Fin 64, r i k' * r i k' := ⟨_, rfl⟩
  have hS0 : 0 ≤ S := hSdef ▸ Finset.sum_nonneg fun k' _ => mul_self_nonneg _
  have hsum : (∑ k' : Fin 64, x i k' * x i k') = (S : EReal) := by
    rw [hSdef, ← coe_finsum]
    exact Finset.sum_congr rfl fun k' _ => by rw [hr i k', EReal.coe_mul]
  have hdpos : 0 < max (Real.sqrt S) p := lt_of_lt_of_le hp (le_max_right _ _)
  have hden : max (Ideal.sqrt (Ideal.ofBits .f32 0x00000000#32 + ∑ k' : Fin 64, x i k' * x i k'))
      (Ideal.ofBits .f32 0x2B8CBCCC#32) = ((max (Real.sqrt S) p : ℝ) : EReal) := by
    rw [hsum, Ideal.ofBits_zero_f32, zero_add, Ideal.sqrt_coe, if_neg (not_lt.mpr hS0), hpe]
    exact (EReal.coe_strictMono.monotone.map_max).symm
  unfold normalize
  rw [hden, Ideal.div_coe hdpos.ne', hr i k, ← hSdef, EReal.coe_mul]

theorem unit1_normalize (x : Fin 8192 → Fin 64 → EReal) (hx : ∀ i k, ∃ r : ℝ, x i k = (r : EReal)) :
    Unit1 (normalize x) := by
  choose r hr using hx
  obtain ⟨p, hp, hpe⟩ := eps_pos
  intro i k
  refine ⟨_, normalize_real x r hr p hp hpe i k, ?_⟩
  have hdpos : 0 < max (Real.sqrt (∑ k' : Fin 64, r i k' * r i k')) p := lt_of_lt_of_le hp (le_max_right _ _)
  have h1 : |r i k| ≤ Real.sqrt (∑ k' : Fin 64, r i k' * r i k') := Real.abs_le_sqrt (by
    rw [sq]
    exact Finset.single_le_sum (f := fun k' => r i k' * r i k') (fun k' _ => mul_self_nonneg _) (Finset.mem_univ k))
  have h2 : |r i k| ≤ max (Real.sqrt (∑ k' : Fin 64, r i k' * r i k')) p := h1.trans (le_max_left _ _)
  rw [abs_mul, abs_of_pos (one_div_pos.mpr hdpos), mul_one_div]
  exact (div_le_one hdpos).mpr h2

end Cert.Spec

end
-- ==== Proof.KPrefix.lean ====
/-
  The kernel program's host operations before its region, as two functions of its arguments.

  The family words: the label array is looked up in the six-entry table 0, 1, 2, 1, 3, 3 — a negative label first moved
  up by six, the table read at the label clamped into the table, and the result replaced by the smallest word where the
  label was outside the table. This is one function famK of the label array, and nothing later looks inside it.

  The normalized embeddings: each row of the 8192 x 64 array is divided by the larger of the row's Euclidean norm (the
  square root of the sum of its squares, the sum started from the zero word) and the constant with word 0x2B8CBCCC.
  This is one function enK of the embedding array; read at row i and coordinate k it is the row normalization of
  the specification.

  When the region is entered the two argument buffers are as at launch (no operation writes them), the
  normalized-embedding buffer holds enK of the embeddings, and the family column (8192 x 1) and the family row
  (1 x 8192) hold famK of the labels, read at the row, respectively the column, coordinate.
-/
import proofs.«142051_j14310831030886_2_alg».proof.Proof.KDefs
import proofs.«142051_j14310831030886_2_alg».proof.Proof.Normalize
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- The family words as a function of the label array: the table constant and the lookup's twenty-two operations
    composed. With idx the label moved up by six where negative, as a column: the result is the table gathered at
    idx where 0 ≤ idx ≤ 5, and the word 0x80000000 elsewhere. -/
def famK (lab : IVec S8192 32) : IVec S8192 32 :=
  let idx : IVec S8192x1 32 :=
    broadcastInDim S8192x1 ![0] bcast_S8192_S8192x1_0
      (select (cmpi .slt lab (broadcastInDim S8192 ![] bcast_S_S8192 (constantI S_ 32 0#32)))
        (addi lab (broadcastInDim S8192 ![] bcast_S_S8192 (constantI S_ 32 6#32))) lab)
  select
    (Host.reduce IntOp.andi
      (andi (cmpi .sge idx (broadcastInDim S8192x1 ![] bcast_S_S8192x1 (constantI S_ 32 0#32)))
        (cmpi .sle idx (broadcastInDim S8192x1 ![0, 1] bcast_S1x1_S8192x1_0_1
          (broadcastInDim S1x1 ![1] bcast_S1_S1x1_1 (constantI S1 32 5#32)))))
      (constantI S_ 1 1#1) reducesTo_S8192x1_S8192_d1 h_S_)
    (Host.gather gather_S6_S8192x1_S8192_n_0_n_n_0_1_1 (fun i => lit0 (S6.rowMajor i)) idx)
    (broadcastInDim S8192 ![] bcast_S_S8192 (constantI S_ 32 2147483648#32))

/-- The normalized embeddings as a function of the embedding array: the row norm's five operations and the five that
    follow composed — the array divided, row by row, by the larger of the row's norm and the small constant. -/
def enK (x : FVec Ideal S8192x64 .f32) : FVec Ideal S8192x64 .f32 :=
  Host.divf x
    (broadcastInDim S8192x64 ![0, 1] bcast_S8192x1_S8192x64_0_1
      (maximumf
        (Host.sqrt
          (broadcastInDim S8192x1 ![0] bcast_S8192_S8192x1_0
            (Host.reduceAdd (mulf x x) (constant (F := Ideal) S_ .f32 0x00000000#32) reducesTo_S8192x64_S8192_d1 h_S_)))
        (broadcastInDim S8192x1 ![] bcast_S_S8192x1 (constant (F := Ideal) S_ .f32 0x2B8CBCCC#32))))

section Args

variable {F : FTy → Type} [FloatOps F]
variable (m : (ℓ : Loc nD τ sig) → Buf (Elt F) ℓ)

/-- No operation before the region writes the embeddings' argument buffer. -/
theorem V_arg0 (c : Dev nD) : V m c main_arg0 = m ((c : Thread nD τ).loc main_arg0) := by
  dsimp only [V, V0]
  simp only [preOps, hostOps0, hostOps0_1, hostOps0_2, hostOps0_3, List.flatten_cons, List.flatten_nil, List.append_nil,
    List.cons_append, List.nil_append]
  after_results_simp

/-- No operation before the region writes the labels' argument buffer. -/
theorem V_arg1 (c : Dev nD) : V m c main_arg1 = m ((c : Thread nD τ).loc main_arg1) := by
  dsimp only [V, V0]
  simp only [preOps, hostOps0, hostOps0_1, hostOps0_2, hostOps0_3, List.flatten_cons, List.flatten_nil, List.append_nil,
    List.cons_append, List.nil_append]
  after_results_simp

end Args

variable (m : (ℓ : Loc nD τ sig) → Buf (Elt Ideal) ℓ)

/-- When the region is entered the normalized-embedding buffer holds enK of the embeddings at launch. -/
theorem V_v5 (c : Dev nD) :
    (V m c main_v5 : S8192x64.Idx → EReal) = enK (m ((c : Thread nD τ).loc main_arg0)) := by
  dsimp only [V, V0]
  simp only [preOps, hostOps0, hostOps0_1, hostOps0_2, hostOps0_3, List.flatten_cons, List.flatten_nil, List.append_nil,
    List.cons_append, List.nil_append]
  after_results_simp
  rfl

/-- When the region is entered the family buffer holds famK of the labels at launch. -/
theorem V_v0 (c : Dev nD) :
    (V m c main_v0 : S8192.Idx → BitVec 32) = famK (m ((c : Thread nD τ).loc main_arg1)) := by
  dsimp only [V, V0]
  simp only [preOps, hostOps0, hostOps0_1, hostOps0_2, hostOps0_3, List.flatten_cons, List.flatten_nil, List.append_nil,
    List.cons_append, List.nil_append]
  after_results_simp
  rfl

/-- The family column is the family buffer's elements in the same order, as an 8192 x 1 array. -/
theorem V_v6 (c : Dev nD) :
    (V m c main_v6 : S8192x1.Idx → BitVec 32)
      = shapeCast S8192x1 (famK (m ((c : Thread nD τ).loc main_arg1))) shapeCasts_S8192_S8192x1 := by
  dsimp only [V, V0]
  simp only [preOps, hostOps0, hostOps0_1, hostOps0_2, hostOps0_3, List.flatten_cons, List.flatten_nil, List.append_nil,
    List.cons_append, List.nil_append]
  after_results_simp
  rfl

/-- The family row is the family buffer's elements in the same order, as a 1 x 8192 array. -/
theorem V_v7 (c : Dev nD) :
    (V m c main_v7 : S1x8192.Idx → BitVec 32)
      = shapeCast S1x8192 (famK (m ((c : Thread nD τ).loc main_arg1))) shapeCasts_S8192_S1x8192 := by
  dsimp only [V, V0]
  simp only [preOps, hostOps0, hostOps0_1, hostOps0_2, hostOps0_3, List.flatten_cons, List.flatten_nil, List.append_nil,
    List.cons_append, List.nil_append]
  after_results_simp
  rfl

/-- An array of a elements cast to a x 1 reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The family column at row i is the family word of sample i. -/
theorem V_v6_apply (c : Dev nD) (i : Fin 8192) :
    (V m c main_v6 : S8192x1.Idx → BitVec 32) (ix2 i (0 : Fin 1)) = famK (m ((c : Thread nD τ).loc main_arg1)) (ix1 i) := by
  rw [V_v6]
  exact shapeCast_a_a1_apply _ shapeCasts_S8192_S8192x1 i 0

/-- The family row at column j is the family word of sample j. -/
theorem V_v7_apply (c : Dev nD) (j : Fin 8192) :
    (V m c main_v7 : S1x8192.Idx → BitVec 32) (ix2 (0 : Fin 1) j) = famK (m ((c : Thread nD τ).loc main_arg1)) (ix1 j) := by
  rw [V_v7]
  exact shapeCast_a_1a_apply _ shapeCasts_S8192_S1x8192 0 j

/-- The sum along the 64 coordinates keeps the row: the kept index with coordinate k put back is (i, k). -/
theorem lift_row (h : S8192x64.Reduces [1] S8192) (i : Fin 8192) (k : Fin 64) :
    h.lift (ix1 i) k = ix2 i k := by
  funext a
  match a with
  | ⟨0, _⟩ => exact Fin.ext rfl
  | ⟨1, _⟩ => exact Fin.ext rfl

/-- enK at row i and coordinate k is the specification's row normalization of the array read by coordinates. -/
theorem enK_apply (x : FVec Ideal S8192x64 .f32) (i : Fin 8192) (k : Fin 64) :
    enK x (ix2 i k) = Cert.Spec.normalize (fun i k => x (ix2 i k)) i k := by
  have hred : S8192x64.Reduces [1] S8192 := by decide
  -- the denominator column is read at (i, 0)
  have hcol : ∀ D : FVec Ideal S8192x1 .f32,
      broadcastInDim S8192x64 ![0, 1] bcast_S8192x1_S8192x64_0_1 D (ix2 i k) = D (ix2 i (0 : Fin 1)) := fun D =>
    broadcastInDim_apply ![0, 1] bcast_S8192x1_S8192x64_0_1 D (ix2 i k) (ix2 i (0 : Fin 1))
      (fun a => by match a with | ⟨0, _⟩ => rfl | ⟨1, _⟩ => rfl)
  -- the row sums, as a column, are read at row i
  have hrow : ∀ R : FVec Ideal S8192 .f32,
      broadcastInDim S8192x1 ![0] bcast_S8192_S8192x1_0 R (ix2 i (0 : Fin 1)) = R (ix1 i) := fun R =>
    broadcastInDim_apply ![0] bcast_S8192_S8192x1_0 R (ix2 i (0 : Fin 1)) (ix1 i)
      (fun a => by match a with | ⟨0, _⟩ => rfl)
  -- the small constant, broadcast, is itself everywhere
  have heps : broadcastInDim S8192x1 ![] bcast_S_S8192x1 (constant (F := Ideal) S_ .f32 0x2B8CBCCC#32) (ix2 i (0 : Fin 1))
      = Ideal.ofBits .f32 0x2B8CBCCC#32 :=
    broadcastInDim_scalar_apply bcast_S_S8192x1 _ _
  -- the row's sum of squares
  have hsum : Host.reduceAdd (mulf x x) (constant (F := Ideal) S_ .f32 0x00000000#32) reducesTo_S8192x64_S8192_d1 h_S_ (ix1 i)
      = Ideal.ofBits .f32 0x00000000#32 + ∑ k' : Fin 64, x (ix2 i k') * x (ix2 i k') := by
    rw [hostReduceAdd_apply]
    refine (Ideal.hostReduceAdd_single reducesTo_S8192x64_S8192_d1 hred (mulf x x) _ (ix1 i)).trans ?_
    refine congrArg₂ (· + ·) rfl (Finset.sum_congr rfl fun k' _ => ?_)
    rw [lift_row hred i k', mulf_apply]
  unfold enK Cert.Spec.normalize
  rw [hostDivf_apply, hcol, maximumf_apply, heps]
  refine congrArg (fun d => Ideal.div (x (ix2 i k)) (max d (Ideal.ofBits .f32 0x2B8CBCCC#32))) ?_
  show Ideal.sqrt _ = Ideal.sqrt _
  rw [hrow, hsum]

end Cert.KernelIdeal.Hand

end
-- ==== Proof.SpecFinish.lean ====
/-
  The last step both programs share, and the bookkeeping of rows inside blocks.

  The 8192 rows are cut into 32 blocks of 256; row `r` of block `t` is the global row `256 * t + r`.
  Both programs end by summing the rows' losses and weights (each sum started from the zero word) and dividing the total
  loss by the count clamped below at one.
-/
import proofs.«142051_j14310831030886_2_alg».proof.Proof.Spec

noncomputable section

namespace Cert.Spec

open Idealize.ShloMosaic

/-- Row `r` of block `t` as a global row. -/
def row (t : Fin 32) (r : Fin 256) : Fin 8192 := ⟨256 * t.val + r.val, by omega⟩

theorem row_val (t : Fin 32) (r : Fin 256) : (row t r).val = 256 * t.val + r.val := rfl

/-- The mean over the rows that count: total loss over the count, the count clamped below at one. -/
def finish (total count : EReal) : EReal := Ideal.div total (max count one)

/-- The whole result from the rows' losses: both sums start from the zero word. -/
def result (loss : Fin 8192 → EReal) (fam : Fin 8192 → BitVec 32) : EReal :=
  finish (Ideal.ofBits .f32 0x00000000#32 + ∑ i : Fin 8192, loss i) (Ideal.ofBits .f32 0x00000000#32 + ∑ i : Fin 8192, weight fam i)

end Cert.Spec

end
-- ==== Proof.KernelRowA.lean ====
/-
  The similarity matrix and the pair masks of one block of rows, read at an entry.

  Block `t` holds the 256 rows `256 * t + r`. Entry `(r, j)` of the block's product of its rows with all 8192 rows is the
  inner product of row `256 * t + r` with row `j`. The mask "same family" compares the row's family word, spread along the
  columns, with column `j`'s family word, spread along the rows; the mask "positive pair" also asks that the two row
  numbers differ, where the row's number is its position in the block plus `256 * t` as a 32-bit word (no wraparound:
  every row number is below `8192`); the mask "negative pair" is the complement of "same family".
-/
import proofs.«142051_j14310831030886_2_alg».proof.Proof.Gen.KernelIdeal.Skeleton
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Cert.Spec Idealize.ShloMosaic ValueIdx

/-! ## Layout operations the block meets, read at coordinates -/

/-- A column `[a, 1]` spread over `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` viewed as a row `[1, a]` reads, at `(u, i)`, the column at `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-! ## One-bit words -/

/-- A select on a bit that is set exactly when `P` holds is the `if` on `P`. -/
theorem select_of_iff {α : Type} {c : BitVec 1} {P : Prop} [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

/-- The conjunction of two bits is set exactly when both are. -/
theorem andi_eq_one_iff (x y : BitVec 1) : IntOp.andi x y = 1#1 ↔ x = 1#1 ∧ y = 1#1 := by
  rcases BitVec.eq_zero_or_eq_one x with hx | hx <;> rcases BitVec.eq_zero_or_eq_one y with hy | hy <;>
    subst hx <;> subst hy <;> decide

/-- A bit flipped is set exactly when the bit is not. -/
theorem xori_one_eq_one_iff (x : BitVec 1) : IntOp.xori x 1#1 = 1#1 ↔ ¬x = 1#1 := by
  rcases BitVec.eq_zero_or_eq_one x with hx | hx <;> subst hx <;> decide

/-- A truth value as a bit is set exactly when it is true. -/
theorem ofBool_eq_one_iff (b : Bool) : BitVec.ofBool b = 1#1 ↔ b = true := by cases b <;> decide

/-- Equality of two words as a bit. -/
theorem cmpi_eq_eq_one_iff (x y : BitVec 32) : IntOp.cmpi .eq x y = 1#1 ↔ x = y := by
  unfold IntOp.cmpi
  exact (ofBool_eq_one_iff _).trans beq_iff_eq

/-- Inequality of two words as a bit. -/
theorem cmpi_ne_eq_one_iff (x y : BitVec 32) : IntOp.cmpi .ne x y = 1#1 ↔ x ≠ y := by
  unfold IntOp.cmpi
  exact (ofBool_eq_one_iff _).trans bne_iff_ne

/-- Row `r` of block `t` has the number `256 * t + r`; as 32-bit words, position plus `t * 256` differs from `j` exactly when
    the row is not row `j`: nothing wraps, every number is below `8192`. -/
theorem cmpi_ne_row_iff (tn : Fin 32) (r : Fin 256) (j : Fin 8192) :
    IntOp.cmpi .ne (IntOp.addi (BitVec.ofNat 32 r.val) (IntOp.muli (BitVec.ofNat 32 tn.val) 256#32)) (BitVec.ofNat 32 j.val) = 1#1
      ↔ row tn r ≠ j := by
  have hr := r.isLt
  have ht := tn.isLt
  have hj := j.isLt
  have hval : (IntOp.addi (BitVec.ofNat 32 r.val) (IntOp.muli (BitVec.ofNat 32 tn.val) 256#32)).toNat = 256 * tn.val + r.val := by
    unfold IntOp.addi IntOp.muli
    rw [BitVec.toNat_add, BitVec.toNat_mul, BitVec.toNat_ofNat, BitVec.toNat_ofNat, BitVec.toNat_ofNat]
    omega
  have hj' : (BitVec.ofNat 32 j.val).toNat = j.val := by
    rw [BitVec.toNat_ofNat]; omega
  refine (cmpi_ne_eq_one_iff _ _).trans ?_
  constructor
  · intro h hrow
    have : (row tn r).val = j.val := congrArg Fin.val hrow
    rw [row_val] at this
    exact h (BitVec.eq_of_toNat_eq (by rw [hval, hj', this]))
  · intro h e
    apply h
    apply Fin.ext
    rw [row_val, ← hval, e, hj']

end Cert.KernelIdeal.Row

end
-- ==== Proof.KernelRowB.lean ====
/-
  The similarity matrix and the pair masks of one block of rows, read at an entry.

  Block `t` holds the 256 rows `256 * t + r`. Entry `(r, j)` of the product of the block's rows with all 8192 rows is the
  inner product of row `256 * t + r` with row `j`: the similarity of the two rows. The mask "same family" compares the row's
  family word, spread along the columns, with column `j`'s family word, spread along the rows; the mask "positive pair"
  also asks that the two row numbers differ; the mask "negative pair" is the complement of "same family".
-/
import proofs.«142051_j14310831030886_2_alg».proof.Proof.Gen.KernelIdeal.Skeleton
import proofs.«142051_j14310831030886_2_alg».proof.Proof.SpecFinish
import proofs.«142051_j14310831030886_2_alg».proof.Proof.KernelRowA
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Cert.Spec Idealize.ShloMosaic ValueIdx

/-- The left operand of the product is read at the entry's row … -/
theorem lhs_row (i : S256x8192.Idx) (q : dot_S256x64_S8192x64_S256x8192_1_1_0_0_n_n.contr.Idx) :
    (dot_S256x64_S8192x64_S256x8192_1_1_0_0_n_n.lhsIdx i q 0).val = (i 0).val := by
  unfold DotDims.lhsIdx
  rw [dif_neg (show ¬(0 : Fin S256x64.rank) ∈ dot_S256x64_S8192x64_S256x8192_1_1_0_0_n_n.lhsBatch by decide),
    dif_pos (show (0 : Fin S256x64.rank) ∈ dot_S256x64_S8192x64_S256x8192_1_1_0_0_n_n.lhsNonContracting by decide)]
  rfl

/-- … and the right operand at the row the entry's column names. -/
theorem rhs_row (i : S256x8192.Idx) (q : dot_S256x64_S8192x64_S256x8192_1_1_0_0_n_n.contr.Idx) :
    (dot_S256x64_S8192x64_S256x8192_1_1_0_0_n_n.rhsIdx i q 0).val = (i 1).val := by
  unfold DotDims.rhsIdx
  rw [dif_neg (show ¬(0 : Fin S8192x64.rank) ∈ dot_S256x64_S8192x64_S256x8192_1_1_0_0_n_n.rhsBatch by decide),
    dif_pos (show (0 : Fin S8192x64.rank) ∈ dot_S256x64_S8192x64_S256x8192_1_1_0_0_n_n.rhsNonContracting by decide)]
  rfl

/-- Entry `(r, j)` of the block's product: the sum over the 64 coordinates of the products of the two rows' coordinates. -/
theorem pay4_apply (v0 : Vec Ideal S256x64 .f32) (v2 : Vec Ideal S8192x64 .f32) (r : Fin 256) (j : Fin 8192) :
    k0_pay4 (F := Ideal) v0 v2 (ix2 r j) = ∑ k : Fin 64, v0 (ix2 r k) * v2 (ix2 j k) := by
  unfold k0_pay4
  rw [shapeCast_self, shapeCast_self]
  refine (Ideal.matmul_constant_zero_apply dot_S256x64_S8192x64_S256x8192_1_1_0_0_n_n none v0 v2 (ix2 r j)).trans ?_
  rw [← Equiv.sum_comp (contrEquiv1 dot_S256x64_S8192x64_S256x8192_1_1_0_0_n_n 64 rfl rfl).symm]
  refine Finset.sum_congr rfl fun k _ => ?_
  have hk := contrEquiv1_symm_val dot_S256x64_S8192x64_S256x8192_1_1_0_0_n_n 64 rfl rfl k
  have el : dot_S256x64_S8192x64_S256x8192_1_1_0_0_n_n.lhsIdx (ix2 r j)
      ((contrEquiv1 dot_S256x64_S8192x64_S256x8192_1_1_0_0_n_n 64 rfl rfl).symm k) = ix2 r k := funext fun a => Fin.ext (by
    match a with
    | ⟨0, _⟩ => exact lhs_row (ix2 r j) _
    | ⟨1, _⟩ =>
      exact (dot_S256x64_S8192x64_S256x8192_1_1_0_0_n_n.lhsIdx_val_of_single rfl (ix2 r j) _).trans hk)
  have er : dot_S256x64_S8192x64_S256x8192_1_1_0_0_n_n.rhsIdx (ix2 r j)
      ((contrEquiv1 dot_S256x64_S8192x64_S256x8192_1_1_0_0_n_n 64 rfl rfl).symm k) = ix2 j k := funext fun a => Fin.ext (by
    match a with
    | ⟨0, _⟩ => exact rhs_row (ix2 r j) _
    | ⟨1, _⟩ =>
      exact (dot_S256x64_S8192x64_S256x8192_1_1_0_0_n_n.rhsIdx_val_of_single rfl (ix2 r j) _).trans hk)
  rw [el, er]

/-- So, over the block's rows and all rows as the embeddings give them, entry `(r, j)` is the similarity of row `256 * t + r` and row `j`. -/
theorem pay4_sim (tn : Fin 32) (v0 : Vec Ideal S256x64 .f32) (v2 : Vec Ideal S8192x64 .f32)
    (e : Fin 8192 → Fin 64 → EReal)
    (h0 : ∀ (r : Fin 256) (k : Fin 64), v0 (ix2 r k) = e (row tn r) k) (h2 : ∀ (j : Fin 8192) (k : Fin 64), v2 (ix2 j k) = e j k)
    (r : Fin 256) (j : Fin 8192) : k0_pay4 (F := Ideal) v0 v2 (ix2 r j) = sim e (row tn r) j := by
  rw [pay4_apply]
  unfold sim
  exact Finset.sum_congr rfl fun k _ => by rw [h0 r k, h2 j k]

/-- The mask "same family" at `(r, j)`: the row's family word equals column `j`'s. -/
theorem pay5_iff (tn : Fin 32) (v5 : Vec Ideal S256x1 .i32) (v7 : Vec Ideal S1x8192 .i32) (fam : Fin 8192 → BitVec 32)
    (h5 : ∀ r : Fin 256, v5 (ix2 r 0) = fam (row tn r)) (h7 : ∀ j : Fin 8192, v7 (ix2 0 j) = fam j)
    (r : Fin 256) (j : Fin 8192) : k0_pay5 (F := Ideal) v5 v7 (ix2 r j) = 1#1 ↔ fam (row tn r) = fam j := by
  unfold k0_pay5
  rw [shapeCast_self, shapeCast_self]
  show IntOp.cmpi .eq (broadcastTo S256x8192 v5 broadcasts_S256x1_S256x8192 (ix2 r j))
    (broadcastTo S256x8192 v7 broadcasts_S1x8192_S256x8192 (ix2 r j)) = 1#1 ↔ _
  rw [broadcastTo_a1_ab_apply v5 broadcasts_S256x1_S256x8192 r j, broadcastTo_1b_ab_apply v7 broadcasts_S1x8192_S256x8192 r j,
    h5 r, h7 j]
  exact cmpi_eq_eq_one_iff _ _

/-- The mask "positive pair" at `(r, j)`: same family, and row `256 * t + r` is not row `j`. -/
theorem pay6_iff (t : grid0.Coords) (tn : Fin 32) (ht : (t 0).val = tn.val)
    (v5 : Vec Ideal S256x1 .i32) (v7 : Vec Ideal S1x8192 .i32) (fam : Fin 8192 → BitVec 32)
    (h5 : ∀ r : Fin 256, v5 (ix2 r 0) = fam (row tn r)) (h7 : ∀ j : Fin 8192, v7 (ix2 0 j) = fam j)
    (r : Fin 256) (j : Fin 8192) : k0_pay6 (F := Ideal) t v5 v7 (ix2 r j) = 1#1 ↔ same fam (row tn r) j := by
  unfold k0_pay6
  dsimp only
  show IntOp.andi (k0_pay5 (F := Ideal) v5 v7 (ix2 r j))
    (IntOp.cmpi .ne
      (broadcastTo S256x8192 (addi (iota .tc S256x1 32 [0] iota_S256x1_d0_w32)
        (broadcast S256x1 (Scalar.muli (BitVec.ofNat 32 (t 0).val) 256#32))) broadcasts_S256x1_S256x8192 (ix2 r j))
      (broadcastTo S256x8192 (iota .tc S1x8192 32 [1] iota_S1x8192_d1_w32) broadcasts_S1x8192_S256x8192 (ix2 r j))) = 1#1 ↔ _
  rw [broadcastTo_a1_ab_apply _ broadcasts_S256x1_S256x8192 r j, broadcastTo_1b_ab_apply _ broadcasts_S1x8192_S256x8192 r j,
    iota_single_apply, ht]
  show IntOp.andi _ (IntOp.cmpi .ne (IntOp.addi (iota .tc S256x1 32 [0] iota_S256x1_d0_w32 (ix2 r (0 : Fin 1)))
      (IntOp.muli (BitVec.ofNat 32 tn.val) 256#32)) (BitVec.ofNat 32 j.val)) = 1#1 ↔ _
  rw [iota_single_apply]
  show IntOp.andi _ (IntOp.cmpi .ne (IntOp.addi (BitVec.ofNat 32 r.val) (IntOp.muli (BitVec.ofNat 32 tn.val) 256#32))
      (BitVec.ofNat 32 j.val)) = 1#1 ↔ _
  rw [andi_eq_one_iff, pay5_iff tn v5 v7 fam h5 h7 r j, cmpi_ne_row_iff tn r j]
  exact Iff.rfl

/-- The mask "negative pair" at `(r, j)`: the row's family differs from column `j`'s. -/
theorem pay7_iff (tn : Fin 32) (v5 : Vec Ideal S256x1 .i32) (v7 : Vec Ideal S1x8192 .i32) (fam : Fin 8192 → BitVec 32)
    (h5 : ∀ r : Fin 256, v5 (ix2 r 0) = fam (row tn r)) (h7 : ∀ j : Fin 8192, v7 (ix2 0 j) = fam j)
    (r : Fin 256) (j : Fin 8192) : k0_pay7 (F := Ideal) v5 v7 (ix2 r j) = 1#1 ↔ diff fam (row tn r) j := by
  unfold k0_pay7
  show IntOp.xori (k0_pay5 (F := Ideal) v5 v7 (ix2 r j)) 1#1 = 1#1 ↔ _
  rw [xori_one_eq_one_iff, pay5_iff tn v5 v7 fam h5 h7 r j]
  exact Iff.rfl

end Cert.KernelIdeal.Row

end
-- ==== Proof.KernelRowC.lean ====
/-
  A row's extremum over the 8192 columns, and what "some column qualifies" looks like as a number.

  The block's row reductions run over axis 1 of a `256 x 8192` array from the accumulator words `-inf` (maximum) and
  `+inf` (minimum). Read at row `r` they are the supremum and the infimum, over the columns `j`, of the entries `(r, j)`:
  a fold of `max` from the bottom element is the supremum, a fold of `min` from the top element the infimum. The largest
  of the numbers "one where column `j` qualifies, zero elsewhere" is above zero exactly when some column qualifies.
-/
import proofs.«142051_j14310831030886_2_alg».proof.Proof.Gen.KernelIdeal.Skeleton
import proofs.«142051_j14310831030886_2_alg».proof.Proof.SpecFinish
import proofs.«142051_j14310831030886_2_alg».proof.Proof.KernelRowA
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Cert.Spec Idealize.ShloMosaic ValueIdx

/-- A minimum reduction over one axis, read at an index: the fold of `min` from the accumulator's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Folding `max` from the bottom element is taking the supremum … -/
theorem fold_max_eq_sup {ι : Type} (s : Finset ι) (f : ι → EReal) : s.fold max ⊥ f = s.sup f := by
  classical
  induction s using Finset.induction_on with
  | empty => rfl
  | insert a s ha ih => rw [Finset.fold_insert ha, Finset.sup_insert, ih]

/-- … and folding `min` from the top element is taking the infimum. -/
theorem fold_min_eq_inf {ι : Type} (s : Finset ι) (f : ι → EReal) : s.fold min ⊤ f = s.inf f := by
  classical
  induction s using Finset.induction_on with
  | empty => rfl
  | insert a s ha ih => rw [Finset.fold_insert ha, Finset.inf_insert, ih]

/-- The accumulator word of a maximum is the bottom element, -/
theorem ofBits_neg_inf : (FloatOps.ofBits .f32 0xFF800000#32 : Ideal .f32) = ⊥ := by
  show Ideal.ofBits .f32 0xFF800000#32 = ⊥
  simp [Ideal.ofBits, Ideal.ieee]

/-- and the accumulator word of a minimum the top element. -/
theorem ofBits_pos_inf : (FloatOps.ofBits .f32 0x7F800000#32 : Ideal .f32) = ⊤ := by
  show Ideal.ofBits .f32 0x7F800000#32 = ⊤
  simp [Ideal.ofBits, Ideal.ieee]

/-- Row `r` with column `k` put back is the entry `(r, k)`. -/
theorem lift_row (r : Fin 256) (k : Fin 8192) : reduces_S256x8192_S256.lift (ix1 r) k = ix2 r k :=
  funext fun a => Fin.ext (by match a with | ⟨0, _⟩ => rfl | ⟨1, _⟩ => rfl)

/-- The maximum over axis 1, read at row `r`: the supremum of the row's entries. -/
theorem rowMax_apply (src : FVec Ideal S256x8192 .f32) (r : Fin 256) :
    multiReduction .maximumf [1] S256 src 0xFF800000#32 reduces_S256x8192_S256 (.inl rfl) rfl (ix1 r)
      = (Finset.univ : Finset (Fin 8192)).sup fun j => src (ix2 r j) := by
  refine (Ideal.multiReduction_maximumf_single src 0xFF800000#32 reduces_S256x8192_S256 (.inl rfl) rfl (ix1 r)).trans ?_
  rw [ofBits_neg_inf]
  refine (fold_max_eq_sup (Finset.univ : Finset (Fin 8192)) (fun k => src (reduces_S256x8192_S256.lift (ix1 r) k))).trans ?_
  exact congrArg _ (funext fun k => congrArg src (lift_row r k))

/-- The minimum over axis 1, read at row `r`: the infimum of the row's entries. -/
theorem rowMin_apply (src : FVec Ideal S256x8192 .f32) (r : Fin 256) :
    multiReduction .minimumf [1] S256 src 0x7F800000#32 reduces_S256x8192_S256 (.inl rfl) rfl (ix1 r)
      = (Finset.univ : Finset (Fin 8192)).inf fun j => src (ix2 r j) := by
  refine (multiReduction_minimumf_single src 0x7F800000#32 reduces_S256x8192_S256 (.inl rfl) rfl (ix1 r)).trans ?_
  rw [ofBits_pos_inf]
  refine (fold_min_eq_inf (Finset.univ : Finset (Fin 8192)) (fun k => src (reduces_S256x8192_S256.lift (ix1 r) k))).trans ?_
  exact congrArg _ (funext fun k => congrArg src (lift_row r k))

/-- The word of one is the number one. -/
theorem one_eq : one = 1 := IdealRules.sign_bit.ideal_onePat .f32

/-- "Above" as a bit is set exactly when the first number is above the second. -/
theorem cmp_ogt_eq_one_iff (x y : EReal) : Ideal.cmp .ogt x y = 1#1 ↔ y < x := by
  unfold Ideal.cmp
  exact (ofBool_eq_one_iff _).trans decide_eq_true_iff

/-- The largest of "one where `P j`, zero elsewhere" is above zero exactly when `P` holds somewhere. -/
theorem zero_lt_sup_indicator_iff (P : Fin 8192 → Prop) [DecidablePred P] :
    (0 : EReal) < ((Finset.univ : Finset (Fin 8192)).sup fun j => if P j then one else 0) ↔ ∃ j, P j := by
  rw [Finset.lt_sup_iff]
  constructor
  · rintro ⟨j, _, hj⟩
    by_cases hp : P j
    · exact ⟨j, hp⟩
    · rw [if_neg hp] at hj; exact absurd hj (lt_irrefl _)
  · rintro ⟨j, hp⟩
    refine ⟨j, Finset.mem_univ _, ?_⟩
    rw [if_pos hp, one_eq]
    exact zero_lt_one

end Cert.KernelIdeal.Row

end
-- ==== Proof.KernelRow.lean ====
/-
  What one block of rows stores: each row's loss and each row's weight.

  For row `r` of block `t`, that is the global row `i = 256 * t + r`: the hardest positive distance is one minus the smallest
  similarity over the row's positive pairs (other entries filled with the large word), the hardest negative distance one
  minus the largest similarity over its negative pairs (other entries filled with the negative large word). The row counts
  when the largest of "one at a positive pair, zero elsewhere" is above zero and likewise for the negative pairs. The
  stored loss is the hinge of the two distances and the margin on a row that counts and zero otherwise; the stored weight
  is the "counts" bit widened to a word and converted to a number: one or zero.
-/
import proofs.«142051_j14310831030886_2_alg».proof.Proof.Gen.KernelIdeal.Skeleton
import proofs.«142051_j14310831030886_2_alg».proof.Proof.SpecFinish
import proofs.«142051_j14310831030886_2_alg».proof.Proof.KernelRowB
import proofs.«142051_j14310831030886_2_alg».proof.Proof.KernelRowC
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Cert.Spec Idealize.ShloMosaic ValueIdx

/-- The largest of "one at a positive pair, zero elsewhere" along row `r`. -/
theorem pay10_apply (t : grid0.Coords) (tn : Fin 32) (ht : (t 0).val = tn.val)
    (v5 : Vec Ideal S256x1 .i32) (v7 : Vec Ideal S1x8192 .i32) (fam : Fin 8192 → BitVec 32)
    (h5 : ∀ r : Fin 256, v5 (ix2 r 0) = fam (row tn r)) (h7 : ∀ j : Fin 8192, v7 (ix2 0 j) = fam j) (r : Fin 256) :
    k0_pay10 (F := Ideal) t v5 v7 (ix1 r)
      = (Finset.univ : Finset (Fin 8192)).sup fun j => if same fam (row tn r) j then one else 0 := by
  unfold k0_pay10
  refine (rowMax_apply _ r).trans ?_
  refine congrArg _ (funext fun j => ?_)
  refine (select_of_iff (pay6_iff t tn ht v5 v7 fam h5 h7 r j) _ _).trans ?_
  show (if same fam (row tn r) j then Ideal.ofBits .f32 0x3F800000#32 else Ideal.ofBits .f32 0x00000000#32) = _
  rw [Ideal.ofBits_zero_f32]
  rfl

/-- A row's number compared "above zero", viewed as a column: the bit at `(r, 0)` is set exactly when the number at `r` is above zero. -/
theorem col_gt_zero_iff (x : FVec Ideal S256 .f32) (r : Fin 256) :
    shapeCast S256x1 (cmpf .ogt x (broadcast S256 (Scalar.ofBits .f32 0x00000000#32))) shapeCasts_S256_S256x1 (ix2 r 0) = 1#1
      ↔ (0 : EReal) < x (ix1 r) := by
  refine (iff_of_eq (congrArg (· = 1#1) (shapeCast_a_a1_apply
    (cmpf .ogt x (broadcast S256 (Scalar.ofBits .f32 0x00000000#32))) shapeCasts_S256_S256x1 r 0))).trans ?_
  refine (cmp_ogt_eq_one_iff (x (ix1 r)) (Ideal.ofBits .f32 0x00000000#32)).trans ?_
  rw [Ideal.ofBits_zero_f32]

/-- "One where the mask is set, zero elsewhere", read at an entry. -/
theorem indicator_apply (m : IVec S256x8192 1) (r : Fin 256) (j : Fin 8192) :
    select m (broadcast S256x8192 (Scalar.ofBits (F := Ideal) .f32 0x3F800000#32))
        (broadcast S256x8192 (Scalar.ofBits (F := Ideal) .f32 0x00000000#32)) (ix2 r j)
      = if m (ix2 r j) = 1#1 then one else 0 := by
  refine (select_of_iff (c := m (ix2 r j)) Iff.rfl (Ideal.ofBits .f32 0x3F800000#32) (Ideal.ofBits .f32 0x00000000#32)).trans ?_
  rw [Ideal.ofBits_zero_f32]
  rfl

/-- The "counts" bit over any mask and any row maxima: both the row's maximum and the largest of "one where the mask is
    set, zero elsewhere" along the row are above zero. -/
theorem pay1_iff_of (v21 : IVec S256x8192 1) (v37 : FVec Ideal S256 .f32) (r : Fin 256) :
    k0_pay1 (F := Ideal) v21 v37 (Scalar.ofBits .f32 0x00000000#32) (ix2 r 0) = 1#1
      ↔ (0 : EReal) < v37 (ix1 r)
        ∧ (0 : EReal) < (Finset.univ : Finset (Fin 8192)).sup fun j => if v21 (ix2 r j) = 1#1 then one else 0 := by
  unfold k0_pay1
  refine (andi_eq_one_iff _ _).trans (and_congr (col_gt_zero_iff v37 r) ((col_gt_zero_iff _ r).trans ?_))
  rw [rowMax_apply]
  exact iff_of_eq (congrArg (fun x => (0 : EReal) < x)
    (congrArg (Finset.univ : Finset (Fin 8192)).sup (funext fun j => indicator_apply v21 r j)))

/-- The "counts" bit of row `r`: it has a positive pair and a negative pair. -/
theorem pay1_iff (t : grid0.Coords) (tn : Fin 32) (ht : (t 0).val = tn.val)
    (v5 : Vec Ideal S256x1 .i32) (v7 : Vec Ideal S1x8192 .i32) (fam : Fin 8192 → BitVec 32)
    (h5 : ∀ r : Fin 256, v5 (ix2 r 0) = fam (row tn r)) (h7 : ∀ j : Fin 8192, v7 (ix2 0 j) = fam j) (r : Fin 256) :
    k0_pay1 (F := Ideal) (k0_pay7 v5 v7) (k0_pay10 t v5 v7) (Scalar.ofBits .f32 0x00000000#32) (ix2 r 0) = 1#1
      ↔ valid fam (row tn r) := by
  refine (pay1_iff_of (k0_pay7 v5 v7) (k0_pay10 t v5 v7) r).trans ?_
  unfold valid
  refine and_congr ?_ ?_
  · rw [pay10_apply t tn ht v5 v7 fam h5 h7 r]
    exact zero_lt_sup_indicator_iff _
  · have hsel : (fun j : Fin 8192 => if k0_pay7 (F := Ideal) v5 v7 (ix2 r j) = 1#1 then one else 0)
        = fun j => if diff fam (row tn r) j then one else 0 := funext fun j =>
      if_congr (pay7_iff tn v5 v7 fam h5 h7 r j) rfl rfl
    rw [hsel]
    exact zero_lt_sup_indicator_iff _

/-- One minus a row's minimum, viewed as a column and read at `(r, 0)`: one minus the infimum of the row's entries. -/
theorem one_sub_rowMin_apply (src : FVec Ideal S256x8192 .f32) (r : Fin 256) :
    subf (broadcast S256x1 (Scalar.ofBits (F := Ideal) .f32 0x3F800000#32))
        (shapeCast S256x1 (multiReduction .minimumf [1] S256 src 0x7F800000#32 reduces_S256x8192_S256 (.inl rfl) rfl)
          shapeCasts_S256_S256x1) (ix2 r 0)
      = one - (Finset.univ : Finset (Fin 8192)).inf fun j => src (ix2 r j) := by
  refine (subf_apply _ _ (ix2 r (0 : Fin 1))).trans ?_
  rw [shapeCast_a_a1_apply, rowMin_apply]
  rfl

/-- One minus a row's maximum, viewed as a column and read at `(r, 0)`: one minus the supremum of the row's entries. -/
theorem one_sub_rowMax_apply (src : FVec Ideal S256x8192 .f32) (r : Fin 256) :
    subf (broadcast S256x1 (Scalar.ofBits (F := Ideal) .f32 0x3F800000#32))
        (shapeCast S256x1 (multiReduction .maximumf [1] S256 src 0xFF800000#32 reduces_S256x8192_S256 (.inl rfl) rfl)
          shapeCasts_S256_S256x1) (ix2 r 0)
      = one - (Finset.univ : Finset (Fin 8192)).sup fun j => src (ix2 r j) := by
  refine (subf_apply _ _ (ix2 r (0 : Fin 1))).trans ?_
  rw [shapeCast_a_a1_apply, rowMax_apply]
  rfl

/-- An array kept where a mask is set and filled with a word elsewhere, read at an entry. -/
theorem fill_apply (m : IVec S256x8192 1) (s : FVec Ideal S256x8192 .f32) (w : BitVec 32) (r : Fin 256) (j : Fin 8192)
    {P : Prop} [Decidable P] (h : m (ix2 r j) = 1#1 ↔ P) :
    select m s (broadcast S256x8192 (Scalar.ofBits (F := Ideal) .f32 w)) (ix2 r j)
      = if P then s (ix2 r j) else Ideal.ofBits .f32 w :=
  select_of_iff h _ _

/-- The hardest positive distance of row `r`. -/
theorem pay8_apply (t : grid0.Coords) (tn : Fin 32) (ht : (t 0).val = tn.val)
    (v0 : Vec Ideal S256x64 .f32) (v2 : Vec Ideal S8192x64 .f32) (v5 : Vec Ideal S256x1 .i32) (v7 : Vec Ideal S1x8192 .i32)
    (e : Fin 8192 → Fin 64 → EReal) (fam : Fin 8192 → BitVec 32)
    (h0 : ∀ (r : Fin 256) (k : Fin 64), v0 (ix2 r k) = e (row tn r) k) (h2 : ∀ (j : Fin 8192) (k : Fin 64), v2 (ix2 j k) = e j k)
    (h5 : ∀ r : Fin 256, v5 (ix2 r 0) = fam (row tn r)) (h7 : ∀ j : Fin 8192, v7 (ix2 0 j) = fam j) (r : Fin 256) :
    k0_pay8 (F := Ideal) t v0 v2 v5 v7 (ix2 r 0) = dposS e fam (row tn r) := by
  unfold k0_pay8 dposS
  refine (one_sub_rowMin_apply _ r).trans ?_
  refine congrArg (fun x => one - x) (congrArg (Finset.univ : Finset (Fin 8192)).inf (funext fun j => ?_))
  refine (fill_apply (k0_pay6 t v5 v7) (k0_pay4 v0 v2) 0x4E6E6B28#32 r j (pay6_iff t tn ht v5 v7 fam h5 h7 r j)).trans ?_
  rw [pay4_sim tn v0 v2 e h0 h2 r j]
  rfl

/-- The hardest negative distance of row `r`. -/
theorem pay9_apply (t : grid0.Coords) (tn : Fin 32) (ht : (t 0).val = tn.val)
    (v0 : Vec Ideal S256x64 .f32) (v2 : Vec Ideal S8192x64 .f32) (v5 : Vec Ideal S256x1 .i32) (v7 : Vec Ideal S1x8192 .i32)
    (e : Fin 8192 → Fin 64 → EReal) (fam : Fin 8192 → BitVec 32)
    (h0 : ∀ (r : Fin 256) (k : Fin 64), v0 (ix2 r k) = e (row tn r) k) (h2 : ∀ (j : Fin 8192) (k : Fin 64), v2 (ix2 j k) = e j k)
    (h5 : ∀ r : Fin 256, v5 (ix2 r 0) = fam (row tn r)) (h7 : ∀ j : Fin 8192, v7 (ix2 0 j) = fam j) (r : Fin 256) :
    k0_pay9 (F := Ideal) v0 v2 v5 v7 (ix2 r 0) = dnegS e fam (row tn r) := by
  unfold k0_pay9 dnegS
  refine (one_sub_rowMax_apply _ r).trans ?_
  refine congrArg (fun x => one - x) (congrArg (Finset.univ : Finset (Fin 8192)).sup (funext fun j => ?_))
  refine (fill_apply (k0_pay7 v5 v7) (k0_pay4 v0 v2) 0xCE6E6B28#32 r j (pay7_iff tn v5 v7 fam h5 h7 r j)).trans ?_
  rw [pay4_sim tn v0 v2 e h0 h2 r j]
  rfl

/-- The stored loss over any distances and any "counts" bit: the hinge where the bit is set, zero elsewhere. -/
theorem pay2_of (v21 : IVec S256x8192 1) (v29 v33 : FVec Ideal S256x1 .f32) (v37 : FVec Ideal S256 .f32) (r : Fin 256)
    {P : Prop} [Decidable P]
    (h : k0_pay1 (F := Ideal) v21 v37 (Scalar.ofBits .f32 0x00000000#32) (ix2 r 0) = 1#1 ↔ P) :
    k0_pay2 (F := Ideal) v21 v29 v33 v37 (Scalar.ofBits .f32 0x00000000#32) (ix2 0 r)
      = if P then max (v29 (ix2 r 0) - v33 (ix2 r 0) + margin) 0 else 0 := by
  unfold k0_pay2
  refine (shapeCast_a1_1a_apply _ shapeCasts_S256x1_S1x256 0 r).trans ?_
  refine (select_of_iff h _ _).trans ?_
  show (if P then max (v29 (ix2 r 0) - v33 (ix2 r 0) + Ideal.ofBits .f32 0x3E99999A#32) (Ideal.ofBits .f32 0x00000000#32)
    else Ideal.ofBits .f32 0x00000000#32) = _
  rw [Ideal.ofBits_zero_f32]
  rfl

/-- The losses the block stores: entry `r` is the loss of row `256 * t + r`. -/
theorem loss_block (t : grid0.Coords) (tn : Fin 32) (ht : (t 0).val = tn.val)
    (v0 : Vec Ideal S256x64 .f32) (v2 : Vec Ideal S8192x64 .f32) (v5 : Vec Ideal S256x1 .i32) (v7 : Vec Ideal S1x8192 .i32)
    (e : Fin 8192 → Fin 64 → EReal) (fam : Fin 8192 → BitVec 32)
    (h0 : ∀ (r : Fin 256) (k : Fin 64), v0 (ix2 r k) = e (row tn r) k) (h2 : ∀ (j : Fin 8192) (k : Fin 64), v2 (ix2 j k) = e j k)
    (h5 : ∀ r : Fin 256, v5 (ix2 r 0) = fam (row tn r)) (h7 : ∀ j : Fin 8192, v7 (ix2 0 j) = fam j) (r : Fin 256) :
    k0_pay2 (F := Ideal) (k0_pay7 v5 v7) (k0_pay8 t v0 v2 v5 v7) (k0_pay9 v0 v2 v5 v7) (k0_pay10 t v5 v7)
        (Scalar.ofBits .f32 0x00000000#32) (ix2 0 r) = lossS e fam (row tn r) := by
  refine (pay2_of (k0_pay7 v5 v7) (k0_pay8 t v0 v2 v5 v7) (k0_pay9 v0 v2 v5 v7) (k0_pay10 t v5 v7) r
    (pay1_iff t tn ht v5 v7 fam h5 h7 r)).trans ?_
  unfold lossS
  rw [pay8_apply t tn ht v0 v2 v5 v7 e fam h0 h2 h5 h7 r, pay9_apply t tn ht v0 v2 v5 v7 e fam h0 h2 h5 h7 r]

/-- The stored weight over any "counts" bit: the bit widened to a word and converted, one or zero. -/
theorem pay3_of (v21 : IVec S256x8192 1) (v37 : FVec Ideal S256 .f32) (r : Fin 256) {P : Prop} [Decidable P]
    (h : k0_pay1 (F := Ideal) v21 v37 (Scalar.ofBits .f32 0x00000000#32) (ix2 r 0) = 1#1 ↔ P) :
    k0_pay3 (F := Ideal) v21 v37 (Scalar.ofBits .f32 0x00000000#32) (ix2 0 r) = if P then 1 else 0 := by
  unfold k0_pay3
  refine (shapeCast_a1_1a_apply _ shapeCasts_S256x1_S1x256 0 r).trans ?_
  show ((((k0_pay1 (F := Ideal) v21 v37 (Scalar.ofBits .f32 0x00000000#32) (ix2 r 0)).setWidth 32).toInt : ℝ) : EReal) = _
  have h1 : ((1#1 : BitVec 1).setWidth 32).toInt = 1 := by decide
  have h0 : ((0#1 : BitVec 1).setWidth 32).toInt = 0 := by decide
  by_cases hp : P
  · rw [if_pos hp, h.mpr hp, h1]
    simp
  · rw [if_neg hp, eq_zero_of_ne_one (fun hc => hp (h.mp hc)), h0]
    simp

/-- The weights the block stores: entry `r` is one when row `256 * t + r` counts, zero otherwise. -/
theorem weight_block (t : grid0.Coords) (tn : Fin 32) (ht : (t 0).val = tn.val)
    (v0 : Vec Ideal S256x64 .f32) (v2 : Vec Ideal S8192x64 .f32) (v5 : Vec Ideal S256x1 .i32) (v7 : Vec Ideal S1x8192 .i32)
    (e : Fin 8192 → Fin 64 → EReal) (fam : Fin 8192 → BitVec 32)
    (h0 : ∀ (r : Fin 256) (k : Fin 64), v0 (ix2 r k) = e (row tn r) k) (h2 : ∀ (j : Fin 8192) (k : Fin 64), v2 (ix2 j k) = e j k)
    (h5 : ∀ r : Fin 256, v5 (ix2 r 0) = fam (row tn r)) (h7 : ∀ j : Fin 8192, v7 (ix2 0 j) = fam j) (r : Fin 256) :
    k0_pay3 (F := Ideal) (k0_pay7 v5 v7) (k0_pay10 t v5 v7) (Scalar.ofBits .f32 0x00000000#32) (ix2 0 r)
      = weight fam (row tn r) :=
  pay3_of (k0_pay7 v5 v7) (k0_pay10 t v5 v7) r (pay1_iff t tn ht v5 v7 fam h5 h7 r)

end Cert.KernelIdeal.Row

end
-- ==== Proof.KValue.lean ====
/-
  From blocks to the two result arrays.

  The grid has 32 points. Point `t` writes back lanes `256 t … 256 t + 255` of each result array: the losses and the
  weights of rows `256 t … 256 t + 255`. Its four input blocks are read off the arrays the region finds: rows
  `256 t … 256 t + 255` of the normalized embeddings, all of that array, the same rows of the family column, and the whole
  family row. A block's element sits in its array at block index times block size plus the coordinate inside the block.
  Every lane `n` is written by point `n / 256`, so after the last point the two arrays hold every row's loss and weight.
-/
import proofs.«142051_j14310831030886_2_alg».proof.Proof.KBody
import proofs.«142051_j14310831030886_2_alg».proof.Proof.KernelRow
import proofs.«142051_j14310831030886_2_alg».proof.Proof.SpecFinish
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Spec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Where each window's block sits at grid point `t`: the two row blocks (embeddings, family column) at block row `t`,
    the two whole arrays at block zero, the two output blocks at block column `t`; and the point's one coordinate is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ ((grid0.coords t) 0).val = t.val :=
  (by decide +kernel : ∀ t : Fin grid0.N, _)

/-- A grid point as a block number. -/
def blockOfPoint (t : Fin cfg0.N) : Fin 32 := ⟨t.val, lt_of_lt_of_eq t.isLt N_0⟩

/-- Entry `(r, k)` of the row block of embeddings at point `t` is entry `(256 t + r, k)` of the array. -/
theorem iblk0_apply (c : Dev nD) (t : Fin cfg0.N) (r : Fin 256) (k : Fin 64) :
    (iblk m c 0 t : Vec Ideal S256x64 .f32) (ix2 r k)
      = (V m c main_v5 : S8192x64.Idx → EReal) (ix2 (row (blockOfPoint t) r) k) := by
  obtain ⟨e00, e01, -⟩ := idx_facts t
  unfold iblk
  rw [View.read_apply]
  show V m c main_v5 _ = V m c main_v5 _
  refine congrArg (V m c main_v5) (funext fun a => Fin.ext ?_)
  match a with
  | ⟨0, _⟩ => show win0_0.index t (0 : Fin 2) * 256 + 1 * r.val = 256 * t.val + r.val; rw [e00]; omega
  | ⟨1, _⟩ => show win0_0.index t (1 : Fin 2) * 64 + 1 * k.val = k.val; rw [e01]; omega

/-- The block of all rows of the embeddings is the array itself. -/
theorem iblk1_apply (c : Dev nD) (t : Fin cfg0.N) (j : Fin 8192) (k : Fin 64) :
    (iblk m c 1 t : Vec Ideal S8192x64 .f32) (ix2 j k) = (V m c main_v5 : S8192x64.Idx → EReal) (ix2 j k) := by
  obtain ⟨-, -, e10, e11, -⟩ := idx_facts t
  unfold iblk
  rw [View.read_apply]
  show V m c main_v5 _ = V m c main_v5 _
  refine congrArg (V m c main_v5) (funext fun a => Fin.ext ?_)
  match a with
  | ⟨0, _⟩ => show win0_1.index t (0 : Fin 2) * 8192 + 1 * j.val = j.val; rw [e10]; omega
  | ⟨1, _⟩ => show win0_1.index t (1 : Fin 2) * 64 + 1 * k.val = k.val; rw [e11]; omega

/-- Entry `r` of the family column's block at point `t` is entry `256 t + r` of the column. -/
theorem iblk2_apply (c : Dev nD) (t : Fin cfg0.N) (r : Fin 256) :
    (iblk m c 2 t : Vec Ideal S256x1 .i32) (ix2 r 0)
      = (V m c main_v6 : S8192x1.Idx → BitVec 32) (ix2 (row (blockOfPoint t) r) 0) := by
  obtain ⟨-, -, -, -, e20, e21, -⟩ := idx_facts t
  unfold iblk
  rw [View.read_apply]
  show V m c main_v6 _ = V m c main_v6 _
  refine congrArg (V m c main_v6) (funext fun a => Fin.ext ?_)
  match a with
  | ⟨0, _⟩ => show win0_2.index t (0 : Fin 2) * 256 + 1 * r.val = 256 * t.val + r.val; rw [e20]; omega
  | ⟨1, _⟩ => show win0_2.index t (1 : Fin 2) * 1 + 1 * 0 = 0; rw [e21]

/-- The block of the whole family row is the row itself. -/
theorem iblk3_apply (c : Dev nD) (t : Fin cfg0.N) (j : Fin 8192) :
    (iblk m c 3 t : Vec Ideal S1x8192 .i32) (ix2 0 j) = (V m c main_v7 : S1x8192.Idx → BitVec 32) (ix2 0 j) := by
  obtain ⟨-, -, -, -, -, -, e30, e31, -⟩ := idx_facts t
  unfold iblk
  rw [View.read_apply]
  show V m c main_v7 _ = V m c main_v7 _
  refine congrArg (V m c main_v7) (funext fun a => Fin.ext ?_)
  match a with
  | ⟨0, _⟩ => show win0_3.index t (0 : Fin 2) * 1 + 1 * 0 = 0; rw [e30]
  | ⟨1, _⟩ => show win0_3.index t (1 : Fin 2) * 8192 + 1 * j.val = j.val; rw [e31]; omega

/-! ## What the body's two stores hold, lane by lane -/

/-- Lane `r` of the losses' block written at grid coordinate `i` (block `tn`) is the loss of row `256 tn + r`. -/
theorem out0_4_apply (i : grid0.Coords) (tn : Fin 32) (ht : (i 0).val = tn.val)
    (x0 : Vec Ideal S256x64 .f32) (x1 : Vec Ideal S8192x64 .f32) (x2 : Vec Ideal S256x1 .i32) (x3 : Vec Ideal S1x8192 .i32)
    (e : Fin 8192 → Fin 64 → EReal) (fam : Fin 8192 → BitVec 32)
    (h0 : ∀ (r : Fin 256) (k : Fin 64), x0 (ix2 r k) = e (row tn r) k) (h2 : ∀ (j : Fin 8192) (k : Fin 64), x1 (ix2 j k) = e j k)
    (h5 : ∀ r : Fin 256, x2 (ix2 r 0) = fam (row tn r)) (h7 : ∀ j : Fin 8192, x3 (ix2 0 j) = fam j) (r : Fin 256) :
    out0_4 (F := Ideal) i x0 x1 x2 x3 (ix2 0 r) = lossS e fam (row tn r) := by
  unfold out0_4
  rw [View.canon_unit_zero hz]
  simp only [View.ld_unit_zero (S := S256x64) hz, View.ld_unit_zero (S := S8192x64) hz, View.ld_unit_zero (S := S256x1) hz,
    View.ld_unit_zero (S := S1x8192) hz]
  exact Row.loss_block i tn ht x0 x1 x2 x3 e fam h0 h2 h5 h7 r

/-- Lane `r` of the weights' block written at grid coordinate `i` (block `tn`) is the weight of row `256 tn + r`. -/
theorem out0_5_apply (i : grid0.Coords) (tn : Fin 32) (ht : (i 0).val = tn.val)
    (x0 : Vec Ideal S256x64 .f32) (x1 : Vec Ideal S8192x64 .f32) (x2 : Vec Ideal S256x1 .i32) (x3 : Vec Ideal S1x8192 .i32)
    (e : Fin 8192 → Fin 64 → EReal) (fam : Fin 8192 → BitVec 32)
    (h0 : ∀ (r : Fin 256) (k : Fin 64), x0 (ix2 r k) = e (row tn r) k) (h2 : ∀ (j : Fin 8192) (k : Fin 64), x1 (ix2 j k) = e j k)
    (h5 : ∀ r : Fin 256, x2 (ix2 r 0) = fam (row tn r)) (h7 : ∀ j : Fin 8192, x3 (ix2 0 j) = fam j) (r : Fin 256) :
    out0_5 (F := Ideal) i x2 x3 (ix2 0 r) = weight fam (row tn r) := by
  unfold out0_5
  rw [View.canon_unit_zero hz]
  simp only [View.ld_unit_zero (S := S256x1) hz, View.ld_unit_zero (S := S1x8192) hz]
  exact Row.weight_block i tn ht x0 x1 x2 x3 e fam h0 h2 h5 h7 r

/-! ## From blocks to the two result arrays -/

/-- The rows' losses as one array of 8192 lanes. -/
def lossArr (e : Fin 8192 → Fin 64 → EReal) (fam : Fin 8192 → BitVec 32) : S1x8192.Idx → EReal :=
  fun idx => lossS e fam ⟨(idx 1).val, idx2_lt1 idx⟩
/-- The rows' weights as one array of 8192 lanes. -/
def weightArr (fam : Fin 8192 → BitVec 32) : S1x8192.Idx → EReal :=
  fun idx => weight fam ⟨(idx 1).val, idx2_lt1 idx⟩

section
variable (c : Dev nD) (e : Fin 8192 → Fin 64 → EReal) (fam : Fin 8192 → BitVec 32)
  (he : ∀ (i : Fin 8192) (k : Fin 64), (V m c main_v5 : S8192x64.Idx → EReal) (ix2 i k) = e i k)
  (h6 : ∀ i : Fin 8192, (V m c main_v6 : S8192x1.Idx → BitVec 32) (ix2 i 0) = fam i)
  (h7 : ∀ j : Fin 8192, (V m c main_v7 : S1x8192.Idx → BitVec 32) (ix2 0 j) = fam j)

include he h6 h7 in
/-- What point `t` writes back to the losses' array is block `t` of `lossArr`: lanes `256 t … 256 t + 255`. -/
theorem flushed4_eq (t : Fin cfg0.N) :
    (dats m 0 c).flushed 4 t = ((cfg0.win 4).blk t).view.read (Elt Ideal) (lossArr e fam) := by
  obtain ⟨-, -, -, -, -, -, -, -, e40, e41, e50, e51, ec⟩ := idx_facts t
  show (cfg0.win 4).cut (grid0.coords t) ((dats m 0 c).after 4 t) = _
  rw [after0_4]
  funext j
  rw [View.read_apply]
  show out0_4 (F := Ideal) (grid0.coords t) (iblk m c 0 t) (iblk m c 1 t) (iblk m c 2 t) (iblk m c 3 t) ((cfg0.win 4).xinj (grid0.coords t) j) = _
  obtain ⟨a, r, hj⟩ : ∃ (a : Fin 1) (r : Fin 256), (cfg0.win 4).xinj (grid0.coords t) j = ix2 a r := ⟨_, _, eq_ix2 _⟩
  obtain rfl : a = 0 := Subsingleton.elim _ _
  have hr : (j (1 : Fin 2)).val = r.val := congrArg Fin.val (congrFun hj (1 : Fin 2))
  rw [hj]
  refine (out0_4_apply (grid0.coords t) (blockOfPoint t) ec (iblk m c 0 t) (iblk m c 1 t) (iblk m c 2 t) (iblk m c 3 t) e fam
    (fun r k => (iblk0_apply m c t r k).trans (he _ k)) (fun j k => (iblk1_apply m c t j k).trans (he j k))
    (fun r => (iblk2_apply m c t r).trans (h6 _)) (fun j => (iblk3_apply m c t j).trans (h7 j)) r).trans ?_
  rw [cast_eq]
  unfold lossArr
  refine congrArg (lossS e fam) (Fin.ext ?_)
  show 256 * t.val + r.val = win0_4.index t (1 : Fin 2) * 256 + 1 * (j (1 : Fin 2)).val
  rw [e41, hr]; omega

include he h6 h7 in
/-- What point `t` writes back to the weights' array is block `t` of `weightArr`. -/
theorem flushed5_eq (t : Fin cfg0.N) :
    (dats m 0 c).flushed 5 t = ((cfg0.win 5).blk t).view.read (Elt Ideal) (weightArr fam) := by
  obtain ⟨-, -, -, -, -, -, -, -, e40, e41, e50, e51, ec⟩ := idx_facts t
  show (cfg0.win 5).cut (grid0.coords t) ((dats m 0 c).after 5 t) = _
  rw [after0_5]
  funext j
  rw [View.read_apply]
  show out0_5 (F := Ideal) (grid0.coords t) (iblk m c 2 t) (iblk m c 3 t) ((cfg0.win 5).xinj (grid0.coords t) j) = _
  obtain ⟨a, r, hj⟩ : ∃ (a : Fin 1) (r : Fin 256), (cfg0.win 5).xinj (grid0.coords t) j = ix2 a r := ⟨_, _, eq_ix2 _⟩
  obtain rfl : a = 0 := Subsingleton.elim _ _
  have hr : (j (1 : Fin 2)).val = r.val := congrArg Fin.val (congrFun hj (1 : Fin 2))
  rw [hj]
  refine (out0_5_apply (grid0.coords t) (blockOfPoint t) ec (iblk m c 0 t) (iblk m c 1 t) (iblk m c 2 t) (iblk m c 3 t) e fam
    (fun r k => (iblk0_apply m c t r k).trans (he _ k)) (fun j k => (iblk1_apply m c t j k).trans (he j k))
    (fun r => (iblk2_apply m c t r).trans (h6 _)) (fun j => (iblk3_apply m c t j).trans (h7 j)) r).trans ?_
  rw [cast_eq]
  unfold weightArr
  refine congrArg (weight fam) (Fin.ext ?_)
  show 256 * t.val + r.val = win0_5.index t (1 : Fin 2) * 256 + 1 * (j (1 : Fin 2)).val
  rw [e51, hr]; omega

/-- An index of a result array is in point `t`'s block exactly when its lane is one of `256 t … 256 t + 255`. -/
theorem mem_blk4 (t : Fin cfg0.N) (i : S1x8192.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v8_0).slice (win0_4.rect t)).set ↔ _
  rw [View.set_slice_whole, Rect.mem_set_unit]
  exact Iff.rfl
theorem mem_blk5 (t : Fin cfg0.N) (i : S1x8192.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v8_1).slice (win0_5.rect t)).set ↔ _
  rw [View.set_slice_whole, Rect.mem_set_unit]
  exact Iff.rfl

/-- Every lane `n` is written back by point `n / 256`. -/
theorem cover4 (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 32 := N_0
  let t : Fin cfg0.N := ⟨(i 1).val / 256, by rw [hN]; omega⟩
  obtain ⟨-, -, -, -, -, -, -, -, e40, e41, -⟩ := idx_facts t
  have ht : t.val = (i 1).val / 256 := rfl
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; rw [e40]; omega
  | ⟨1, _⟩ => show win0_4.index t (1 : Fin 2) * 256 ≤ (i 1).val ∧ (i 1).val < win0_4.index t (1 : Fin 2) * 256 + 256; rw [e41, ht]; omega
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 32 := N_0
  let t : Fin cfg0.N := ⟨(i 1).val / 256, by rw [hN]; omega⟩
  obtain ⟨-, -, -, -, -, -, -, -, -, -, e50, e51, -⟩ := idx_facts t
  have ht : t.val = (i 1).val / 256 := rfl
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; rw [e50]; omega
  | ⟨1, _⟩ => show win0_5.index t (1 : Fin 2) * 256 ≤ (i 1).val ∧ (i 1).val < win0_5.index t (1 : Fin 2) * 256 + 256; rw [e51, ht]; omega

include he h6 h7 in
/-- After the last point the losses' array holds every row's loss. -/
theorem final4 : (dats m 0 c).arrAt 4 cfg0.N = lossArr e fam :=
  (dats m 0 c).arrAt_eq_of_cover 4 (lossArr e fam) (fun t _ => flushed4_eq m c e fam he h6 h7 t) cover4

include he h6 h7 in
/-- After the last point the weights' array holds every row's weight. -/
theorem final5 : (dats m 0 c).arrAt 5 cfg0.N = weightArr fam :=
  (dats m 0 c).arrAt_eq_of_cover 5 (weightArr fam) (fun t _ => flushed5_eq m c e fam he h6 h7 t) cover5

end

/-- Lane `n` of the losses' array after the region is the loss of row `n`. -/
theorem arr4 (m : (ℓ : Loc nD τ sig) → Buf (Elt Ideal) ℓ) (c : Dev nD) (e : Fin 8192 → Fin 64 → EReal) (fam : Fin 8192 → BitVec 32)
    (he : ∀ (i : Fin 8192) (k : Fin 64), V m c main_v5 (ix2 i k) = e i k) (h6 : ∀ i : Fin 8192, V m c main_v6 (ix2 i 0) = fam i)
    (h7 : ∀ j : Fin 8192, V m c main_v7 (ix2 0 j) = fam j)
    (n : Fin 8192) : (dats m 0 c).arrAt 4 cfg0.N (ix2 0 n) = Cert.Spec.lossS e fam n :=
  congrFun (final4 m c e fam he h6 h7) (ix2 0 n)

/-- Lane `n` of the weights' array after the region is the weight of row `n`. -/
theorem arr5 (m : (ℓ : Loc nD τ sig) → Buf (Elt Ideal) ℓ) (c : Dev nD) (e : Fin 8192 → Fin 64 → EReal) (fam : Fin 8192 → BitVec 32)
    (he : ∀ (i : Fin 8192) (k : Fin 64), V m c main_v5 (ix2 i k) = e i k) (h6 : ∀ i : Fin 8192, V m c main_v6 (ix2 i 0) = fam i)
    (h7 : ∀ j : Fin 8192, V m c main_v7 (ix2 0 j) = fam j)
    (n : Fin 8192) : (dats m 0 c).arrAt 5 cfg0.N (ix2 0 n) = Cert.Spec.weight fam n :=
  congrFun (final5 m c e fam he h6 h7) (ix2 0 n)

end Cert.KernelIdeal.Hand

end
-- ==== Proof.KResult.lean ====
/-
  The kernel program's result: the seven host operations after the region, read at the one index of the result.

  The region leaves the rows' losses and the rows' weights in two 1 x 8192 arrays. The program sums each over both axes,
  starting from the zero word, clamps the second sum below at one, and divides the first by it. A sum over every index
  of a 1 x 8192 array is the sum over its 8192 columns, so the result is the specification's last step applied to the two
  sums over the rows.
-/
import proofs.«142051_j14310831030886_2_alg».proof.Proof.KDefs
import proofs.«142051_j14310831030886_2_alg».proof.Proof.SpecFinish
import Idealize.ShloMosaic.Lib.StableHlo.Run
import Idealize.ShloMosaic.Lib.Pipeline.FrameSuffix
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- A sum of a 1 x 8192 array over both its axes, started from the zero word, is the zero word plus the sum of its
    8192 columns. -/
theorem total_row (x : FVec Ideal S1x8192 .f32) (g : Fin 8192 → EReal) (hx : ∀ n, x (ix2 (0 : Fin 1) n) = g n) :
    Host.reduceAdd x (constant (F := Ideal) S_ .f32 0x00000000#32) reducesTo_S1x8192_S_d0_1 h_S_ ix0
      = Ideal.ofBits .f32 0x00000000#32 + ∑ i : Fin 8192, g i := by
  refine (Ideal.hostReduceAdd_total reducesTo_S1x8192_S_d0_1 (fun b => b.elim0) x _ ix0).trans ?_
  rw [sum_idx2, Fin.sum_univ_one]
  exact congrArg _ (Finset.sum_congr rfl fun i _ => hx i)

/-- The seven operations after the region, over any contents W of the buffers: when the two arrays the region leaves
    read loss and weightF along their columns, the result buffer holds the last step of the specification. -/
theorem tail_value (W : Valuation τ sig (Elt Ideal)) (loss weightF : Fin 8192 → EReal)
    (h4 : ∀ n : Fin 8192, (W (Proc.devRef .tc main_v8_0) : S1x8192.Idx → EReal) (ix2 (0 : Fin 1) n) = loss n)
    (h5 : ∀ n : Fin 8192, (W (Proc.devRef .tc main_v8_1) : S1x8192.Idx → EReal) (ix2 (0 : Fin 1) n) = weightF n) :
    (StableHlo.after hostOps1 W (Proc.devRef .tc main_v12) : S_.Idx → EReal)
      = fun _ => Cert.Spec.finish (Ideal.ofBits .f32 0x00000000#32 + ∑ i : Fin 8192, loss i)
          (Ideal.ofBits .f32 0x00000000#32 + ∑ i : Fin 8192, weightF i) := by
  after_results
  funext j
  rw [eq_ix0 j, hostDivf_apply, maximumf_apply, total_row _ loss h4, total_row _ weightF h5]
  rfl

/-- THE KERNEL PROGRAM'S RESULT, from what the region leaves in its two output arrays. -/
theorem result_value (m : (ℓ : Loc nD τ sig) → Buf (Elt Ideal) ℓ) (c : Dev nD) (loss weightF : Fin 8192 → EReal)
    (hw0 : Pipeline.withArrays spec0 c (V0 m c) (fun w => (dats m 0 c).arrAt w cfg0.N) (Proc.devRef .tc main_v8_0)
      = (dats m 0 c).arrAt 4 cfg0.N)
    (hw1 : Pipeline.withArrays spec0 c (V0 m c) (fun w => (dats m 0 c).arrAt w cfg0.N) (Proc.devRef .tc main_v8_1)
      = (dats m 0 c).arrAt 5 cfg0.N)
    (h4 : ∀ n : Fin 8192, ((dats m 0 c).arrAt 4 cfg0.N : S1x8192.Idx → EReal) (ix2 (0 : Fin 1) n) = loss n)
    (h5 : ∀ n : Fin 8192, ((dats m 0 c).arrAt 5 cfg0.N : S1x8192.Idx → EReal) (ix2 (0 : Fin 1) n) = weightF n) :
    (Pipeline.afterTail₀ cfgs (dats m) 0 (V0 m) [hostOps1] c main_v12 : S_.Idx → EReal)
      = fun _ => Cert.Spec.finish (Ideal.ofBits .f32 0x00000000#32 + ∑ i : Fin 8192, loss i)
          (Ideal.ofBits .f32 0x00000000#32 + ∑ i : Fin 8192, weightF i) := by
  unfold Pipeline.afterTail₀
  simp only [List.flatten_cons, List.flatten_nil, List.append_nil]
  refine tail_value _ loss weightF (fun n => ?_) (fun n => ?_)
  · exact (congrFun hw0 (ix2 (0 : Fin 1) n)).trans (h4 n)
  · exact (congrFun hw1 (ix2 (0 : Fin 1) n)).trans (h5 n)

end Cert.KernelIdeal.Hand

end
-- ==== Proof.KValueRun.lean ====
/-
  The kernel program's run, read at its result and at its two arguments.

  The program normalizes the rows of its embedding argument, looks its labels up in the family table, runs the region
  — each block of 256 rows stores its rows' losses and weights — and finishes with the two sums, the clamp and the
  quotient. Its result buffer therefore holds the specification's result of the rows' losses, taken over the normalized
  embeddings and the family words of the labels; and no operation writes either argument buffer, so both end as launched.
-/
import proofs.«142051_j14310831030886_2_alg».proof.Proof.KTail
import proofs.«142051_j14310831030886_2_alg».proof.Proof.KRun
import proofs.«142051_j14310831030886_2_alg».proof.Proof.KPrefix
import proofs.«142051_j14310831030886_2_alg».proof.Proof.KValue
import proofs.«142051_j14310831030886_2_alg».proof.Proof.KResult

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- The embedding argument read by coordinates. -/
def xOfK (x : FVec Ideal S8192x64 .f32) : Fin 8192 → Fin 64 → EReal := fun i k => x (ValueIdx.ix2 i k)

/-- The family word of each sample, from the label argument. -/
def famOfK (lab : IVec S8192 32) : Fin 8192 → BitVec 32 := fun i => famK lab (ValueIdx.ix1 i)

section Args

variable {F : FTy → Type} [FloatOps F]
variable (m : (ℓ : Loc nD τ sig) → Buf (Elt F) ℓ)

/-- The embedding argument ends as launched: no operation before the region writes it, it is no array of the region, and
    none of the seven operations after the region writes it. -/
theorem exit_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem _ _ (tail_keeps main_arg0 (by decide))]
  rw [Pipeline.withArrays_of_ne _ c (V0 m c) _ main_arg0 (by decide)]
  exact V_arg0 m c

/-- The label argument ends as launched, for the same three reasons. -/
theorem exit_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem _ _ (tail_keeps main_arg1 (by decide))]
  rw [Pipeline.withArrays_of_ne _ c (V0 m c) _ main_arg1 (by decide)]
  exact V_arg1 m c

end Args

/-- The result buffer after the whole program, on core `c`: the specification's result of the rows' losses over the
    normalized embeddings and the labels' family words. -/
theorem exit_result (m : (ℓ : Loc nD τ sig) → Buf (Elt Ideal) ℓ) (c : Dev nD) :
    (Pipeline.afterTail₀ cfgs (dats m) 0 (V0 m) [hostOps1] c main_v12 : S_.Idx → EReal)
      = fun _ => Cert.Spec.result
          (Cert.Spec.lossS (Cert.Spec.normalize (xOfK (m ((c : Thread nD τ).loc main_arg0)))) (famOfK (m ((c : Thread nD τ).loc main_arg1))))
          (famOfK (m ((c : Thread nD τ).loc main_arg1))) := by
  have he : ∀ (i : Fin 8192) (k : Fin 64),
      V m c main_v5 (ix2 i k) = Cert.Spec.normalize (xOfK (m ((c : Thread nD τ).loc main_arg0))) i k := fun i k =>
    (congrFun (V_v5 m c) (ix2 i k)).trans (enK_apply _ i k)
  have h6 : ∀ i : Fin 8192, V m c main_v6 (ix2 i 0) = famOfK (m ((c : Thread nD τ).loc main_arg1)) i := fun i => V_v6_apply m c i
  have h7 : ∀ j : Fin 8192, V m c main_v7 (ix2 0 j) = famOfK (m ((c : Thread nD τ).loc main_arg1)) j := fun j => V_v7_apply m c j
  unfold Cert.Spec.result
  exact result_value m c _ _ (Wx_out0 m c) (Wx_out1 m c)
    (fun n => arr4 m c _ _ he h6 h7 n) (fun n => arr5 m c _ _ he h6 h7 n)

/-- THE KERNEL PROGRAM'S RUN: it terminates with the result buffer at the specification's result and both arguments as
    launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = (fun _ => Cert.Spec.result
              (Cert.Spec.lossS (Cert.Spec.normalize (xOfK (m ((c.tc : Thread nD τ).loc main_arg0))))
                (famOfK (m ((c.tc : Thread nD τ).loc main_arg1))))
              (famOfK (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r h c =>
    ⟨((h c).2 main_v12 (Pipeline.mem_restRefs_of main_v12 (by decide) (by decide))).trans (exit_result m c),
     ((h c).2 main_arg0 (Pipeline.mem_restRefs_of main_arg0 (by decide) (by decide))).trans (exit_arg0 m c),
     ((h c).2 main_arg1 (Pipeline.mem_restRefs_of main_arg1 (by decide) (by decide))).trans (exit_arg1 m c)⟩)
    (run_main m ρ)

end Cert.KernelIdeal.Hand

end
-- ==== Proof.RefPrefix.lean ====
/-
  The first stretch of the reference program, as two functions of its arguments.

  The family words: the label array is looked up in the six-entry table 0, 1, 2, 1, 3, 3 — a negative label first moved
  up by six, the table read at the label clamped into the table, and the result replaced by the smallest word where the
  label was outside the table. This is one function `famR` of the label array, and nothing later needs to look inside it.

  The normalized embeddings: each row of the 8192 x 64 array is divided by the larger of the row's Euclidean norm (the
  square root of the sum of its squares, the sum started from the zero word) and the constant with word 0x2B8CBCCC.
  This is one function `enR` of the embedding array; read at row i and coordinate k it is the row normalization of
  the specification.

  The run's fold at the two buffers that hold these values is these two functions of the launch contents of the
  argument buffers.
-/
import proofs.«142051_j14310831030886_2_alg».proof.Proof.RefRun
import proofs.«142051_j14310831030886_2_alg».proof.Proof.Normalize
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.RefPrefix

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

/-- The family words as a function of the label array: the table constant and the lookup's twenty-two operations
    composed. With `idx` the label moved up by six where negative, as a column: the result is the table gathered at
    `idx` where `0 ≤ idx ≤ 5`, and the word 0x80000000 elsewhere. -/
def famR (lab : IVec S8192 32) : IVec S8192 32 :=
  let idx : IVec S8192x1 32 :=
    broadcastInDim S8192x1 ![0] bcast_S8192_S8192x1_0
      (select (cmpi .slt lab (broadcastInDim S8192 ![] bcast_S_S8192 (constantI S_ 32 0#32)))
        (addi lab (broadcastInDim S8192 ![] bcast_S_S8192 (constantI S_ 32 6#32))) lab)
  select
    (Host.reduce IntOp.andi
      (andi (cmpi .sge idx (broadcastInDim S8192x1 ![] bcast_S_S8192x1 (constantI S_ 32 0#32)))
        (cmpi .sle idx (broadcastInDim S8192x1 ![0, 1] bcast_S1x1_S8192x1_0_1
          (broadcastInDim S1x1 ![1] bcast_S1_S1x1_1 (constantI S1 32 5#32)))))
      (constantI S_ 1 1#1) reducesTo_S8192x1_S8192_d1 h_S_)
    (Host.gather gather_S6_S8192x1_S8192_n_0_n_n_0_1_1 (fun i => lit0 (S6.rowMajor i)) idx)
    (broadcastInDim S8192 ![] bcast_S_S8192 (constantI S_ 32 2147483648#32))

/-- The normalized embeddings as a function of the embedding array: the row norm's five operations and the five that
    follow composed — the array divided, row by row, by the larger of the row's norm and the small constant. -/
def enR (x : FVec Ideal S8192x64 .f32) : FVec Ideal S8192x64 .f32 :=
  Host.divf x
    (broadcastInDim S8192x64 ![0, 1] bcast_S8192x1_S8192x64_0_1
      (maximumf
        (Host.sqrt
          (broadcastInDim S8192x1 ![0] bcast_S8192_S8192x1_0
            (Host.reduceAdd (mulf x x) (constant (F := Ideal) S_ .f32 0x00000000#32) reducesTo_S8192x64_S8192_d1 h_S_)))
        (broadcastInDim S8192x1 ![] bcast_S_S8192x1 (constant (F := Ideal) S_ .f32 0x2B8CBCCC#32))))

-- the reduction and the gather are kept folded while the two sides are compared: their bodies walk the operand's
-- elements, and the comparison never needs to look inside them
attribute [local irreducible] Host.reduce Host.gather in
/-- After the run the family buffer holds `famR` of the labels the run started from. -/
theorem v0_eq (V : Valuation τ sig (Elt Ideal)) :
    after ops V (main_v0 : DevRef τ sig) = famR (V (main_arg1 : DevRef τ sig)) := by
  after_results_simp
  rfl

/-- After the run the normalized-embedding buffer holds `enR` of the embeddings the run started from. -/
theorem v5_eq (V : Valuation τ sig (Elt Ideal)) :
    after ops V (main_v5 : DevRef τ sig) = enR (V (main_arg0 : DevRef τ sig)) := by
  after_results_simp
  rfl

/-- The sum along the 64 coordinates keeps the row: the kept index with coordinate k put back is (i, k). -/
theorem lift_row (h : S8192x64.Reduces [1] S8192) (i : Fin 8192) (k : Fin 64) :
    h.lift (ix1 i) k = ix2 i k := by
  funext a
  match a with
  | ⟨0, _⟩ => exact Fin.ext rfl
  | ⟨1, _⟩ => exact Fin.ext rfl

/-- `enR` at row i and coordinate k is the specification's row normalization of the array read by coordinates. -/
theorem enR_apply (x : FVec Ideal S8192x64 .f32) (i : Fin 8192) (k : Fin 64) :
    enR x (ix2 i k) = Cert.Spec.normalize (fun i k => x (ix2 i k)) i k := by
  have hred : S8192x64.Reduces [1] S8192 := by decide
  -- the denominator column is read at (i, 0)
  have hcol : ∀ D : FVec Ideal S8192x1 .f32,
      broadcastInDim S8192x64 ![0, 1] bcast_S8192x1_S8192x64_0_1 D (ix2 i k) = D (ix2 i (0 : Fin 1)) := fun D =>
    broadcastInDim_apply ![0, 1] bcast_S8192x1_S8192x64_0_1 D (ix2 i k) (ix2 i (0 : Fin 1))
      (fun a => by match a with | ⟨0, _⟩ => rfl | ⟨1, _⟩ => rfl)
  -- the row sums, as a column, are read at row i
  have hrow : ∀ R : FVec Ideal S8192 .f32,
      broadcastInDim S8192x1 ![0] bcast_S8192_S8192x1_0 R (ix2 i (0 : Fin 1)) = R (ix1 i) := fun R =>
    broadcastInDim_apply ![0] bcast_S8192_S8192x1_0 R (ix2 i (0 : Fin 1)) (ix1 i)
      (fun a => by match a with | ⟨0, _⟩ => rfl)
  -- the small constant, broadcast, is itself everywhere
  have heps : broadcastInDim S8192x1 ![] bcast_S_S8192x1 (constant (F := Ideal) S_ .f32 0x2B8CBCCC#32) (ix2 i (0 : Fin 1))
      = Ideal.ofBits .f32 0x2B8CBCCC#32 :=
    broadcastInDim_scalar_apply bcast_S_S8192x1 _ _
  -- the row's sum of squares
  have hsum : Host.reduceAdd (mulf x x) (constant (F := Ideal) S_ .f32 0x00000000#32) reducesTo_S8192x64_S8192_d1 h_S_ (ix1 i)
      = Ideal.ofBits .f32 0x00000000#32 + ∑ k' : Fin 64, x (ix2 i k') * x (ix2 i k') := by
    rw [hostReduceAdd_apply]
    refine (Ideal.hostReduceAdd_single reducesTo_S8192x64_S8192_d1 hred (mulf x x) _ (ix1 i)).trans ?_
    refine congrArg₂ (· + ·) rfl (Finset.sum_congr rfl fun k' _ => ?_)
    rw [lift_row hred i k', mulf_apply]
  unfold enR Cert.Spec.normalize
  rw [hostDivf_apply, hcol, maximumf_apply, heps]
  refine congrArg (fun d => Ideal.div (x (ix2 i k)) (max d (Ideal.ofBits .f32 0x2B8CBCCC#32))) ?_
  show Ideal.sqrt _ = Ideal.sqrt _
  rw [hrow, hsum]

end Cert.ReferenceIdeal.RefPrefix

end
-- ==== Proof.RefReadA.lean ====
/-
  The reference's computation after its two inputs are known, written stage by stage as pure functions.

  The inputs are the row-normalized embeddings `en` (8192 rows of 64 coordinates) and the family words `fam`
  (one per row). Every later value of the reference is a function of these two alone. Each definition below is
  one value of the reference, spelt with the same operation and the same shape evidence the program uses, so
  that the composite `tailR` is, term for term, what the program's run leaves in its result.

  The stages: the Gram matrix of the rows (`st7`) and the distances `1 - sim` (`st9`); the matrix "same family,
  different sample" (`st21`) and the matrix "different family" (`st26`); the distances with the entries that are
  no positive pair filled with `-10^9` (`st27`) and their row maxima (`st28`); the distances with the entries
  that are no negative pair filled with `10^9` (`st29`) and their row minima (`st30`); whether a row has a pair
  of each kind (`st31`, `st32`, `st33`); the hinge of the margin (`st34` … `st37`), kept on rows that count
  (`st38`); the count of such rows (`st39`, `st40`), the total loss (`st41`), and their quotient with the count
  clamped below at one (`st42`, `tailR`).
-/
import proofs.«142051_j14310831030886_2_alg».proof.ReferenceIdeal
import proofs.«142051_j14310831030886_2_alg».proof.Proof.Gen.ReferenceIdeal
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.Spec Idealize.ShloMosaic ValueIdx
open Cert.ReferenceIdeal.Facts₀

/-- The embeddings transposed: coordinate by row. -/
def st6 (en : FVec Ideal S8192x64 .f32) : FVec Ideal S64x8192 .f32 :=
  transpose S64x8192 [1, 0] en transposes_S8192x64_S64x8192_1_0

/-- The Gram matrix: entry `(i, j)` is the inner product of rows `i` and `j`. -/
def st7 (en : FVec Ideal S8192x64 .f32) : FVec Ideal S8192x8192 .f32 :=
  Host.dotGeneral dot_S8192x64_S64x8192_S8192x8192_1_0_0_1_n_n none en (st6 en)

/-- The matrix of ones. -/
def st8 : FVec Ideal S8192x8192 .f32 :=
  broadcastInDim S8192x8192 ![] bcast_S_S8192x8192 (constant (F := Ideal) S_ .f32 0x3F800000#32)

/-- The distances: one minus the similarity. -/
def st9 (en : FVec Ideal S8192x64 .f32) : FVec Ideal S8192x8192 .f32 := subf st8 (st7 en)

/-- The family words as a column … -/
def st10 (fam : IVec S8192 32) : IVec S8192x1 32 := broadcastInDim S8192x1 ![0] bcast_S8192_S8192x1_0 fam
/-- … and as a row … -/
def st11 (fam : IVec S8192 32) : IVec S1x8192 32 := broadcastInDim S1x8192 ![1] bcast_S8192_S1x8192_1 fam
/-- … the column repeated along every row: entry `(i, j)` is the family of `i` … -/
def st12 (fam : IVec S8192 32) : IVec S8192x8192 32 :=
  broadcastInDim S8192x8192 ![0, 1] bcast_S8192x1_S8192x8192_0_1 (st10 fam)
/-- … and the row repeated down every column: entry `(i, j)` is the family of `j`. -/
def st13 (fam : IVec S8192 32) : IVec S8192x8192 32 :=
  broadcastInDim S8192x8192 ![0, 1] bcast_S1x8192_S8192x8192_0_1 (st11 fam)

/-- Entry `(i, j)`: do `i` and `j` have one family? -/
def st14 (fam : IVec S8192 32) : IVec S8192x8192 1 := cmpi .eq (st12 fam) (st13 fam)

/-- The row number and the column number of each entry, a zero matrix, and the row number plus zero. -/
def st15 : IVec S8192x8192 32 := iotaInDim S8192x8192 32 0
def st16 : IVec S8192x8192 32 := iotaInDim S8192x8192 32 1
def st17 : IVec S8192x8192 32 := broadcastInDim S8192x8192 ![] bcast_S_S8192x8192 (constantI S_ 32 0#32)
def st18 : IVec S8192x8192 32 := addi st15 st17
/-- Entry `(i, j)`: is it on the diagonal? — and its negation. -/
def st19 : IVec S8192x8192 1 := cmpi .eq st18 st16
def st20 : IVec S8192x8192 1 := noti st19

/-- Entry `(i, j)`: a positive pair (one family, off the diagonal). -/
def st21 (fam : IVec S8192 32) : IVec S8192x8192 1 := andi (st14 fam) st20

/-- Entry `(i, j)`: a negative pair (different families). -/
def st26 (fam : IVec S8192 32) : IVec S8192x8192 1 := cmpi .ne (st12 fam) (st13 fam)

/-- The distances on the positive pairs, `-10^9` elsewhere. -/
def st27 (en : FVec Ideal S8192x64 .f32) (fam : IVec S8192 32) : FVec Ideal S8192x8192 .f32 :=
  select (st21 fam) (st9 en)
    (broadcastInDim S8192x8192 ![] bcast_S_S8192x8192 (id (constant (F := Ideal) S_ .f32 0xCE6E6B28#32)))

/-- Each row's largest entry of it, the maximum started from `-∞`. -/
def st28 (en : FVec Ideal S8192x64 .f32) (fam : IVec S8192 32) : FVec Ideal S8192 .f32 :=
  Host.reduce (FloatOps.maximumf (F := Ideal) (φ := .f32)) (st27 en fam) (constant (F := Ideal) S_ .f32 0xFF800000#32)
    reducesTo_S8192x8192_S8192_d1 h_S_

/-- The distances on the negative pairs, `10^9` elsewhere. -/
def st29 (en : FVec Ideal S8192x64 .f32) (fam : IVec S8192 32) : FVec Ideal S8192x8192 .f32 :=
  select (st26 fam) (st9 en)
    (broadcastInDim S8192x8192 ![] bcast_S_S8192x8192 (id (constant (F := Ideal) S_ .f32 0x4E6E6B28#32)))

/-- Each row's smallest entry of it, the minimum started from `+∞`. -/
def st30 (en : FVec Ideal S8192x64 .f32) (fam : IVec S8192 32) : FVec Ideal S8192 .f32 :=
  Host.reduce (FloatOps.minimumf (F := Ideal) (φ := .f32)) (st29 en fam) (constant (F := Ideal) S_ .f32 0x7F800000#32)
    reducesTo_S8192x8192_S8192_d1 h_S_

/-- Does row `i` have a positive pair? a negative pair? both? -/
def st31 (fam : IVec S8192 32) : IVec S8192 1 :=
  Host.reduce IntOp.ori (st21 fam) (constantI S_ 1 0#1) reducesTo_S8192x8192_S8192_d1 h_S_
def st32 (fam : IVec S8192 32) : IVec S8192 1 :=
  Host.reduce IntOp.ori (st26 fam) (constantI S_ 1 0#1) reducesTo_S8192x8192_S8192_d1 h_S_
def st33 (fam : IVec S8192 32) : IVec S8192 1 := andi (st31 fam) (st32 fam)

/-- Hardest positive distance minus hardest negative distance, plus the margin, clamped below at zero. -/
def st34 (en : FVec Ideal S8192x64 .f32) (fam : IVec S8192 32) : FVec Ideal S8192 .f32 := subf (st28 en fam) (st30 en fam)
def st35 : FVec Ideal S8192 .f32 := broadcastInDim S8192 ![] bcast_S_S8192 (constant (F := Ideal) S_ .f32 0x3E99999A#32)
def st36 (en : FVec Ideal S8192x64 .f32) (fam : IVec S8192 32) : FVec Ideal S8192 .f32 := addf (st34 en fam) st35
def st37 (en : FVec Ideal S8192x64 .f32) (fam : IVec S8192 32) : FVec Ideal S8192 .f32 :=
  maximumf (st36 en fam) (broadcastInDim S8192 ![] bcast_S_S8192 (constant (F := Ideal) S_ .f32 0x00000000#32))

/-- The row's loss: the hinge on a row that counts, zero elsewhere. -/
def st38 (en : FVec Ideal S8192x64 .f32) (fam : IVec S8192 32) : FVec Ideal S8192 .f32 :=
  select (st33 fam) (st37 en fam)
    (broadcastInDim S8192 ![] bcast_S_S8192 (id (constant (F := Ideal) S_ .f32 0x00000000#32)))

/-- The row's weight in the count, and the count. -/
def st39 (fam : IVec S8192 32) : FVec Ideal S8192 .f32 := uitofp .f32 (st33 fam)
def st40 (fam : IVec S8192 32) : FVec Ideal S_ .f32 :=
  Host.reduceAdd (st39 fam) (constant (F := Ideal) S_ .f32 0x00000000#32) reducesTo_S8192_S_d0 h_S_

/-- The total loss. -/
def st41 (en : FVec Ideal S8192x64 .f32) (fam : IVec S8192 32) : FVec Ideal S_ .f32 :=
  Host.reduceAdd (st38 en fam) (constant (F := Ideal) S_ .f32 0x00000000#32) reducesTo_S8192_S_d0 h_S_

/-- The count clamped below at one. -/
def st42 (fam : IVec S8192 32) : FVec Ideal S_ .f32 := maximumf (st40 fam) (constant (F := Ideal) S_ .f32 0x3F800000#32)

/-- The reference's result as a function of the normalized embeddings and the family words. -/
def tailR (en : FVec Ideal S8192x64 .f32) (fam : IVec S8192 32) : FVec Ideal S_ .f32 :=
  Host.divf (st41 en fam) (st42 fam)

end Cert.ReferenceIdeal.RefRead

end
-- ==== Proof.RefReadL.lean ====
/-
  Small general facts used when the reference's stages are read at an index.

  A fold of `max` from `-∞` over a finite set is the set's supremum, a fold of `min` from `+∞` its infimum; a fold
  of the one-bit "or" from `0` is `1` exactly when some entry is `1`; the words `0xFF800000` and `0x7F800000` denote
  `-∞` and `+∞`; a sum over the indices of a rank-1 shape is the sum over its one coordinate; a one-bit word read as
  an unsigned number is `1` or `0`.
-/
import proofs.«142051_j14310831030886_2_alg».proof.ReferenceIdeal
import proofs.«142051_j14310831030886_2_alg».proof.Proof.Gen.ReferenceIdeal
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.Spec Idealize.ShloMosaic ValueIdx

/-- The word of `-∞`. -/
theorem ofBits_neg_inf : Ideal.ofBits .f32 0xFF800000#32 = (⊥ : EReal) := by simp [Ideal.ofBits, Ideal.ieee]
/-- The word of `+∞`. -/
theorem ofBits_pos_inf : Ideal.ofBits .f32 0x7F800000#32 = (⊤ : EReal) := by simp [Ideal.ofBits, Ideal.ieee]

/-- A fold of the ideal maximum from `-∞` is the supremum. -/
theorem fold_maximumf_eq_sup {ι : Type} (s : Finset ι) (f : ι → EReal) :
    s.fold (FloatOps.maximumf (F := Ideal) (φ := .f32)) (⊥ : EReal) f = s.sup f := by
  classical
  induction s using Finset.induction_on with
  | empty => rfl
  | insert a s ha ih =>
    rw [Finset.fold_insert ha, Finset.sup_insert, ih]
    rfl

/-- A fold of the ideal minimum from `+∞` is the infimum. -/
theorem fold_minimumf_eq_inf {ι : Type} (s : Finset ι) (f : ι → EReal) :
    s.fold (FloatOps.minimumf (F := Ideal) (φ := .f32)) (⊤ : EReal) f = s.inf f := by
  classical
  induction s using Finset.induction_on with
  | empty => rfl
  | insert a s ha ih =>
    rw [Finset.fold_insert ha, Finset.inf_insert, ih]
    rfl

/-- A fold of the one-bit "or" from `0` is `1` exactly when some entry is `1`. -/
theorem fold_ori_eq_one_iff {ι : Type} (s : Finset ι) (f : ι → BitVec 1) :
    s.fold IntOp.ori 0#1 f = 1#1 ↔ ∃ j ∈ s, f j = 1#1 := by
  classical
  induction s using Finset.induction_on with
  | empty => simp
  | insert a s ha ih =>
    rw [Finset.fold_insert ha]
    have hor : ∀ x y : BitVec 1, IntOp.ori x y = 1#1 ↔ x = 1#1 ∨ y = 1#1 := by decide
    rw [hor, ih]
    constructor
    · rintro (h | ⟨j, hj, h⟩)
      · exact ⟨a, Finset.mem_insert_self _ _, h⟩
      · exact ⟨j, Finset.mem_insert_of_mem hj, h⟩
    · rintro ⟨j, hj, h⟩
      rcases Finset.mem_insert.1 hj with rfl | hj
      · exact Or.inl h
      · exact Or.inr ⟨j, hj, h⟩

/-- A sum over the indices of a rank-1 shape is the sum over its coordinate. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e f).symm

/-- A one-bit word read as an unsigned real number: one for `1`, zero otherwise. -/
theorem uitofp_bit (b : BitVec 1) (p : Prop) [Decidable p] (h : b = 1#1 ↔ p) :
    (FloatOps.uitofp (F := Ideal) .f32 b : EReal) = if p then 1 else 0 := by
  show ((b.toNat : ℝ) : EReal) = _
  rcases BitVec.eq_zero_or_eq_one b with hb | hb
  · have hp : ¬p := fun hp => by have := h.2 hp; rw [hb] at this; exact absurd this (by decide)
    rw [if_neg hp, hb]; simp
  · have hp : p := h.1 hb
    rw [if_pos hp, hb]; simp

end Cert.ReferenceIdeal.RefRead

end
-- ==== Proof.RefReadB.lean ====
/-
  The reference's matrix stages read at an entry `(i, j)`.

  The Gram matrix at `(i, j)` is the inner product of rows `i` and `j`, the sum over the 64 coordinates; the
  distance matrix is one minus it. The family matrices read the family word of the row and of the column, so the
  "positive pair" matrix is `1` exactly at the pairs of different samples of one family (the row and column numbers,
  both below `2^32`, are equal as 32-bit words exactly when they are equal), and the "negative pair" matrix exactly at
  the pairs of different families. The filled matrices are then the distance on such a pair and the fill elsewhere.
-/
import proofs.«142051_j14310831030886_2_alg».proof.ReferenceIdeal
import proofs.«142051_j14310831030886_2_alg».proof.Proof.Gen.ReferenceIdeal
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws
import proofs.«142051_j14310831030886_2_alg».proof.Proof.RefReadA
import proofs.«142051_j14310831030886_2_alg».proof.Proof.RefReadL
import Idealize.ShloMosaic.Lib.Affine

set_option pp.maxSteps 5000
set_option pp.deepTerms false

noncomputable section

namespace Cert.ReferenceIdeal.RefRead

open Cert.ReferenceIdeal Cert.Spec Idealize.ShloMosaic ValueIdx
open Cert.ReferenceIdeal.Facts₀

/-- The transposed embeddings at `(k, j)`: coordinate `k` of row `j`. -/
theorem st6_apply (en : FVec Ideal S8192x64 .f32) (k : Fin 64) (j : Fin 8192) :
    st6 en (ix2 k j) = en (ix2 j k) := by
  unfold st6
  exact transpose_apply [1, 0] en _ (ix2 k j) (ix2 j k) (fun b => match b with | ⟨0, _⟩ => rfl | ⟨1, _⟩ => rfl)

/-- The Gram matrix at `(i, j)`: the similarity of rows `i` and `j`. -/
theorem st7_apply (en : FVec Ideal S8192x64 .f32) (i j : Fin 8192) :
    st7 en (ix2 i j) = sim (fun i k => en (ix2 i k)) i j := by
  unfold st7 sim
  refine (Ideal.dotGeneral_apply dot_S8192x64_S64x8192_S8192x8192_1_0_0_1_n_n none .single en (st6 en) (ix2 i j)).trans ?_
  rw [← Equiv.sum_comp (contrEquiv1 dot_S8192x64_S64x8192_S8192x8192_1_0_0_1_n_n 64 rfl rfl).symm]
  refine Finset.sum_congr rfl fun k _ => ?_
  have hl : dot_S8192x64_S64x8192_S8192x8192_1_0_0_1_n_n.lhsIdx (ix2 i j)
      ((contrEquiv1 dot_S8192x64_S64x8192_S8192x8192_1_0_0_1_n_n 64 rfl rfl).symm k) = ix2 i k := by
    funext a
    refine Fin.ext ?_
    match a with
    | ⟨0, _⟩ => rfl
    | ⟨1, _⟩ =>
      exact (DotDims.lhsIdx_val_of_single _ (cl := (1 : Fin 2)) rfl _ _).trans
        (contrEquiv1_symm_val dot_S8192x64_S64x8192_S8192x8192_1_0_0_1_n_n 64 rfl rfl k)
  have hr : dot_S8192x64_S64x8192_S8192x8192_1_0_0_1_n_n.rhsIdx (ix2 i j)
      ((contrEquiv1 dot_S8192x64_S64x8192_S8192x8192_1_0_0_1_n_n 64 rfl rfl).symm k) = ix2 k j := by
    funext a
    refine Fin.ext ?_
    match a with
    | ⟨0, _⟩ =>
      exact (DotDims.rhsIdx_val_of_single _ (cr := (0 : Fin 2)) rfl _ _).trans
        (contrEquiv1_symm_val dot_S8192x64_S64x8192_S8192x8192_1_0_0_1_n_n 64 rfl rfl k)
    | ⟨1, _⟩ => rfl
  rw [hl, hr, st6_apply]

/-- The distance matrix at `(i, j)`: one minus the similarity. -/
theorem st9_apply (en : FVec Ideal S8192x64 .f32) (i j : Fin 8192) :
    st9 en (ix2 i j) = one - sim (fun i k => en (ix2 i k)) i j := by
  unfold st9
  rw [subf_apply, st7_apply]
  rfl

/-- The family of the row, at every entry of the row. -/
theorem st12_apply (fam : IVec S8192 32) (i j : Fin 8192) : st12 fam (ix2 i j) = fam (ix1 i) := by
  unfold st12
  refine (broadcastInDim_apply _ _ (st10 fam) (ix2 i j) (ix2 i (0 : Fin 1))
    (fun a => match a with | ⟨0, _⟩ => rfl | ⟨1, _⟩ => rfl)).trans ?_
  unfold st10
  exact broadcastInDim_apply _ _ fam (ix2 i (0 : Fin 1)) (ix1 i) (fun a => match a with | ⟨0, _⟩ => rfl)

/-- The family of the column, at every entry of the column. -/
theorem st13_apply (fam : IVec S8192 32) (i j : Fin 8192) : st13 fam (ix2 i j) = fam (ix1 j) := by
  unfold st13
  refine (broadcastInDim_apply _ _ (st11 fam) (ix2 i j) (ix2 (0 : Fin 1) j)
    (fun a => match a with | ⟨0, _⟩ => rfl | ⟨1, _⟩ => rfl)).trans ?_
  unfold st11
  exact broadcastInDim_apply _ _ fam (ix2 (0 : Fin 1) j) (ix1 j) (fun a => match a with | ⟨0, _⟩ => rfl)

/-- Row and column numbers below `2^32` are equal as 32-bit words exactly when they are equal. -/
theorem ofNat_eq_iff (i j : Fin 8192) : BitVec.ofNat 32 i.val = BitVec.ofNat 32 j.val ↔ i = j := by
  constructor
  · intro h
    have := congrArg BitVec.toNat h
    simp only [BitVec.toNat_ofNat] at this
    exact Fin.ext (by omega)
  · rintro rfl; rfl

/-- The off-diagonal matrix at `(i, j)`. -/
theorem st20_apply (i j : Fin 8192) : st20 (ix2 i j) = 1#1 ↔ i ≠ j := by
  have hnot : ∀ c : BitVec 1, ~~~c = 1#1 ↔ ¬c = 1#1 := by decide
  show ~~~(IntOp.cmpi .eq (IntOp.addi (BitVec.ofNat 32 i.val) 0#32) (BitVec.ofNat 32 j.val)) = 1#1 ↔ _
  rw [hnot, IntOp.cmpi_eq, show IntOp.addi (BitVec.ofNat 32 i.val) 0#32 = BitVec.ofNat 32 i.val from BitVec.add_zero _,
    ofNat_eq_iff]

/-- The positive-pair matrix at `(i, j)`. -/
theorem st21_apply (fam : IVec S8192 32) (i j : Fin 8192) :
    st21 fam (ix2 i j) = 1#1 ↔ same (fun i => fam (ix1 i)) i j := by
  show IntOp.andi (IntOp.cmpi .eq (st12 fam (ix2 i j)) (st13 fam (ix2 i j))) (st20 (ix2 i j)) = 1#1 ↔ _
  rw [IntOp.andi_eq_one, IntOp.cmpi_eq, st12_apply, st13_apply, st20_apply]
  rfl

/-- The negative-pair matrix at `(i, j)`. -/
theorem st26_apply (fam : IVec S8192 32) (i j : Fin 8192) :
    st26 fam (ix2 i j) = 1#1 ↔ diff (fun i => fam (ix1 i)) i j := by
  show IntOp.cmpi .ne (st12 fam (ix2 i j)) (st13 fam (ix2 i j)) = 1#1 ↔ _
  rw [IntOp.cmpi_ne, st12_apply, st13_apply]
  rfl

/-- A select on a decided bit is the `if` on what the bit decides. -/
theorem select_of_iff {α : Type} (c : BitVec 1) (p : Prop) [Decidable p] (h : c = 1#1 ↔ p) (a b : α) :
    Scalar.select c a b = if p then a else b := by
  by_cases hp : p
  · rw [if_pos hp, h.2 hp, select_one]
  · rw [if_neg hp, eq_zero_of_ne_one (fun hc => hp (h.1 hc)), select_zero]

/-- The distances kept on the positive pairs, the fill `-10^9` elsewhere. -/
theorem st27_apply (en : FVec Ideal S8192x64 .f32) (fam : IVec S8192 32) (i j : Fin 8192) :
    st27 en fam (ix2 i j)
      = if same (fun i => fam (ix1 i)) i j then one - sim (fun i k => en (ix2 i k)) i j else nbig := by
  unfold st27
  rw [select_apply, select_of_iff _ _ (st21_apply fam i j), st9_apply]
  rfl

/-- The distances kept on the negative pairs, the fill `10^9` elsewhere. -/
theorem st29_apply (en : FVec Ideal S8192x64 .f32) (fam : IVec S8192 32) (i j : Fin 8192) :
    st29 en fam (ix2 i j)
      = if diff (fun i => fam (ix1 i)) i j then one - sim (fun i k => en (ix2 i k)) i j else big := by
  unfold st29
  rw [select_apply, select_of_iff _ _ (st26_apply fam i j), st9_apply]
  rfl

end Cert.ReferenceIdeal.RefRead

end
-- ==== Proof.RefReadC.lean ====
/-
  The reference's row stages read at a row `i`.

  A reduction of a matrix along its second axis by a commutative associative operation is, at row `i`, the fold of
  that operation over the 8192 entries of the row, started from the initial value. For the maximum from `-∞` that is
  the supremum of the row, for the minimum from `+∞` the infimum, and for the one-bit "or" from `0` it says whether
  some entry of the row is `1`. Read this way the reference's row maximum of the filled distances is the hardest
  positive distance, its row minimum the hardest negative distance, and its two "or" rows say whether the row has a
  positive pair and a negative pair.
-/
import proofs.«142051_j14310831030886_2_alg».proof.ReferenceIdeal
import proofs.«142051_j14310831030886_2_alg».proof.Proof.Gen.ReferenceIdeal
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws
import proofs.«142051_j14310831030886_2_alg».proof.Proof.RefReadA
import proofs.«142051_j14310831030886_2_alg».proof.Proof.RefReadL
import proofs.«142051_j14310831030886_2_alg».proof.Proof.RefReadB
import Idealize.ShloMosaic.Lib.Affine

set_option pp.maxSteps 5000
set_option pp.deepTerms false

noncomputable section

namespace Cert.ReferenceIdeal.RefRead

open Cert.ReferenceIdeal Cert.Spec Idealize.ShloMosaic ValueIdx
open Cert.ReferenceIdeal.Facts₀

/-- A reduction along the second axis, at row `i`: the fold over the row's entries from the initial value. -/
theorem rowFold {α : Type} (f : α → α → α) [Std.Commutative f] [Std.Associative f] (x : S8192x8192.Idx → α)
    (init : S_.Idx → α) (h' : S8192x8192.ReducesTo [1] S8192) (hu : 0 < S_.numel) (i : Fin 8192) :
    Host.reduce f x init h' hu (ix1 i)
      = (Finset.univ : Finset (Fin 8192)).fold f (init ix0) (fun j => x (ix2 i j)) := by
  have h : S8192x8192.Reduces [1] S8192 := by decide
  refine (Host.reduce_eq_fold_single f x init h' h hu (ix1 i)).trans ?_
  have e1 : Shape.Idx.first hu = ix0 := eq_ix0 _
  have e2 : (x ∘ h.lift (ix1 i)) = fun j : Fin 8192 => x (ix2 i j) := by
    funext j
    refine congrArg x (funext fun a => Fin.ext ?_)
    match a with
    | ⟨0, _⟩ => rfl
    | ⟨1, _⟩ => rfl
  rw [e1, e2]
  rfl

/-- The row maximum of the filled distances is the hardest positive distance. -/
theorem st28_apply (en : FVec Ideal S8192x64 .f32) (fam : IVec S8192 32) (i : Fin 8192) :
    st28 en fam (ix1 i) = dposD (fun i k => en (ix2 i k)) (fun i => fam (ix1 i)) i := by
  unfold st28 dposD
  rw [rowFold, constant_apply, ofBits_neg_inf, fold_maximumf_eq_sup]
  exact congrArg _ (funext fun j => st27_apply en fam i j)

/-- The row minimum of the filled distances is the hardest negative distance. -/
theorem st30_apply (en : FVec Ideal S8192x64 .f32) (fam : IVec S8192 32) (i : Fin 8192) :
    st30 en fam (ix1 i) = dnegD (fun i k => en (ix2 i k)) (fun i => fam (ix1 i)) i := by
  unfold st30 dnegD
  rw [rowFold, constant_apply, ofBits_pos_inf, fold_minimumf_eq_inf]
  exact congrArg _ (funext fun j => st29_apply en fam i j)

/-- Row `i` has a positive pair. -/
theorem st31_apply (fam : IVec S8192 32) (i : Fin 8192) :
    st31 fam (ix1 i) = 1#1 ↔ ∃ j, same (fun i => fam (ix1 i)) i j := by
  unfold st31
  rw [rowFold]
  show Finset.fold IntOp.ori 0#1 _ _ = 1#1 ↔ _
  rw [fold_ori_eq_one_iff]
  exact ⟨fun ⟨j, _, h⟩ => ⟨j, (st21_apply fam i j).1 h⟩, fun ⟨j, h⟩ => ⟨j, Finset.mem_univ _, (st21_apply fam i j).2 h⟩⟩

/-- Row `i` has a negative pair. -/
theorem st32_apply (fam : IVec S8192 32) (i : Fin 8192) :
    st32 fam (ix1 i) = 1#1 ↔ ∃ j, diff (fun i => fam (ix1 i)) i j := by
  unfold st32
  rw [rowFold]
  show Finset.fold IntOp.ori 0#1 _ _ = 1#1 ↔ _
  rw [fold_ori_eq_one_iff]
  exact ⟨fun ⟨j, _, h⟩ => ⟨j, (st26_apply fam i j).1 h⟩, fun ⟨j, h⟩ => ⟨j, Finset.mem_univ _, (st26_apply fam i j).2 h⟩⟩

/-- Row `i` counts. -/
theorem st33_apply (fam : IVec S8192 32) (i : Fin 8192) :
    st33 fam (ix1 i) = 1#1 ↔ valid (fun i => fam (ix1 i)) i := by
  show IntOp.andi (st31 fam (ix1 i)) (st32 fam (ix1 i)) = 1#1 ↔ _
  rw [IntOp.andi_eq_one, st31_apply, st32_apply]
  rfl

end Cert.ReferenceIdeal.RefRead

end
-- ==== Proof.RefRead.lean ====
/-
  The reference's result as the mean hinge loss over the rows that count.

  Row by row: the hinge `max (d_pos - d_neg + margin) 0` of the hardest positive and hardest negative distances,
  kept on the rows that have a pair of each kind and zero elsewhere, is the row's loss; the one-bit "counts" word read
  as a number is the row's weight. The two sums over the 8192 rows, each started from the zero word, are the total loss
  and the count, and the result is their quotient with the count clamped below at one.
-/
import proofs.«142051_j14310831030886_2_alg».proof.ReferenceIdeal
import proofs.«142051_j14310831030886_2_alg».proof.Proof.Gen.ReferenceIdeal
import proofs.«142051_j14310831030886_2_alg».proof.Proof.SpecFinish
import Idealize.ShloMosaic.Lib.ValueIdx
import Idealize.ShloMosaic.Lib.Pipeline.Value
import Idealize.ShloMosaic.Lib.ValueLayout
import Idealize.ShloMosaic.PureOps.Ideal.Laws
import proofs.«142051_j14310831030886_2_alg».proof.Proof.RefReadA
import proofs.«142051_j14310831030886_2_alg».proof.Proof.RefReadL
import proofs.«142051_j14310831030886_2_alg».proof.Proof.RefReadB
import proofs.«142051_j14310831030886_2_alg».proof.Proof.RefReadC
import Idealize.ShloMosaic.Lib.Affine

set_option pp.maxSteps 5000
set_option pp.deepTerms false

noncomputable section

namespace Cert.ReferenceIdeal.RefRead

open Cert.ReferenceIdeal Cert.Spec Idealize.ShloMosaic ValueIdx
open Cert.ReferenceIdeal.Facts₀

/-- The hinge of row `i`. -/
theorem st37_apply (en : FVec Ideal S8192x64 .f32) (fam : IVec S8192 32) (i : Fin 8192) :
    st37 en fam (ix1 i)
      = max (dposD (fun i k => en (ix2 i k)) (fun i => fam (ix1 i)) i
          - dnegD (fun i k => en (ix2 i k)) (fun i => fam (ix1 i)) i + margin) 0 := by
  unfold st37
  rw [maximumf_apply]
  show max (st36 en fam (ix1 i)) (Ideal.ofBits .f32 0x00000000#32) = _
  rw [Ideal.ofBits_zero_f32]
  unfold st36 st34
  rw [addf_apply, subf_apply, st28_apply, st30_apply]
  rfl

/-- The loss of row `i`. -/
theorem st38_apply (en : FVec Ideal S8192x64 .f32) (fam : IVec S8192 32) (i : Fin 8192) :
    st38 en fam (ix1 i) = lossD (fun i k => en (ix2 i k)) (fun i => fam (ix1 i)) i := by
  unfold st38 lossD
  rw [select_apply, select_of_iff _ _ (st33_apply fam i), st37_apply]
  show (if _ then _ else Ideal.ofBits .f32 0x00000000#32) = _
  rw [Ideal.ofBits_zero_f32]

/-- The weight of row `i`. -/
theorem st39_apply (fam : IVec S8192 32) (i : Fin 8192) :
    st39 fam (ix1 i) = weight (fun i => fam (ix1 i)) i := by
  unfold weight
  exact uitofp_bit _ _ (st33_apply fam i)

/-- A sum of a vector over all its 8192 entries, started from the zero word. -/
theorem total (x : FVec Ideal S8192 .f32) (g : Fin 8192 → EReal) (hx : ∀ i, x (ix1 i) = g i) :
    Host.reduceAdd x (constant (F := Ideal) S_ .f32 0x00000000#32) reducesTo_S8192_S_d0 h_S_ ix0
      = Ideal.ofBits .f32 0x00000000#32 + ∑ i : Fin 8192, g i := by
  refine (Ideal.hostReduceAdd_total reducesTo_S8192_S_d0 (fun b => b.elim0) x _ ix0).trans ?_
  rw [sum_idx1]
  exact congrArg _ (Finset.sum_congr rfl fun i _ => hx i)

/-- The total loss. -/
theorem st41_apply (en : FVec Ideal S8192x64 .f32) (fam : IVec S8192 32) :
    st41 en fam ix0
      = Ideal.ofBits .f32 0x00000000#32
        + ∑ i : Fin 8192, lossD (fun i k => en (ix2 i k)) (fun i => fam (ix1 i)) i := by
  unfold st41
  exact total _ _ (st38_apply en fam)

/-- The count. -/
theorem st40_apply (fam : IVec S8192 32) :
    st40 fam ix0 = Ideal.ofBits .f32 0x00000000#32 + ∑ i : Fin 8192, weight (fun i => fam (ix1 i)) i := by
  unfold st40
  exact total _ _ (st39_apply fam)

/-- The count clamped below at one. -/
theorem st42_apply (fam : IVec S8192 32) :
    st42 fam ix0 = max (Ideal.ofBits .f32 0x00000000#32 + ∑ i : Fin 8192, weight (fun i => fam (ix1 i)) i) one := by
  unfold st42
  rw [maximumf_apply, constant_apply, st40_apply]
  rfl

/-- A host quotient at an index is the ideal quotient of the entries. -/
theorem hostDivf_apply {s : Shape} (a b : FVec Ideal s .f32) (i : s.Idx) : Host.divf a b i = Ideal.div (a i) (b i) := rfl

/-- THE REFERENCE'S RESULT: the total loss over the count clamped below at one. -/
theorem tailR_eq (en : FVec Ideal S8192x64 .f32) (fam : IVec S8192 32) :
    tailR en fam ValueIdx.ix0
      = result (lossD (fun i k => en (ix2 i k)) (fun i => fam (ix1 i))) (fun i => fam (ix1 i)) := by
  unfold tailR result finish
  rw [hostDivf_apply, st41_apply, st42_apply]

end Cert.ReferenceIdeal.RefRead

end
-- ==== Proof.RefOutTail.lean ====
/-
  The reference's result buffer after its run, as the function `tailR` of two earlier buffers.

  The run's ninety-two operations are cut after the thirty-third, the one that writes the row-normalized embeddings.
  The first part writes the family words and the embeddings among its buffers; the second part — fifty-nine
  operations — never writes those two buffers, so they end the run as the first part left them, and the result
  buffer holds the second part's operations composed over them. That composite is `tailR`, stage by stage.
-/
import proofs.«142051_j14310831030886_2_alg».proof.Proof.RefRead
import proofs.«142051_j14310831030886_2_alg».proof.Proof.RefRun
import Idealize.ShloMosaic.Lib.Pipeline.Frame

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

/-- The first thirty-three operations: the table, the family lookup, the row norms and the normalization. -/
abbrev pre : List (HloOp τ sig (Elt F)) :=
  [ StableHlo.nullary main_c (fun i => lit0 (S6.rowMajor i)),
    StableHlo.TRef.nullary main_call0.c (constantI S_ 32 0#32),
    StableHlo.TRef.unary main_call0.c main_call0.v0 (broadcastInDim S8192 ![] bcast_S_S8192),
    StableHlo.TRef.binary (.of main_arg1 : StableHlo.TRef sig ⟨S8192, .i32⟩) main_call0.v0 main_call0.v1 (cmpi .slt),
    StableHlo.TRef.nullary main_call0.c_0 (constantI S_ 32 6#32),
    StableHlo.TRef.unary main_call0.c_0 main_call0.v2 (broadcastInDim S8192 ![] bcast_S_S8192),
    StableHlo.TRef.binary (.of main_arg1 : StableHlo.TRef sig ⟨S8192, .i32⟩) main_call0.v2 main_call0.v3 addi,
    StableHlo.TRef.ternary main_call0.v1 main_call0.v3 (.of main_arg1 : StableHlo.TRef sig ⟨S8192, .i32⟩) main_call0.call0.v0 select,
    StableHlo.TRef.unary main_call0.call0.v0 main_call0.v5 (broadcastInDim S8192x1 ![0] bcast_S8192_S8192x1_0),
    StableHlo.TRef.nullary main_call0.c_1 (constantI S1 32 5#32),
    StableHlo.TRef.nullary main_call0.c_2 (constantI S_ 32 0#32),
    StableHlo.TRef.unary main_call0.c_2 main_call0.v6 (broadcastInDim S8192x1 ![] bcast_S_S8192x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S8192x1 ![0, 1] bcast_S1x1_S8192x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S8192x1_S8192_d1 h_S_),
    StableHlo.TRef.binary (.of main_c : StableHlo.TRef sig ⟨S6, .i32⟩) main_call0.v5 main_call0.v13 (fun x i => Host.gather gather_S6_S8192x1_S8192_n_0_n_n_0_1_1 x i),
    StableHlo.TRef.nullary main_call0.c_4 (constantI S_ 32 2147483648#32),
    StableHlo.TRef.unary main_call0.c_4 main_call0.v14 (broadcastInDim S8192 ![] bcast_S_S8192),
    StableHlo.TRef.ternary main_call0.v12 main_call0.v13 main_call0.v14 main_call0.v15 select,
    StableHlo.TRef.binary (.of main_arg0 : StableHlo.TRef sig ⟨S8192x64, .f32⟩) (.of main_arg0 : StableHlo.TRef sig ⟨S8192x64, .f32⟩) main_call1.v0 mulf,
    StableHlo.TRef.nullary main_call1.cst (constant S_ .f32 0x00000000#32),
    StableHlo.TRef.binary main_call1.v0 main_call1.cst main_call1.v1 (fun x v => Host.reduceAdd x v reducesTo_S8192x64_S8192_d1 h_S_),
    StableHlo.TRef.unary main_call1.v1 main_call1.v2 (broadcastInDim S8192x1 ![0] bcast_S8192_S8192x1_0),
    StableHlo.TRef.unary main_call1.v2 main_call1.v3 Host.sqrt,
    StableHlo.nullary main_cst (constant S_ .f32 0x2B8CBCCC#32),
    StableHlo.unary main_cst main_v2 (broadcastInDim S8192x1 ![] bcast_S_S8192x1 : (⟨S_, .f32⟩ : BufTy).Contents (Elt F) → (⟨S8192x1, .f32⟩ : BufTy).Contents (Elt F)),
    StableHlo.binary main_v1 main_v2 main_v3 (maximumf : (⟨S8192x1, .f32⟩ : BufTy).Contents (Elt F) → (⟨S8192x1, .f32⟩ : BufTy).Contents (Elt F) → (⟨S8192x1, .f32⟩ : BufTy).Contents (Elt F)),
    StableHlo.unary main_v3 main_v4 (broadcastInDim S8192x64 ![0, 1] bcast_S8192x1_S8192x64_0_1 : (⟨S8192x1, .f32⟩ : BufTy).Contents (Elt F) → (⟨S8192x64, .f32⟩ : BufTy).Contents (Elt F)),
    StableHlo.binary main_arg0 main_v4 main_v5 (Host.divf : (⟨S8192x64, .f32⟩ : BufTy).Contents (Elt F) → (⟨S8192x64, .f32⟩ : BufTy).Contents (Elt F) → (⟨S8192x64, .f32⟩ : BufTy).Contents (Elt F)) ]

/-- The other fifty-nine: everything computed from the family words and the normalized embeddings. The operations
    of the three fills and of the hinge are written directly over their buffers. -/
abbrev post : List (HloOp τ sig (Elt F)) :=
  [ StableHlo.unary main_v5 main_v6 ((transpose S64x8192 [1, 0] · transposes_S8192x64_S64x8192_1_0) : (⟨S8192x64, .f32⟩ : BufTy).Contents (Elt F) → (⟨S64x8192, .f32⟩ : BufTy).Contents (Elt F)),
    StableHlo.binary main_v5 main_v6 main_v7 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_0 (constant S_ .f32 0x3F800000#32),
    StableHlo.unary main_cst_0 main_v8 (broadcastInDim S8192x8192 ![] bcast_S_S8192x8192 : (⟨S_, .f32⟩ : BufTy).Contents (Elt F) → (⟨S8192x8192, .f32⟩ : BufTy).Contents (Elt F)),
    StableHlo.binary main_v8 main_v7 main_v9 (subf : (⟨S8192x8192, .f32⟩ : BufTy).Contents (Elt F) → (⟨S8192x8192, .f32⟩ : BufTy).Contents (Elt F) → (⟨S8192x8192, .f32⟩ : BufTy).Contents (Elt F)),
    StableHlo.unary main_v0 main_v10 (broadcastInDim S8192x1 ![0] bcast_S8192_S8192x1_0 : (⟨S8192, .i32⟩ : BufTy).Contents (Elt F) → (⟨S8192x1, .i32⟩ : BufTy).Contents (Elt F)),
    StableHlo.unary main_v0 main_v11 (broadcastInDim S1x8192 ![1] bcast_S8192_S1x8192_1 : (⟨S8192, .i32⟩ : BufTy).Contents (Elt F) → (⟨S1x8192, .i32⟩ : BufTy).Contents (Elt F)),
    StableHlo.unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v15 (iotaInDim S8192x8192 32 0),
    StableHlo.nullary main_v16 (iotaInDim S8192x8192 32 1),
    StableHlo.nullary main_c_1 (constantI S_ 32 0#32),
    StableHlo.unary main_c_1 main_v17 (broadcastInDim S8192x8192 ![] bcast_S_S8192x8192 : (⟨S_, .i32⟩ : BufTy).Contents (Elt F) → (⟨S8192x8192, .i32⟩ : BufTy).Contents (Elt F)),
    StableHlo.binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    StableHlo.binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v19 main_v20 (noti : (⟨S8192x8192, .i1⟩ : BufTy).Contents (Elt F) → (⟨S8192x8192, .i1⟩ : BufTy).Contents (Elt F)),
    StableHlo.binary main_v14 main_v20 main_v21 (andi : (⟨S8192x8192, .i1⟩ : BufTy).Contents (Elt F) → (⟨S8192x8192, .i1⟩ : BufTy).Contents (Elt F) → (⟨S8192x8192, .i1⟩ : BufTy).Contents (Elt F)),
    StableHlo.unary main_v0 main_v22 (broadcastInDim S8192x1 ![0] bcast_S8192_S8192x1_0 : (⟨S8192, .i32⟩ : BufTy).Contents (Elt F) → (⟨S8192x1, .i32⟩ : BufTy).Contents (Elt F)),
    StableHlo.unary main_v0 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .ne : (⟨S8192x8192, .i32⟩ : BufTy).Contents (Elt F) → (⟨S8192x8192, .i32⟩ : BufTy).Contents (Elt F) → (⟨S8192x8192, .i1⟩ : BufTy).Contents (Elt F)),
    StableHlo.nullary main_cst_2 (constant S_ .f32 0xCE6E6B28#32),
    StableHlo.unary main_cst_2 main_call2_v0 (id : (⟨S_, .f32⟩ : BufTy).Contents (Elt F) → (⟨S_, .f32⟩ : BufTy).Contents (Elt F)),
    StableHlo.unary main_call2_v0 main_call2_v1 (broadcastInDim S8192x8192 ![] bcast_S_S8192x8192 : (⟨S_, .f32⟩ : BufTy).Contents (Elt F) → (⟨S8192x8192, .f32⟩ : BufTy).Contents (Elt F)),
    StableHlo.ternary main_v21 main_v9 main_call2_v1 main_v27 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0xFF800000#32),
    StableHlo.binary main_v27 main_cst_3 main_v28 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_4 (constant S_ .f32 0x4E6E6B28#32),
    StableHlo.unary main_cst_4 main_call3_v0 (id : (⟨S_, .f32⟩ : BufTy).Contents (Elt F) → (⟨S_, .f32⟩ : BufTy).Contents (Elt F)),
    StableHlo.unary main_call3_v0 main_call3_v1 (broadcastInDim S8192x8192 ![] bcast_S_S8192x8192 : (⟨S_, .f32⟩ : BufTy).Contents (Elt F) → (⟨S8192x8192, .f32⟩ : BufTy).Contents (Elt F)),
    StableHlo.ternary main_v26 main_v9 main_call3_v1 main_v29 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_5 (constant S_ .f32 0x7F800000#32),
    StableHlo.binary main_v29 main_cst_5 main_v30 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_6 (constantI S_ 1 0#1),
    StableHlo.binary main_v21 main_c_6 main_v31 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.nullary main_c_7 (constantI S_ 1 0#1),
    StableHlo.binary main_v26 main_c_7 main_v32 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v31 main_v32 main_v33 (andi : (⟨S8192, .i1⟩ : BufTy).Contents (Elt F) → (⟨S8192, .i1⟩ : BufTy).Contents (Elt F) → (⟨S8192, .i1⟩ : BufTy).Contents (Elt F)),
    StableHlo.binary main_v28 main_v30 main_v34 (subf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x3E99999A#32),
    StableHlo.unary main_cst_8 main_v35 (broadcastInDim S8192 ![] bcast_S_S8192 : (⟨S_, .f32⟩ : BufTy).Contents (Elt F) → (⟨S8192, .f32⟩ : BufTy).Contents (Elt F)),
    StableHlo.binary main_v34 main_v35 main_v36 (addf : (⟨S8192, .f32⟩ : BufTy).Contents (Elt F) → (⟨S8192, .f32⟩ : BufTy).Contents (Elt F) → (⟨S8192, .f32⟩ : BufTy).Contents (Elt F)),
    StableHlo.nullary main_call4_cst (constant S_ .f32 0x00000000#32),
    StableHlo.unary main_call4_cst main_call4_v0 (broadcastInDim S8192 ![] bcast_S_S8192 : (⟨S_, .f32⟩ : BufTy).Contents (Elt F) → (⟨S8192, .f32⟩ : BufTy).Contents (Elt F)),
    StableHlo.binary main_v36 main_call4_v0 main_v37 (maximumf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x00000000#32),
    StableHlo.unary main_cst_9 main_call5_v0 (id : (⟨S_, .f32⟩ : BufTy).Contents (Elt F) → (⟨S_, .f32⟩ : BufTy).Contents (Elt F)),
    StableHlo.unary main_call5_v0 main_call5_v1 (broadcastInDim S8192 ![] bcast_S_S8192 : (⟨S_, .f32⟩ : BufTy).Contents (Elt F) → (⟨S8192, .f32⟩ : BufTy).Contents (Elt F)),
    StableHlo.ternary main_v33 main_v37 main_call5_v1 main_v38 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    StableHlo.unary main_v33 main_v39 (uitofp .f32 : (⟨S8192, .i1⟩ : BufTy).Contents (Elt F) → (⟨S8192, .f32⟩ : BufTy).Contents (Elt F)),
    StableHlo.nullary main_cst_10 (constant S_ .f32 0x00000000#32),
    StableHlo.binary main_v39 main_cst_10 main_v40 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_11 (constant S_ .f32 0x00000000#32),
    StableHlo.binary main_v38 main_cst_11 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_12 (constant S_ .f32 0x3F800000#32),
    StableHlo.binary main_v40 main_cst_12 main_v42 (maximumf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)) ]

/-- The run is the first part followed by the second. -/
theorem ops_split : (Cert.ReferenceIdeal.RefRun.ops : List (HloOp τ sig (Elt F))) = pre ++ post := rfl

/-- The second part does not write the embeddings' buffer … -/
theorem post_v5 (W : Valuation τ sig (Elt F)) :
    after post W (main_v5 : DevRef τ sig) = W (main_v5 : DevRef τ sig) := by
  after_results_simp

/-- … nor the family words' buffer. -/
theorem post_v0 (W : Valuation τ sig (Elt F)) :
    after post W (main_v0 : DevRef τ sig) = W (main_v0 : DevRef τ sig) := by
  after_results_simp

/-- The second part leaves, in the result buffer, `tailR` of the two buffers it starts from. -/
theorem post_v43 (W : Valuation τ sig (Elt Ideal)) :
    after (post (F := Ideal)) W (main_v43 : DevRef τ sig)
      = tailR (W (main_v5 : DevRef τ sig)) (W (main_v0 : DevRef τ sig)) := by
  after_results_simp
  unfold tailR st41 st42 st40 st39 st38 st37 st36 st35 st34 st33 st32 st31 st30 st29 st28 st27 st26 st21 st20 st19
    st18 st17 st16 st15 st14 st13 st12 st11 st10 st9 st8 st7 st6
  with_reducible rfl

/-- THE RESULT BUFFER AFTER THE RUN: `tailR` of the embeddings' and the family words' buffers after the run. -/
theorem out_tail (V : Valuation τ sig (Elt Ideal)) :
    after (Cert.ReferenceIdeal.RefRun.ops (F := Ideal)) V (main_v43 : DevRef τ sig)
      = tailR (after (Cert.ReferenceIdeal.RefRun.ops (F := Ideal)) V (main_v5 : DevRef τ sig))
          (after (Cert.ReferenceIdeal.RefRun.ops (F := Ideal)) V (main_v0 : DevRef τ sig)) := by
  rw [ops_split, StableHlo.after_append]
  generalize after (pre (F := Ideal)) V = W
  rw [post_v43, post_v5, post_v0]

end Cert.ReferenceIdeal.RefRead

end
-- ==== Proof.RefOut.lean ====
/-
  The reference program's result as a function of its two arguments.

  The run's fold at the result buffer is the program's last stretch — from the transposed embeddings and their inner
  products down to the quotient of the total loss by the clamped count — applied to what the fold leaves in the
  normalized-embedding buffer and the family buffer; those two are the row normalization of the embeddings and the
  family lookup of the labels the run started from.
-/
import proofs.«142051_j14310831030886_2_alg».proof.Proof.RefPrefix
import proofs.«142051_j14310831030886_2_alg».proof.Proof.RefOutTail

noncomputable section

namespace Cert.ReferenceIdeal.RefOut

open Cert.ReferenceIdeal Cert.ReferenceIdeal.RefRun Cert.ReferenceIdeal.RefPrefix
open Idealize.ShloMosaic Idealize.ShloMosaic.TcCoe Idealize.SL.Sem Idealize.ShloMosaic.StableHlo

/-- After the run the result buffer holds the last stretch's function of the normalized embeddings and the family
    words of the arguments the run started from. -/
theorem out_eq (V : Valuation τ sig (Elt Ideal)) :
    after ops V (main_v43 : DevRef τ sig)
      = Cert.ReferenceIdeal.RefRead.tailR (enR (V (main_arg0 : DevRef τ sig))) (famR (V (main_arg1 : DevRef τ sig))) :=
  (Cert.ReferenceIdeal.RefRead.out_tail V).trans (by rw [v5_eq, v0_eq])

end Cert.ReferenceIdeal.RefOut

end
-- ==== Proof.RefValue.lean ====
/-
  The reference program's run, with its result named by the specification.

  The run ends with the result buffer at the program's last stretch applied to the row-normalized embeddings and the
  family words of the labels. Read at its one index, that is the mean hinge loss of the specification: the total of the
  rows' losses — each the hinge of the hardest positive and hardest negative distances on a row that counts, zero
  elsewhere — over the number of rows that count, clamped below at one; the rows of the normalized array are the
  specification's row normalization of the rows of the argument. The arguments end as they started.
-/
import proofs.«142051_j14310831030886_2_alg».proof.Proof.RefRun
import proofs.«142051_j14310831030886_2_alg».proof.Proof.RefPrefix
import proofs.«142051_j14310831030886_2_alg».proof.Proof.RefOut
import proofs.«142051_j14310831030886_2_alg».proof.Proof.RefRead
import proofs.«142051_j14310831030886_2_alg».proof.Proof.Normalize

noncomputable section

namespace Cert.ReferenceIdeal.RefValue

open Cert.ReferenceIdeal Cert.ReferenceIdeal.RefRun Cert.ReferenceIdeal.RefPrefix
open Idealize.ShloMosaic Idealize.ShloMosaic.TcCoe Idealize.SL.Sem Idealize.ShloMosaic.StableHlo Idealize.ShloMosaic.ValueIdx

/-- The embeddings argument as a table of rows. -/
def xOf (x : FVec Ideal S8192x64 .f32) : Fin 8192 → Fin 64 → EReal := fun i k => x (ValueIdx.ix2 i k)
/-- The family words of the labels argument, row by row. -/
def famOf (lab : IVec S8192 32) : Fin 8192 → BitVec 32 := fun i => Cert.ReferenceIdeal.RefPrefix.famR lab (ValueIdx.ix1 i)

/-- The last stretch applied to the normalized embeddings and the family words is, at its one index, the mean hinge
    loss of the specification over the normalized rows: the normalized array read by coordinates is the row
    normalization of the argument read by coordinates. -/
theorem tail_value (x : FVec Ideal S8192x64 .f32) (lab : IVec S8192 32) :
    Cert.ReferenceIdeal.RefRead.tailR (enR x) (famR lab)
      = fun _ => Cert.Spec.result (Cert.Spec.lossD (Cert.Spec.normalize (xOf x)) (famOf lab)) (famOf lab) := by
  funext j
  obtain rfl : j = ValueIdx.ix0 := ValueIdx.eq_ix0 j
  have hrows : (fun i k => enR x (ix2 i k)) = Cert.Spec.normalize (xOf x) :=
    funext fun i => funext fun k => enR_apply x i k
  rw [Cert.ReferenceIdeal.RefRead.tailR_eq, hrows]
  rfl

/-- At the compiled mesh, from any memory with zero counters: every weakly fair execution of the reference terminates,
    its result buffer ends at the specification's mean hinge loss of the normalized embeddings and the family words of
    the arguments, and the arguments end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
          = (fun _ => Cert.Spec.result
              (Cert.Spec.lossD (Cert.Spec.normalize (xOf (m ((c.tc : Thread nD τ).loc main_arg0))))
                (famOf (m ((c.tc : Thread nD τ).loc main_arg1))))
              (famOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c =>
      ⟨(h c main_v43).trans ((Cert.ReferenceIdeal.RefOut.out_eq (launchContents m c)).trans
          (tail_value (launchContents m c (main_arg0 : DevRef τ sig)) (launchContents m c (main_arg1 : DevRef τ sig)))),
        (h c main_arg0).trans (arg0_eq (F := Ideal) (launchContents m c)),
        (h c main_arg1).trans (arg1_eq (F := Ideal) (launchContents m c))⟩)
    (run_main (F := Ideal) m ρ)

end Cert.ReferenceIdeal.RefValue

end
-- ==== Proof.SpecMath.lean ====
/-
  The two arrangements of the hardest-pair distances give the same loss on row-normalized embeddings.

  A similarity of two rows whose coordinates are reals of absolute value at most one is a real of absolute value at most
  64. The map x ↦ 1 - x on the extended reals reverses the order and is an involution, so it carries a finite infimum to the
  supremum of the images and a finite supremum to the infimum of the images. After that the two arrangements differ only in
  the value that fills the entries that are no pair of the wanted kind (1 - 10^9 against -10^9, and 1 + 10^9 against 10^9),
  and a fill never matters when the row has a pair of the wanted kind whose entry lies on the far side of both fills:
  every distance 1 - sim lies in [-63, 65].
-/
import Mathlib.Data.EReal.Operations
import Mathlib.Algebra.Order.BigOperators.Group.Finset
import Idealize.ShloMosaic.PureOps.Ideal
import proofs.«142051_j14310831030886_2_alg».proof.Proof.Spec

noncomputable section

namespace Cert.Spec

open Idealize.ShloMosaic

/-! ### The three words as reals -/

theorem one_eq : one = 1 := by
  unfold one
  rw [show (1 : EReal) = ((1 : ℝ) : EReal) by norm_cast]
  simp [Ideal.ofBits, Ideal.ieee, -EReal.coe_mul]; norm_num

theorem big_eq : big = ((1000000000 : ℝ) : EReal) := by
  unfold big
  simp [Ideal.ofBits, Ideal.ieee, -EReal.coe_mul]; norm_num

theorem nbig_eq : nbig = ((-1000000000 : ℝ) : EReal) := by
  unfold nbig
  simp [Ideal.ofBits, Ideal.ieee, -EReal.coe_mul, -EReal.coe_neg]; norm_num

/-! ### A similarity is a real of absolute value at most 64 -/

/-- A finite sum of reals, each read as an extended real, is the real sum read as an extended real. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem sim_real {e : Fin 8192 → Fin 64 → EReal} (he : Unit1 e) (i j : Fin 8192) :
    ∃ s : ℝ, sim e i j = (s : EReal) ∧ |s| ≤ 64 := by
  choose r hr using he
  refine ⟨∑ k : Fin 64, r i k * r j k, ?_, ?_⟩
  · unfold sim
    rw [← coe_sum]
    refine Finset.sum_congr rfl fun k _ => ?_
    rw [(hr i k).1, (hr j k).1, EReal.coe_mul]
  · calc |∑ k : Fin 64, r i k * r j k| ≤ ∑ k : Fin 64, |r i k * r j k| := Finset.abs_sum_le_sum_abs _ _
      _ ≤ ∑ _k : Fin 64, (1 : ℝ) := Finset.sum_le_sum fun k _ => by
          rw [abs_mul]; exact mul_le_one₀ (hr i k).2 (abs_nonneg _) (hr j k).2
      _ = 64 := by simp

/-! ### x ↦ 1 - x carries a finite infimum to a supremum and a finite supremum to an infimum -/

theorem one_sub_min (x y : EReal) : 1 - min x y = max (1 - x) (1 - y) := by
  rcases le_total x y with h | h
  · rw [min_eq_left h, max_eq_left (EReal.sub_le_sub le_rfl h)]
  · rw [min_eq_right h, max_eq_right (EReal.sub_le_sub le_rfl h)]

theorem one_sub_max (x y : EReal) : 1 - max x y = min (1 - x) (1 - y) := by
  rcases le_total x y with h | h
  · rw [max_eq_right h, min_eq_right (EReal.sub_le_sub le_rfl h)]
  · rw [max_eq_left h, min_eq_left (EReal.sub_le_sub le_rfl h)]

theorem one_sub_inf {ι : Type*} (s : Finset ι) (g : ι → EReal) :
    1 - s.inf g = s.sup fun j => 1 - g j := by
  classical
  induction s using Finset.induction_on with
  | empty => rw [Finset.inf_empty, Finset.sup_empty, EReal.sub_top]
  | insert a s _ ih => rw [Finset.inf_insert, Finset.sup_insert, ← ih]; exact one_sub_min _ _

theorem one_sub_sup {ι : Type*} (s : Finset ι) (g : ι → EReal) :
    1 - s.sup g = s.inf fun j => 1 - g j := by
  classical
  induction s using Finset.induction_on with
  | empty =>
    rw [Finset.inf_empty, Finset.sup_empty, show (1 : EReal) = ((1 : ℝ) : EReal) by norm_cast, EReal.coe_sub_bot]
  | insert a s _ ih => rw [Finset.inf_insert, Finset.sup_insert, ← ih]; exact one_sub_max _ _

/-! ### The fill does not matter on a row that has an entry beyond it -/

theorem sup_fill_le {ι : Type*} [Fintype ι] (P : ι → Prop) [∀ j, Decidable (P j)] (f : ι → EReal) (c c' : EReal)
    (j₀ : ι) (h₀ : P j₀) (hc : c ≤ f j₀) :
    (Finset.univ.sup fun j => if P j then f j else c) ≤ Finset.univ.sup fun j => if P j then f j else c' := by
  refine Finset.sup_le fun j _ => ?_
  have key : ∀ j, P j → f j ≤ Finset.univ.sup fun j => if P j then f j else c' := fun j hj =>
    (le_of_eq (if_pos hj).symm).trans
      (Finset.le_sup (f := fun j => if P j then f j else c') (Finset.mem_univ j))
  by_cases hj : P j
  · rw [if_pos hj]; exact key j hj
  · rw [if_neg hj]; exact hc.trans (key j₀ h₀)

theorem inf_fill_le {ι : Type*} [Fintype ι] (P : ι → Prop) [∀ j, Decidable (P j)] (f : ι → EReal) (c c' : EReal)
    (j₀ : ι) (h₀ : P j₀) (hc : f j₀ ≤ c') :
    (Finset.univ.inf fun j => if P j then f j else c) ≤ Finset.univ.inf fun j => if P j then f j else c' := by
  refine Finset.le_inf fun j _ => ?_
  have key : ∀ j, P j → (Finset.univ.inf fun j => if P j then f j else c) ≤ f j := fun j hj =>
    (Finset.inf_le (f := fun j => if P j then f j else c) (Finset.mem_univ j)).trans (le_of_eq (if_pos hj))
  by_cases hj : P j
  · rw [if_pos hj]; exact key j hj
  · rw [if_neg hj]; exact (key j₀ h₀).trans hc

/-! ### The two arrangements agree -/

theorem dpos_eq {e : Fin 8192 → Fin 64 → EReal} (fam : Fin 8192 → BitVec 32) (he : Unit1 e) (i j₀ : Fin 8192)
    (h₀ : same fam i j₀) : dposS e fam i = dposD e fam i := by
  obtain ⟨s, hs, hb⟩ := sim_real he i j₀
  have hb' := abs_le.mp hb
  unfold dposS dposD
  rw [one_eq, one_sub_inf]
  have hfun : (fun j => (1 : EReal) - if same fam i j then sim e i j else big)
      = fun j => if same fam i j then 1 - sim e i j else 1 - big := by
    funext j; split <;> rfl
  rw [hfun]
  have h1 : (1 : EReal) - big ≤ 1 - sim e i j₀ := by
    rw [hs, big_eq, ← EReal.coe_one, ← EReal.coe_sub, ← EReal.coe_sub, EReal.coe_le_coe_iff]; linarith
  have h2 : nbig ≤ 1 - sim e i j₀ := by
    rw [hs, nbig_eq, ← EReal.coe_one, ← EReal.coe_sub, EReal.coe_le_coe_iff]; linarith
  exact le_antisymm (sup_fill_le _ _ _ _ j₀ h₀ h1) (sup_fill_le _ _ _ _ j₀ h₀ h2)

theorem dneg_eq {e : Fin 8192 → Fin 64 → EReal} (fam : Fin 8192 → BitVec 32) (he : Unit1 e) (i j₁ : Fin 8192)
    (h₁ : diff fam i j₁) : dnegS e fam i = dnegD e fam i := by
  obtain ⟨s, hs, hb⟩ := sim_real he i j₁
  have hb' := abs_le.mp hb
  unfold dnegS dnegD
  rw [one_eq, one_sub_sup]
  have hfun : (fun j => (1 : EReal) - if diff fam i j then sim e i j else nbig)
      = fun j => if diff fam i j then 1 - sim e i j else 1 - nbig := by
    funext j; split <;> rfl
  rw [hfun]
  have h1 : (1 : EReal) - sim e i j₁ ≤ 1 - nbig := by
    rw [hs, nbig_eq, ← EReal.coe_one, ← EReal.coe_sub, ← EReal.coe_sub, EReal.coe_le_coe_iff]; linarith
  have h2 : (1 : EReal) - sim e i j₁ ≤ big := by
    rw [hs, big_eq, ← EReal.coe_one, ← EReal.coe_sub, EReal.coe_le_coe_iff]; linarith
  exact le_antisymm (inf_fill_le _ _ _ _ j₁ h₁ h2) (inf_fill_le _ _ _ _ j₁ h₁ h1)

/-- On row-normalized embeddings the loss of a row is the same in both arrangements. -/
theorem lossS_eq_lossD (e : Fin 8192 → Fin 64 → EReal) (fam : Fin 8192 → BitVec 32) (he : Unit1 e) (i : Fin 8192) :
    lossS e fam i = lossD e fam i := by
  unfold lossS lossD
  by_cases hv : valid fam i
  · obtain ⟨⟨j₀, h₀⟩, ⟨j₁, h₁⟩⟩ := hv
    rw [dpos_eq fam he i j₀ h₀, dneg_eq fam he i j₁ h₁]
  · rw [if_neg hv, if_neg hv]

end Cert.Spec

end
-- ==== Proof.Finite.lean ====
/-
  The precondition says that every entry of the embeddings array has absolute value below +∞. Over the extended reals
  that is exactly: every entry is a real number. The precondition is a conjunction over all entries (a reduction by
  "and" from the constant one), so when it is one, each entry's comparison max a (-a) < +∞ is one; an entry that were
  +∞ or -∞ would have max a (-a) = +∞, which is not below +∞.
-/
import proofs.«142051_j14310831030886_2_alg».proof.Pre_finite_inputs
import Idealize.ShloMosaic.Lib.ValueIdx
import Idealize.ShloMosaic.Lib.ReduceAll
import Idealize.ShloMosaic.PureOps.Ideal
import Idealize.ShloMosaic.PureOps.Ideal.Laws

namespace Cert.Proof.Finite

open Idealize.ShloMosaic

/-- The word 0x7F800000 is +∞. -/
theorem ofBits_inf : Ideal.ofBits .f32 0x7F800000#32 = ⊤ := by simp [Ideal.ofBits, Ideal.ieee]

/-- An extended real whose absolute value max a (-a) compares below +∞ is a real number. -/
theorem real_of_abs_lt_top (a : EReal) (h : Ideal.cmp .olt (max a (-a)) ⊤ = 1#1) : ∃ r : ℝ, a = (r : EReal) := by
  induction a using EReal.rec with
  | bot => exfalso; simp [Ideal.cmp] at h
  | coe r => exact ⟨r, rfl⟩
  | top => exfalso; simp [Ideal.cmp] at h

/-- When the precondition holds of the two argument arrays, every entry of the first is a real number. -/
theorem real_of_pre [Cert.Pre_finite_inputs.Facts] (x : FVec Ideal Cert.Pre_finite_inputs.S8192x64 .f32)
    (lab : IVec Cert.Pre_finite_inputs.S8192 32)
    (h : Cert.Pre_finite_inputs.fn (F := Ideal) x lab = fun _ => 1#1) :
    ∀ (i : Fin 8192) (k : Fin 64), ∃ r : ℝ, x (ValueIdx.ix2 i k) = (r : EReal) := by
  intro i k
  haveI : Subsingleton Cert.Pre_finite_inputs.S_.Idx := ⟨fun a b => funext fun d => d.elim0⟩
  have h0 := congrFun h ValueIdx.ix0
  dsimp only [Cert.Pre_finite_inputs.fn] at h0
  have h1 := Host.reduce_andi_all _ _ _ _ _ h0 (ValueIdx.ix2 i k)
  have h2 : Ideal.cmp .olt (max (x (ValueIdx.ix2 i k)) (-(x (ValueIdx.ix2 i k)))) (Ideal.ofBits .f32 0x7F800000#32) = 1#1 := h1
  rw [ofBits_inf] at h2
  exact real_of_abs_lt_top _ h2

end Cert.Proof.Finite
-- ==== Proof.PrefixSame.lean ====
/-
  The two programs apply the same host operations to their arguments before anything else: the family lookup and the
  row normalization of one program are, operation for operation, those of the other. The two programs' shapes and side
  conditions are separate constants with identical definitions, so the two pairs of functions are equal by unfolding.
-/
import proofs.«142051_j14310831030886_2_alg».proof.Proof.KPrefix
import proofs.«142051_j14310831030886_2_alg».proof.Proof.RefPrefix

namespace Cert.Proof.PrefixSame

open Idealize.ShloMosaic

/-- The family words are the same function of the labels in both programs. -/
theorem famK_eq_famR : Cert.KernelIdeal.Hand.famK = Cert.ReferenceIdeal.RefPrefix.famR := rfl

/-- The normalized embeddings are the same function of the embeddings in both programs. -/
theorem enK_eq_enR : Cert.KernelIdeal.Hand.enK = Cert.ReferenceIdeal.RefPrefix.enR := rfl

end Cert.Proof.PrefixSame
-- ==== Proof.Algebraic.lean ====
/-
  The two programs, read over the extended reals, end with equal results from memories that agree on the arguments.

  The kernel program's run ends with its result at the mean hinge loss of the specification in the arrangement that
  takes the extremum of the similarities first; the reference program's run ends at the same mean in the arrangement that
  takes the extremum of the distances. Both are stated over the same two tables: the row normalization of the
  embeddings argument read by coordinates, and the family words of the labels argument — the family lookup is the same
  function of the labels in both programs. The precondition makes every entry of the embeddings a real number, so
  every coordinate of a normalized row is a real of absolute value at most one, and on such rows the two arrangements
  give the same loss row by row.
-/
import proofs.«142051_j14310831030886_2_alg».proof.Defs
import proofs.«142051_j14310831030886_2_alg».proof.Proof.Gen.KernelIdeal
import proofs.«142051_j14310831030886_2_alg».proof.Proof.Gen.ReferenceIdeal
import proofs.«142051_j14310831030886_2_alg».proof.Proof.Gen.Pre_finite_inputs
import proofs.«142051_j14310831030886_2_alg».proof.Proof.KValueRun
import proofs.«142051_j14310831030886_2_alg».proof.Proof.RefValue
import proofs.«142051_j14310831030886_2_alg».proof.Proof.SpecMath
import proofs.«142051_j14310831030886_2_alg».proof.Proof.Normalize
import proofs.«142051_j14310831030886_2_alg».proof.Proof.Finite
import proofs.«142051_j14310831030886_2_alg».proof.Proof.PrefixSame

noncomputable section

namespace Cert.Proof.Alg

open Idealize.ShloMosaic Idealize.SL.Sem

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_value m' ρ')
  -- the two memories agree on the arguments
  rw [(hagree c).1, (hagree c).2]
  -- every entry of the embeddings is a real number, so a normalized row's coordinates are at most one in absolute value
  have hU : Cert.Spec.Unit1 (Cert.Spec.normalize (Cert.KernelIdeal.Hand.xOfK
      (m ((c.tc : Thread Cert.KernelIdeal.nD Cert.KernelIdeal.τ).loc Cert.KernelIdeal.main_arg0)))) :=
    Cert.Spec.unit1_normalize _ (Cert.Proof.Finite.real_of_pre _ _ (hpre c))
  -- the family lookup is one function of the labels in both programs
  have hf : Cert.ReferenceIdeal.RefValue.famOf
        (m ((c.tc : Thread Cert.KernelIdeal.nD Cert.KernelIdeal.τ).loc Cert.KernelIdeal.main_arg1))
      = Cert.KernelIdeal.Hand.famOfK
        (m ((c.tc : Thread Cert.KernelIdeal.nD Cert.KernelIdeal.τ).loc Cert.KernelIdeal.main_arg1)) := by
    unfold Cert.ReferenceIdeal.RefValue.famOf Cert.KernelIdeal.Hand.famOfK
    rw [Cert.Proof.PrefixSame.famK_eq_famR]
  -- on such rows the two arrangements give the same loss
  have hl : Cert.Spec.lossD (Cert.Spec.normalize (Cert.KernelIdeal.Hand.xOfK
          (m ((c.tc : Thread Cert.KernelIdeal.nD Cert.KernelIdeal.τ).loc Cert.KernelIdeal.main_arg0))))
        (Cert.KernelIdeal.Hand.famOfK
          (m ((c.tc : Thread Cert.KernelIdeal.nD Cert.KernelIdeal.τ).loc Cert.KernelIdeal.main_arg1)))
      = Cert.Spec.lossS (Cert.Spec.normalize (Cert.KernelIdeal.Hand.xOfK
          (m ((c.tc : Thread Cert.KernelIdeal.nD Cert.KernelIdeal.τ).loc Cert.KernelIdeal.main_arg0))))
        (Cert.KernelIdeal.Hand.famOfK
          (m ((c.tc : Thread Cert.KernelIdeal.nD Cert.KernelIdeal.τ).loc Cert.KernelIdeal.main_arg1))) :=
    funext fun i => (Cert.Spec.lossS_eq_lossD _ _ hU i).symm
  rw [hf]
  show (fun _ => Cert.Spec.result (Cert.Spec.lossD (Cert.Spec.normalize (Cert.KernelIdeal.Hand.xOfK
        (m ((c.tc : Thread Cert.KernelIdeal.nD Cert.KernelIdeal.τ).loc Cert.KernelIdeal.main_arg0)))) _) _) = _
  rw [hl]
  rfl

end Cert.Proof.Alg

end
-- ==== Proof.lean ====
/-
  The certificate of a hierarchical-affinity loss kernel against its reference.

  Both programs take 8192 embeddings of 64 coordinates and 8192 labels. On the host both look the labels up in a
  six-entry family table and divide every embedding row by the larger of its Euclidean norm and a small constant. From
  the normalized rows `e` and the family words `fam` a row `i` COUNTS when some other row has its family and some row
  has another family; for such a row the loss is the hinge `max (d_pos - d_neg + margin) 0` of its hardest positive
  distance `d_pos` — the largest `1 - ⟨e i, e j⟩` over other rows `j` of its family — and its hardest negative distance
  `d_neg` — the smallest `1 - ⟨e i, e j⟩` over rows of other families. The result is the total loss divided by the number
  of rows that count, that number clamped below at one.

  The reference forms the 8192 x 8192 matrix of distances and takes row maxima and minima of it with the entries that are
  no pair filled by `∓10^9`. The kernel never forms the matrix in memory: over a grid of 32 points it multiplies 256 rows
  against all 8192, takes row minima and maxima of the SIMILARITIES with the fills `±10^9`, subtracts from one afterwards,
  and writes 256 losses and 256 weights per point; the host sums them and divides. The two arrangements agree on every
  row that counts because a similarity of normalized rows lies in `[-64, 64]`, far inside the fills (each coordinate of a
  normalized row is at most one in absolute value — here the finiteness of the inputs is used), so a fill never wins an
  extremum; on a row that does not count both give zero.

  The five claims: each of the three programs runs to the end without fault and leaves its two arguments as launched
  (the kernel's at the word level and at the ideal values — one proof, read at both —, the reference's from its run);
  the idealization rewrote nothing; and at the ideal values the two results are equal.
-/
import proofs.«142051_j14310831030886_2_alg».proof.Defs
import proofs.«142051_j14310831030886_2_alg».proof.Proof.Gen.Kernel
import proofs.«142051_j14310831030886_2_alg».proof.Proof.Gen.Kernel.Skeleton
import proofs.«142051_j14310831030886_2_alg».proof.Proof.Gen.Kernel.Launch
import proofs.«142051_j14310831030886_2_alg».proof.Proof.Gen.Kernel.Points
import proofs.«142051_j14310831030886_2_alg».proof.Proof.Gen.KernelIdeal
import proofs.«142051_j14310831030886_2_alg».proof.Proof.Gen.KernelIdeal.Skeleton
import proofs.«142051_j14310831030886_2_alg».proof.Proof.Gen.KernelIdeal.Launch
import proofs.«142051_j14310831030886_2_alg».proof.Proof.Gen.KernelIdeal.Points
import proofs.«142051_j14310831030886_2_alg».proof.Proof.Gen.ReferenceIdeal
import proofs.«142051_j14310831030886_2_alg».proof.Proof.Gen.Pre_finite_inputs
import proofs.«142051_j14310831030886_2_alg».proof.Proof.KFrame
import proofs.«142051_j14310831030886_2_alg».proof.Proof.KFrameBits
import proofs.«142051_j14310831030886_2_alg».proof.Proof.RefFrame
import proofs.«142051_j14310831030886_2_alg».proof.Proof.Algebraic
import Idealize.ShloMosaic.Adequacy
import Idealize.ShloMosaic.Init

noncomputable section

namespace Cert.Proof

open Idealize.ShloMosaic Idealize.SL.Sem

/-- The five claims: the three frames, the (empty) list of rewrites, the equality of the results at the ideal values. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefFrame.frame_ri,
  trivial,
  Cert.Proof.Alg.algebraic⟩

end Cert.Proof

end
